-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S192x40 : Shape := ⟨2, ![192, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x40 : S_.BroadcastsInDim S192x40 (![] : Fin 0 → Fin S192x40.rank)
  reducesTo_S192x40_S_d0_1 : S192x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S64 .f32) (main_arg8 : FVec F S192x40 .f32) (main_arg9 : FVec F S40 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S192x40 .f32 := Host.absf main_arg8
  let main_cst_14 : FVec F S_ .f32 := constant S_ .f32 0x7F800000#32
  let main_v40 : FVec F S192x40 .f32 := broadcastInDim S192x40 ![] bcast_S_S192x40 main_cst_14
  let main_v41 : IVec S192x40 1 := cmpf .olt main_v39 main_v40
  let main_c_15 : IVec S_ 1 := constantI S_ 1 1#1
  let main_v42 : IVec S_ 1 := (fun x v => Host.reduce IntOp.andi x v reducesTo_S192x40_S_d0_1 h_S_) main_v41 main_c_15
  let main_v43 : IVec S_ 1 := andi main_v38 main_v42
  let main_v44 : FVec F S40 .f32 := Host.absf main_arg9
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg4 : FVec F S64x64 .f32) (main_arg5 : FVec F S64 .f32) (main_arg6 : FVec F S64x64 .f32) (main_arg7 : FVec F S64 .f32) (main_arg8 : FVec F S192x40 .f32) (main_arg9 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S192x40 .f32) (main_arg9 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S192x40 : Shape := ⟨2, ![192, 40]⟩
abbrev S40 : Shape := ⟨1, ![40]⟩
abbrev S1x64 : Shape := ⟨2, ![1, 64]⟩
abbrev S1x40 : Shape := ⟨2, ![1, 40]⟩
abbrev S64x40 : Shape := ⟨2, ![64, 40]⟩
abbrev S10000x64 : Shape := ⟨2, ![10000, 64]⟩
abbrev S200x10000 : Shape := ⟨2, ![200, 10000]⟩
abbrev S200x64 : Shape := ⟨2, ![200, 64]⟩
abbrev S400x10000 : Shape := ⟨2, ![400, 10000]⟩
abbrev S400x64 : Shape := ⟨2, ![400, 64]⟩
abbrev S10000x40 : Shape := ⟨2, ![10000, 40]⟩
abbrev S400x40 : Shape := ⟨2, ![400, 40]⟩
abbrev S400 : Shape := ⟨1, ![400]⟩
abbrev S400x1 : Shape := ⟨2, ![400, 1]⟩

abbrev nBuf : Space → Nat
  | .hbm => 23
  | .vmem => 36
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S192x40, .f32⟩
  | .hbm, ⟨9, _⟩ => ⟨S40, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x40, .f32⟩
  | .hbm, ⟨14, _⟩ => ⟨S64x40, .f32⟩
  | .hbm, ⟨15, _⟩ => ⟨S64x40, .f32⟩
  | .hbm, ⟨16, _⟩ => ⟨S64x40, .f32⟩
  | .hbm, ⟨17, _⟩ => ⟨S10000x10000, .bf16⟩
  | .hbm, ⟨18, _⟩ => ⟨S10000x64, .f32⟩
  | .hbm, ⟨19, _⟩ => ⟨S10000x64, .bf16⟩
  | .hbm, ⟨20, _⟩ => ⟨S10000x64, .f32⟩
  | .hbm, ⟨21, _⟩ => ⟨S10000x64, .bf16⟩
  | .hbm, ⟨22, _⟩ => ⟨S10000x40, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S128x64, .f32⟩
  | .local _ .vmem, ⟨4, _⟩ => ⟨S1x64, .f32⟩
  | .local _ .vmem, ⟨5, _⟩ => ⟨S64x64, .f32⟩
  | .local _ .vmem, ⟨6, _⟩ => ⟨S200x10000, .bf16⟩
  | .local _ .vmem, ⟨7, _⟩ => ⟨S200x10000, .bf16⟩
  | .local _ .vmem, ⟨8, _⟩ => ⟨S200x64, .f32⟩
  | .local _ .vmem, ⟨9, _⟩ => ⟨S200x64, .f32⟩
  | .local _ .vmem, ⟨10, _⟩ => ⟨S200x64, .bf16⟩
  | .local _ .vmem, ⟨11, _⟩ => ⟨S200x64, .bf16⟩
  | .local _ .vmem, ⟨12, _⟩ => ⟨S10000x64, .bf16⟩
  | .local _ .vmem, ⟨13, _⟩ => ⟨S400x10000, .bf16⟩
  | .local _ .vmem, ⟨14, _⟩ => ⟨S400x10000, .bf16⟩
  | .local _ .vmem, ⟨15, _⟩ => ⟨S10000x64, .bf16⟩
  | .local _ .vmem, ⟨16, _⟩ => ⟨S1x64, .f32⟩
  | .local _ .vmem, ⟨17, _⟩ => ⟨S64x64, .f32⟩
  | .local _ .vmem, ⟨18, _⟩ => ⟨S400x64, .f32⟩
  | .local _ .vmem, ⟨19, _⟩ => ⟨S400x64, .f32⟩
  | .local _ .vmem, ⟨20, _⟩ => ⟨S400x64, .bf16⟩
  | .local _ .vmem, ⟨21, _⟩ => ⟨S400x64, .bf16⟩
  | .local _ .vmem, ⟨22, _⟩ => ⟨S400x10000, .bf16⟩
  | .local _ .vmem, ⟨23, _⟩ => ⟨S400x10000, .bf16⟩
  | .local _ .vmem, ⟨24, _⟩ => ⟨S10000x64, .bf16⟩
  | .local _ .vmem, ⟨25, _⟩ => ⟨S400x64, .f32⟩
  | .local _ .vmem, ⟨26, _⟩ => ⟨S400x64, .f32⟩
  | .local _ .vmem, ⟨27, _⟩ => ⟨S400x64, .f32⟩
  | .local _ .vmem, ⟨28, _⟩ => ⟨S400x64, .f32⟩
  | .local _ .vmem, ⟨29, _⟩ => ⟨S1x64, .f32⟩
  | .local _ .vmem, ⟨30, _⟩ => ⟨S64x40, .f32⟩
  | .local _ .vmem, ⟨31, _⟩ => ⟨S64x40, .f32⟩
  | .local _ .vmem, ⟨32, _⟩ => ⟨S64x40, .f32⟩
  | .local _ .vmem, ⟨33, _⟩ => ⟨S1x40, .f32⟩
  | .local _ .vmem, ⟨34, _⟩ => ⟨S400x40, .f32⟩
  | .local _ .vmem, ⟨35, _⟩ => ⟨S400x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v8_0 : Ref sig .tc := ⟨.hbm, 20, rfl⟩
abbrev main_v8_1 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem9_1 : DmaSem sig := 34

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S200x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x40 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x40 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x40 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S400x40 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  shapeCasts_S64_S1x64 : S64.ShapeCasts S1x64
  shapeCasts_S40_S1x40 : S40.ShapeCasts S1x40
  slices_S192x40_S64x40_0_0 : S192x40.Slices ![0, 0] S64x40
  slices_S192x40_S64x40_64_0 : S192x40.Slices ![64, 0] S64x40
  slices_S192x40_S64x40_128_0 : S192x40.Slices ![128, 0] S64x40
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  packedbf16_S10000x64_S10000x64_0_0 : (Rect.unit (s := S10000x64) ![0, 0] S10000x64.size inb_S10000x64_S10000x64_0_0).PackedRows (EltTy.packing .bf16)
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S200x64_S200x64_0_0 : ∀ a, (![0, 0] : Fin 2 → Nat) a + S200x64.size a ≤ S200x64.size a
  h_S200x64 : 0 < S200x64.numel
  inb_S64x64_S64x64_0_0 : ∀ a, (![0, 0] : Fin 2 → Nat) a + S64x64.size a ≤ S64x64.size a
  h_S64x64 : 0 < S64x64.numel
  packedbf16_S200x64_S200x64_0_0 : (Rect.unit (s := S200x64) ![0, 0] S200x64.size inb_S200x64_S200x64_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  broadcasts_S1x64_S400x64 : S1x64.Broadcasts S400x64
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  shapeCasts_S400x64_S400x64 : S400x64.ShapeCasts S400x64
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S400x40 : S1x40.Broadcasts S400x40
  reduces_S400x40_S400 : S400x40.Reduces [1] S400
  shapeCasts_S400_S400x1 : S400.ShapeCasts S400x1
  broadcasts_S400x1_S400x40 : S400x1.Broadcasts S400x40
  inb_S400x40_S400x40_0_0 : ∀ a, (![0, 0] : Fin 2 → Nat) a + S400x40.size a ≤ S400x40.size a
  h_S400x40 : 0 < S400x40.numel
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  dot_S200x64_S64x64_S200x64_1_0_0_1_n_n_wf : DotDims.WF S200x64 S64x64 S200x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  dot_S400x64_S64x40_S400x40_1_0_0_1_n_n_wf : DotDims.WF S400x64 S64x40 S400x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x10000.size a ≤ S10000x10000.size a
  hwx0_5 : ∀ i : grid0.Coords, EltTy.bits .bf16 = 32 ∨ (Rect.block (s := S10000x10000) S200x10000.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x64.size a ≤ S10000x64.size a
  hwx0_6 : ∀ i : grid0.Coords, EltTy.bits .f32 = 32 ∨ (Rect.block (s := S10000x64) S200x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x64.size a ≤ S10000x64.size a
  hwx0_7 : ∀ i : grid0.Coords, EltTy.bits .bf16 = 32 ∨ (Rect.block (s := S10000x64) S200x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .bf16 = 32 ∨ (Rect.block (s := S10000x64) S10000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .f32 = 32 ∨ (Rect.block (s := S10000x64) S400x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x64.size a ≤ S10000x64.size a
  hwx1_5 : ∀ i : grid1.Coords, EltTy.bits .bf16 = 32 ∨ (Rect.block (s := S10000x64) S400x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x64.size a ≤ S10000x64.size a
  hwx2_2 : ∀ i : grid2.Coords, EltTy.bits .f32 = 32 ∨ (Rect.block (s := S10000x64) S400x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x64.size a ≤ S10000x64.size a
  hwx2_3 : ∀ i : grid2.Coords, EltTy.bits .f32 = 32 ∨ (Rect.block (s := S10000x64) S400x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x40.size a ≤ S64x40.size a
  hwx2_5 : ∀ i : grid2.Coords, EltTy.bits .f32 = 32 ∨ (Rect.block (s := S64x40) S64x40.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x40.size a ≤ S64x40.size a
  hwx2_6 : ∀ i : grid2.Coords, EltTy.bits .f32 = 32 ∨ (Rect.block (s := S64x40) S64x40.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x40.size a ≤ S64x40.size a
  hwx2_7 : ∀ i : grid2.Coords, EltTy.bits .f32 = 32 ∨ (Rect.block (s := S64x40) S64x40.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x40.size a ≤ S1x40.size a
  hwx2_8 : ∀ i : grid2.Coords, EltTy.bits .f32 = 32 ∨ (Rect.block (s := S1x40) S1x40.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S400x40.size a ≤ S10000x40.size a
  hwx2_9 : ∀ i : grid2.Coords, EltTy.bits .f32 = 32 ∨ (Rect.block (s := S10000x40) S400x40.size (cc2_transform_9 i) (hinb2_9 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x64_S200x64_1_0_0_1_n_n : DotDims S200x64 S64x64 S200x64 where
  lhsContracting := [1]
  rhsContracting := [0]
  lhsNonContracting := [0]
  rhsNonContracting := [1]
  lhsBatch := []
  rhsBatch := []
  wf := dot_S200x64_S64x64_S200x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf
def dot_S400x64_S64x40_S400x40_1_0_0_1_n_n : DotDims S400x64 S64x40 S400x40 where
  lhsContracting := [1]
  rhsContracting := [0]
  lhsNonContracting := [0]
  rhsNonContracting := [1]
  lhsBatch := []
  rhsBatch := []
  wf := dot_S400x64_S64x40_S400x40_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S200x10000.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S200x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_2) S200x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v7_0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_2) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8_0) S400x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8_1) S400x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v7_0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8_1) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7_1) S400x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8_0) S400x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S64x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v5) S64x40.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v6) S64x40.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v3) S1x40.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v9) S400x40.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S192x40 : Shape := ⟨2, ![192, 40]⟩
abbrev S40 : Shape := ⟨1, ![40]⟩
abbrev S10000x64 : Shape := ⟨2, ![10000, 64]⟩
abbrev S1x64 : Shape := ⟨2, ![1, 64]⟩
abbrev S_ : Shape := ⟨0, ![]⟩
abbrev S10000x192 : Shape := ⟨2, ![10000, 192]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 51
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S192x40, .f32⟩
  | .hbm, ⟨9, _⟩ => ⟨S40, .f32⟩
  | .hbm, ⟨10, _⟩ => ⟨S10000x64, .f32⟩
  | .hbm, ⟨11, _⟩ => ⟨S10000x64, .f32⟩
  | .hbm, ⟨12, _⟩ => ⟨S1x64, .f32⟩
  | .hbm, ⟨13, _⟩ => ⟨S10000x64, .f32⟩
  | .hbm, ⟨14, _⟩ => ⟨S10000x64, .f32⟩
  | .hbm, ⟨15, _⟩ => ⟨S_, .f32⟩
  | .hbm, ⟨16, _⟩ => ⟨S10000x64, .f32⟩
  | .hbm, ⟨17, _⟩ => ⟨S10000x64, .f32⟩
  | .hbm, ⟨18, _⟩ => ⟨S10000x64, .f32⟩
  | .hbm, ⟨19, _⟩ => ⟨S10000x64, .f32⟩
  | .hbm, ⟨20, _⟩ => ⟨S1x64, .f32⟩
  | .hbm, ⟨21, _⟩ => ⟨S10000x64, .f32⟩
  | .hbm, ⟨22, _⟩ => ⟨S10000x64, .f32⟩
  | .hbm, ⟨23, _⟩ => ⟨S_, .f32⟩
  | .hbm, ⟨24, _⟩ => ⟨S10000x64, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S1x64, .f32⟩
  | .hbm, ⟨29, _⟩ => ⟨S10000x64, .f32⟩
  | .hbm, ⟨30, _⟩ => ⟨S10000x64, .f32⟩
  | .hbm, ⟨31, _⟩ => ⟨S10000x192, .f32⟩
  | .hbm, ⟨32, _⟩ => ⟨S10000x40, .f32⟩
  | .hbm, ⟨33, _⟩ => ⟨S1x40, .f32⟩
  | .hbm, ⟨34, _⟩ => ⟨S10000x40, .f32⟩
  | .hbm, ⟨35, _⟩ => ⟨S10000x40, .f32⟩
  | .hbm, ⟨36, _⟩ => ⟨S_, .f32⟩
  | .hbm, ⟨37, _⟩ => ⟨S10000, .f32⟩
  | .hbm, ⟨38, _⟩ => ⟨S_, .f32⟩
  | .hbm, ⟨39, _⟩ => ⟨S10000, .f32⟩
  | .hbm, ⟨40, _⟩ => ⟨S10000, .f32⟩
  | .hbm, ⟨41, _⟩ => ⟨S10000x1, .f32⟩
  | .hbm, ⟨42, _⟩ => ⟨S10000x40, .f32⟩
  | .hbm, ⟨43, _⟩ => ⟨S10000x40, .f32⟩
  | .hbm, ⟨44, _⟩ => ⟨S10000x40, .f32⟩
  | .hbm, ⟨45, _⟩ => ⟨S_, .f32⟩
  | .hbm, ⟨46, _⟩ => ⟨S10000, .f32⟩
  | .hbm, ⟨47, _⟩ => ⟨S10000x1, .f32⟩
  | .hbm, ⟨48, _⟩ => ⟨S10000x1, .f32⟩
  | .hbm, ⟨49, _⟩ => ⟨S10000x40, .f32⟩
  | .hbm, ⟨50, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call2_cst : Ref sig .tc := ⟨.hbm, 36, rfl⟩
abbrev main_call2_v0 : Ref sig .tc := ⟨.hbm, 37, rfl⟩
abbrev main_call2_cst_0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_cst_1 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_v22 : Ref sig .tc := ⟨.hbm, 50, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  concatenates_S10000x64_S10000x64_S10000x64_S10000x192_d1 : Shape.Concatenates [S10000x64, S10000x64, S10000x64] S10000x192 1
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []
  dot_S10000x192_S192x40_S10000x40_1_0_0_1_n_n_wf : DotDims.WF S10000x192 S192x40 S10000x40 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x192_S192x40_S10000x40_1_0_0_1_n_n : DotDims S10000x192 S192x40 S10000x40 where
  lhsContracting := [1]
  rhsContracting := [0]
  lhsNonContracting := [0]
  rhsNonContracting := [1]
  lhsBatch := []
  rhsBatch := []
  wf := dot_S10000x192_S192x40_S10000x40_1_0_0_1_n_n_wf

class Facts : Prop extends Facts₀ where

variable [Facts]
-- ==== Proof.K.Reg0.lean ====
/-
  The first pallas_call region (pass 1 of the graph-convolution network), body half, at any float instance and at a
  parameter `V`, the TensorCore's buffer contents when the region is entered.

  The region has 50 grid points; point `t` handles rows 200·t … 200·t + 199 of the adjacency. Its body keeps one scratch
  buffer across points: at the first point it stores the support matrix s1 = x · W1 there (the whole of x and W1 are
  staged at every point), and at every point it reads that matrix back. So after ANY point the scratch holds the same
  contents, the support matrix computed from the two whole arrays, and the three output blocks at point `t` are functions
  of the adjacency block at `t`, that matrix, the bias row and the second weight matrix.
-/
import proofs.«130456_g21895743275233_cont_8to1_495_2_alg».proof.Proof.Gen.Kernel.Launch
import proofs.«130456_g21895743275233_cont_8to1_495_2_alg».proof.Proof.Gen.Kernel.Skeleton
import proofs.«130456_g21895743275233_cont_8to1_495_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rA : Rect S200x10000 := Rect.unit (s := S200x10000) ![0, 0] S200x10000.size inb_S200x10000_S200x10000_0_0
abbrev rX : Rect S10000x128 := Rect.unit (s := S10000x128) ![0, 0] S10000x128.size inb_S10000x128_S10000x128_0_0
abbrev rW1 : Rect S128x64 := Rect.unit (s := S128x64) ![0, 0] S128x64.size inb_S128x64_S128x64_0_0
abbrev rB : Rect S1x64 := Rect.unit (s := S1x64) ![0, 0] S1x64.size inb_S1x64_S1x64_0_0
abbrev rW2 : Rect S64x64 := Rect.unit (s := S64x64) ![0, 0] S64x64.size inb_S64x64_S64x64_0_0
abbrev rO : Rect S200x64 := Rect.unit (s := S200x64) ![0, 0] S200x64.size inb_S200x64_S200x64_0_0
abbrev rS : Rect S10000x64 := Rect.unit (s := S10000x64) ![0, 0] S10000x64.size inb_S10000x64_S10000x64_0_0

/-! ## What the body leaves in the scratch and in each output window's buffer -/

/-- The support matrix x · W1 as the first point stores it into the scratch. -/
def scr0 (x1 : Vec F S10000x128 .f32) (x2 : Vec F S128x64 .f32) : Vec F S10000x64 .bf16 :=
  View.canon [⟨rS, k0_pay1 (View.ld x1 rX) (View.ld x2 rW1)⟩]
/-- Output window 5 (the re-formatted adjacency block) after the body. -/
def out0_5 (x0 : Vec F S200x10000 .f32) : Vec F S200x10000 .bf16 :=
  View.canon [⟨rA, k0_pay2 (View.ld x0 rA)⟩]
/-- Output window 6 (the first hidden layer's block) after the body, from the adjacency block, the scratch and the bias row. -/
def out0_6 (x0 : Vec F S200x10000 .f32) (xs : Vec F S10000x64 .bf16) (x3 : Vec F S1x64 .f32) : Vec F S200x64 .f32 :=
  View.canon [⟨rO, k0_pay3 (View.ld x0 rA) (View.ld xs rS) (View.ld x3 rB)⟩]
/-- Output window 7 (the next layer's support block) after the body. -/
def out0_7 (x0 : Vec F S200x10000 .f32) (xs : Vec F S10000x64 .bf16) (x3 : Vec F S1x64 .f32) (x4 : Vec F S64x64 .f32) : Vec F S200x64 .bf16 :=
  View.canon [⟨rO, k0_pay4 (View.ld x0 rA) (View.ld xs rS) (View.ld x3 rB) (View.ld x4 rW2)⟩]

theorem coverS (p0 : Vec F S10000x64 .bf16) (y : S10000x64.Idx) :
    ∃ pc ∈ ([⟨rS, p0⟩] : List (View.Piece (Elt F) S10000x64 .bf16)), y ∈ pc.1.set :=
  View.cover_of_tiled [⟨rS, p0⟩] S10000x64.size (by rfl) y
theorem cover0_5 (p0 : Vec F S200x10000 .bf16) (y : S200x10000.Idx) :
    ∃ pc ∈ ([⟨rA, p0⟩] : List (View.Piece (Elt F) S200x10000 .bf16)), y ∈ pc.1.set :=
  View.cover_of_tiled [⟨rA, p0⟩] S200x10000.size (by rfl) y
theorem cover0_6 (p0 : Vec F S200x64 .f32) (y : S200x64.Idx) :
    ∃ pc ∈ ([⟨rO, p0⟩] : List (View.Piece (Elt F) S200x64 .f32)), y ∈ pc.1.set :=
  View.cover_of_tiled [⟨rO, p0⟩] S200x64.size (by rfl) y
theorem cover0_7 (p0 : Vec F S200x64 .bf16) (y : S200x64.Idx) :
    ∃ pc ∈ ([⟨rO, p0⟩] : List (View.Piece (Elt F) S200x64 .bf16)), y ∈ pc.1.set :=
  View.cover_of_tiled [⟨rO, p0⟩] S200x64.size (by rfl) y

/-! ## The branch condition -/

/-- The body's one branch: taken exactly when the grid coordinate is 0. -/
abbrev cond0 (i : grid0.Coords) : Prop :=
  (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-! ## The body's triple, at a point that is not the first -/

set_option maxHeartbeats 4000000 in
/-- Away from the first point the body leaves the scratch as it found it and stores the three output blocks. -/
theorem sound_kernel0_B (c : Dev nD) (E : Set ℕ) (i : grid0.Coords) (hc : ¬ cond0 i)
    (arg1 : Memref sig .tc .vmem S200x10000 .f32) (harg1 : arg1.IsWhole) (arg2 : Memref sig .tc .vmem S10000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S200x10000 .bf16) (harg6 : arg6.IsWhole)
    (arg7 : Memref sig .tc .vmem S200x64 .f32) (harg7 : arg7.IsWhole) (arg8 : Memref sig .tc .vmem S200x64 .bf16) (harg8 : arg8.IsWhole)
    (arg9 : Memref sig .tc .vmem S10000x64 .bf16) (harg9 : arg9.IsWhole)
    (x0 : Vec F S200x10000 .f32) (x1 : Vec F S10000x128 .f32) (x2 : Vec F S128x64 .f32) (x3 : Vec F S1x64 .f32) (x4 : Vec F S64x64 .f32)
    (xs : Vec F S10000x64 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0) ∗ owns (c : Thread nD τ) arg7 fullShare (out0_6 x0 xs x3)
            ∗ owns (c : Thread nD τ) arg8 fullShare (out0_7 x0 xs x3 x4) ∗ owns (c : Thread nD τ) arg9 fullShare xs) -∗ K ⟨⟩))
      ⊢ wp frame (wpE (defs₀ (F := F)) Variants.none c none) E
          (cc0__pass1_kernel i arg1 harg1 arg2 harg2 arg3 harg3 arg4 harg4 arg5 harg5 arg6 harg6 arg7 harg7 arg8 harg8 arg9 harg9) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs, %hfs, HS⟩, Hk⟩
  subst hf0; subst hf1; subst hf2; subst hf3; subst hf4; subst hfs
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  iexists fs; isplitr; · ipureintro; rfl
  iexact HS

/-! ## The body's triple, at the first point -/

set_option maxHeartbeats 4000000 in
/-- At the first point the body first stores the support matrix into the scratch (whatever it held), then does what it does
    at every point, reading the scratch back. -/
theorem sound_kernel0_A (c : Dev nD) (E : Set ℕ) (i : grid0.Coords) (hc : cond0 i)
    (arg1 : Memref sig .tc .vmem S200x10000 .f32) (harg1 : arg1.IsWhole) (arg2 : Memref sig .tc .vmem S10000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S200x10000 .bf16) (harg6 : arg6.IsWhole)
    (arg7 : Memref sig .tc .vmem S200x64 .f32) (harg7 : arg7.IsWhole) (arg8 : Memref sig .tc .vmem S200x64 .bf16) (harg8 : arg8.IsWhole)
    (arg9 : Memref sig .tc .vmem S10000x64 .bf16) (harg9 : arg9.IsWhole)
    (x0 : Vec F S200x10000 .f32) (x1 : Vec F S10000x128 .f32) (x2 : Vec F S128x64 .f32) (x3 : Vec F S1x64 .f32) (x4 : Vec F S64x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0) ∗ owns (c : Thread nD τ) arg7 fullShare (out0_6 x0 (scr0 x1 x2) x3)
            ∗ owns (c : Thread nD τ) arg8 fullShare (out0_7 x0 (scr0 x1 x2) x3 x4) ∗ owns (c : Thread nD τ) arg9 fullShare (scr0 x1 x2)) -∗ K ⟨⟩))
      ⊢ wp frame (wpE (defs₀ (F := F)) Variants.none c none) E
          (cc0__pass1_kernel i arg1 harg1 arg2 harg2 arg3 harg3 arg4 harg4 arg5 harg5 arg6 harg6 arg7 harg7 arg8 harg8 arg9 harg9) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds, %fs, -, HS⟩, Hk⟩
  subst hf0; subst hf1; subst hf2; subst hf3; subst hf4
  sl_exec (disch := exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    refine (View.read_writes_eq_canon _ _ _ (cover0_6 _)).trans ?_
    rw [View.readCov_eq_canon_ld _ _ _ (coverS _)]
    rfl
  isplitl [H7]
  · iexists _; isplitr
    swap; · iexact H7
    ipureintro
    refine (View.read_writes_eq_canon _ _ _ (cover0_7 _)).trans ?_
    rw [View.readCov_eq_canon_ld _ _ _ (coverS _)]
    rfl
  iexists _; isplitr
  swap; · iexact HS
  ipureintro
  exact View.read_writes_eq_canon _ _ _ (coverS _)

/-! ## The carried scratch and the region's invariant -/

/-- The scratch buffer, whole. -/
abbrev scM0 : Memref sig .tc .vmem S10000x64 .bf16 := Memref.whole cc0_scratch0
/-- The grid's first point. -/
abbrev t00 : Fin cfg0.N := ⟨0, lt_of_lt_of_eq (by decide : 0 < 50) (show cfg0.N = 50 from N_0).symm⟩
/-- What the scratch holds after every point: the support matrix of the two whole arrays (windows 1 and 2 show the
    whole of x and W1 at every point; the first point's blocks name them). -/
def scrAt (c : Dev nD) : Vec F S10000x64 .bf16 := scr0 (iblk0 V c 1 t00) (iblk0 V c 2 t00)

/-- The core's scoped buffers that are neither a staging buffer of this region nor its scratch, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg8_0), ((c : Thread nD τ).loc cc2_stg8_0) ↦{fullShare} f) ∗ (∃ f : Buf (Elt F) ((c : Thread nD τ).loc cc2_stg9_0), ((c : Thread nD τ).loc cc2_stg9_0) ↦{fullShare} f) ∗ (∃ f : Buf (Elt F) ((c : Thread nD τ).loc cc2_stg9_1), ((c : Thread nD τ).loc cc2_stg9_1) ↦{fullShare} f))

/-- The class invariant with the scratch split off as a memref owned at some contents. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA; rw [scopedRest0_eq]; simp only [scM0, owns_whole, rest0]; try rfl

/-- The invariant before position `t`: before the first point every scoped buffer at anything; afterwards the scratch at the
    support matrix, the other scoped buffers at anything; the generator register at some state throughout. -/
def Phi0 (c : Dev nD) (t : Fin (cfg0.N + 1)) : sProp 𝕄 :=
  if t.val = 0 then Pipeline.ΦA spec0 c
  else iprop((owns (c : Thread nD τ) scM0 fullShare (scrAt V c) ∗ rest0 c) ∗ (∃ r, prngReg c r))

theorem Phi0_zero (c : Dev nD) (t : Fin (cfg0.N + 1)) (h : t.val = 0) : Phi0 V c t = Pipeline.ΦA spec0 c := by
  unfold Phi0; rw [if_pos h]
theorem Phi0_pos (c : Dev nD) (t : Fin (cfg0.N + 1)) (h : t.val ≠ 0) :
    Phi0 V c t = iprop((owns (c : Thread nD τ) scM0 fullShare (scrAt V c) ∗ rest0 c) ∗ (∃ r, prngReg c r)) := by
  unfold Phi0; rw [if_neg h]

/-! ## The pipeline's proof data -/

/-- The proof data of pipeline 0 on core `c`: the arrays as the region finds them; after the body at point `t` each input's
    buffer at its block and each output's at its function of the adjacency block, the support matrix, the bias row and
    the second weight matrix; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t)
    | ⟨6, _⟩ => out0_6 (iblk0 V c 0 t) (scrAt V c) (iblk0 V c 3 t)
    | ⟨7, _⟩ => out0_7 (iblk0 V c 0 t) (scrAt V c) (iblk0 V c 3 t) (iblk0 V c 4 t)
  Φ t := Phi0 V c t
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) := by dsimp only [dat0]
theorem after0_6 (c : Dev nD) (t : Fin cfg0.N) : (dat0 V c).after 6 t = out0_6 (iblk0 V c 0 t) (scrAt V c) (iblk0 V c 3 t) := by dsimp only [dat0]
theorem after0_7 (c : Dev nD) (t : Fin cfg0.N) : (dat0 V c).after 7 t = out0_7 (iblk0 V c 0 t) (scrAt V c) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' memrefs hold their blocks; at the first point the invariant hands over the scratch at
    anything and takes it back at the support matrix, at every later point it hands it over and takes it back at the
    support matrix. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5, after0_6, after0_7]
  rw [show (dat0 V c).Φ t.succ = Phi0 V c t.succ from rfl, Phi0_pos V c t.succ (by simp),
    show (dat0 V c).Φ t.castSucc = Phi0 V c t.castSucc from rfl]
  by_cases hz : t.val = 0
  · rw [Phi0_zero V c t.castSucc (by simpa using hz), PhiA0_eq]
    have ht : t = t00 := Fin.ext hz
    have hs : scrAt V c = scr0 (iblk0 V c 1 t) (iblk0 V c 2 t) := by unfold scrAt; rw [ht]
    rw [hs]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_A c Set.univ (grid0.coords t) ((hcond0 t).mpr hz) _ _ _ _ _ _ _ _ _ _ _ _ _ _ _ _ _ _
      (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Phi0_pos V c t.castSucc (by simpa using hz)]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_B c Set.univ (grid0.coords t) (fun h => hz ((hcond0 t).mp h)) _ _ _ _ _ _ _ _ _ _ _ _ _ _ _ _ _ _
      (iblk0 V c 0 t) (iblk0 V c 1 t) (iblk0 V c 2 t) (iblk0 V c 3 t) (iblk0 V c 4 t) (scrAt V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem PhiIn0 (c : Dev nD) : (dat0 V c).Φ 0 = Pipeline.ΦA spec0 c :=
  Phi0_zero V c 0 rfl

/-- After the last point the invariant gives the class invariant back: what the scratch holds is forgotten. -/
theorem PhiOut0 (c : Dev nD) : (dat0 V c).Φ (Fin.last cfg0.N) ⊢ (Pipeline.ΦA spec0 c : sProp 𝕄) := by
  rw [show (dat0 V c).Φ (Fin.last cfg0.N) = Phi0 V c (Fin.last cfg0.N) from rfl,
    Phi0_pos V c (Fin.last cfg0.N) (by rw [Fin.val_last, show cfg0.N = 50 from N_0]; decide), PhiA0_eq]
  iintro ⟨⟨HS, Hrest⟩, Hg⟩
  isplitl [HS Hrest]
  · isplitl [HS]; · iexists _; iexact HS
    iexact Hrest
  iexact Hg

end Cert.Kernel.Hand

end
-- ==== Proof.K.Reg1.lean ====
/-
  The second pallas_call region (pass 2 of the graph-convolution network), body half, at any float instance and at a
  parameter `V`, the TensorCore's buffer contents when the region is entered.

  The region has 25 grid points; point `t` handles rows 400·t … 400·t + 399 of the adjacency. Its body reads the
  adjacency block, the whole support matrix s2, the bias row b2 and the weight matrix W3, and writes two blocks: the
  layer output x2 = max(adj · s2 · 1 + b2, 0) and the next support matrix s3 = x2 · W3 rounded to the narrow format.
  Every load and every store is of a whole staging buffer, so each output block at point `t` is one payload of the
  four input blocks at `t`.
-/
import proofs.«130456_g21895743275233_cont_8to1_495_2_alg».proof.Proof.Gen.Kernel.Launch
import proofs.«130456_g21895743275233_cont_8to1_495_2_alg».proof.Proof.Gen.Kernel.Skeleton
import proofs.«130456_g21895743275233_cont_8to1_495_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether it was fetched there or not
    (where it was not fetched, its block index has not moved since the last fetch). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether it was fetched there or not
    (where it was not fetched, its block index has not moved since the last fetch). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether it was fetched there or not
    (where it was not fetched, its block index has not moved since the last fetch). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether it was fetched there or not
    (where it was not fetched, its block index has not moved since the last fetch). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S400x10000 := Rect.unit (s := S400x10000) ![0, 0] S400x10000.size inb_S400x10000_S400x10000_0_0
abbrev r1_1 : Rect S10000x64 := Rect.unit (s := S10000x64) ![0, 0] S10000x64.size inb_S10000x64_S10000x64_0_0
abbrev r1_2 : Rect S1x64 := Rect.unit (s := S1x64) ![0, 0] S1x64.size inb_S1x64_S1x64_0_0
abbrev r1_3 : Rect S64x64 := Rect.unit (s := S64x64) ![0, 0] S64x64.size inb_S64x64_S64x64_0_0
abbrev r1_4 : Rect S400x64 := Rect.unit (s := S400x64) ![0, 0] S400x64.size inb_S400x64_S400x64_0_0

/-! ## What the body leaves in each output window's buffer -/

/-- Window 4's staging buffer after the body, from the input windows' blocks: its one store, of the layer output. -/
def out1_4 (x0 : Vec F S400x10000 .bf16) (x1 : Vec F S10000x64 .bf16) (x2 : Vec F S1x64 .f32) : Vec F S400x64 .f32 :=
  View.canon [⟨r1_4, k1_pay1 (View.ld x0 r1_0) (View.ld x1 r1_1) (View.ld x2 r1_2)⟩]

/-- The store is of the whole buffer, so it covers it. -/
theorem cover1_4 (p0 : Vec F S400x64 .f32) (y : S400x64.Idx) :
    ∃ pc ∈ ([⟨r1_4, p0⟩] : List (View.Piece (Elt F) S400x64 .f32)), y ∈ pc.1.set :=
  View.cover_of_tiled [⟨r1_4, p0⟩] S400x64.size (by rfl) y

/-- Window 5's staging buffer after the body, from the input windows' blocks: its one store, of the next support
    matrix's block. -/
def out1_5 (x0 : Vec F S400x10000 .bf16) (x1 : Vec F S10000x64 .bf16) (x2 : Vec F S1x64 .f32) (x3 : Vec F S64x64 .f32) : Vec F S400x64 .bf16 :=
  View.canon [⟨r1_4, k1_pay2 (View.ld x0 r1_0) (View.ld x1 r1_1) (View.ld x2 r1_2) (View.ld x3 r1_3)⟩]

/-- The store is of the whole buffer, so it covers it. -/
theorem cover1_5 (p0 : Vec F S400x64 .bf16) (y : S400x64.Idx) :
    ∃ pc ∈ ([⟨r1_4, p0⟩] : List (View.Piece (Elt F) S400x64 .bf16)), y ∈ pc.1.set :=
  View.cover_of_tiled [⟨r1_4, p0⟩] S400x64.size (by rfl) y

/-! ## The body's triple -/

set_option maxHeartbeats 1000000 in
/-- The kernel body on whole staging memrefs, the inputs' at read contents `xW` and the outputs' at anything, runs to
    the continuation holding the inputs' as they were and each output's at `out1_W` of the inputs'. (The body also
    loads each output buffer before it stores into it; the loaded value is not used.) -/
theorem sound_kernel1 (c : Dev nD) (E : Set ℕ) (i : grid1.Coords)
    (arg1 : Memref sig .tc .vmem S400x10000 .bf16) (harg1 : arg1.IsWhole) (arg2 : Memref sig .tc .vmem S10000x64 .bf16) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S400x64 .f32) (harg5 : arg5.IsWhole) (arg6 : Memref sig .tc .vmem S400x64 .bf16) (harg6 : arg6.IsWhole)
    (x0 : Vec F S400x10000 .bf16) (x1 : Vec F S10000x64 .bf16) (x2 : Vec F S1x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2)
            ∗ owns (c : Thread nD τ) arg6 fullShare (out1_5 x0 x1 x2 x3)) -∗ K ⟨⟩))
      ⊢ wp frame (wpE (defs₀ (F := F)) Variants.none c none) E (cc1__pass2_kernel i arg1 harg1 arg2 harg2 arg3 harg3 arg4 harg4 arg5 harg5 arg6 harg6) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of this pipeline on core `c`: the arrays as the region finds them (`V`); after the body at point
    `t` each input's buffer at its block and each output's at `out1_W` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t)
    | ⟨5, _⟩ => out1_5 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  The third pallas_call region (pass 3 of the graph-convolution network), body half, at any float instance and at a
  parameter `V`, the TensorCore's buffer contents when the region is entered.

  The region has 25 grid points; point `t` handles rows 400·t … 400·t + 399. Its body reads the adjacency block, the
  whole support matrix s3, the blocks of the two earlier layer outputs x1 and x2, the bias row b3, the three 64-row
  slices of the classifier's weight matrix and its bias row, and writes one block: the row-wise log-softmax of
  logits = x1 · Wl1 + x2 · Wl2 + x3 · Wl3 + bl, where x3 = adj · s3 · 1 + b3. Every load and the one store are of a
  whole staging buffer, so the output block at point `t` is one payload of the nine input blocks at `t`.
-/
import proofs.«130456_g21895743275233_cont_8to1_495_2_alg».proof.Proof.Gen.Kernel.Launch
import proofs.«130456_g21895743275233_cont_8to1_495_2_alg».proof.Proof.Gen.Kernel.Skeleton
import proofs.«130456_g21895743275233_cont_8to1_495_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether it was fetched there or not
    (where it was not fetched, its block index has not moved since the last fetch). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether it was fetched there or not
    (where it was not fetched, its block index has not moved since the last fetch). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether it was fetched there or not
    (where it was not fetched, its block index has not moved since the last fetch). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether it was fetched there or not
    (where it was not fetched, its block index has not moved since the last fetch). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether it was fetched there or not
    (where it was not fetched, its block index has not moved since the last fetch). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether it was fetched there or not
    (where it was not fetched, its block index has not moved since the last fetch). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, whether it was fetched there or not
    (where it was not fetched, its block index has not moved since the last fetch). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, whether it was fetched there or not
    (where it was not fetched, its block index has not moved since the last fetch). -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, whether it was fetched there or not
    (where it was not fetched, its block index has not moved since the last fetch). -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev r2_0 : Rect S400x10000 := Rect.unit (s := S400x10000) ![0, 0] S400x10000.size inb_S400x10000_S400x10000_0_0
abbrev r2_1 : Rect S10000x64 := Rect.unit (s := S10000x64) ![0, 0] S10000x64.size inb_S10000x64_S10000x64_0_0
abbrev r2_2 : Rect S1x64 := Rect.unit (s := S1x64) ![0, 0] S1x64.size inb_S1x64_S1x64_0_0
abbrev r2_3 : Rect S400x64 := Rect.unit (s := S400x64) ![0, 0] S400x64.size inb_S400x64_S400x64_0_0
abbrev r2_4 : Rect S64x40 := Rect.unit (s := S64x40) ![0, 0] S64x40.size inb_S64x40_S64x40_0_0
abbrev r2_5 : Rect S1x40 := Rect.unit (s := S1x40) ![0, 0] S1x40.size inb_S1x40_S1x40_0_0
abbrev r2_6 : Rect S400x40 := Rect.unit (s := S400x40) ![0, 0] S400x40.size inb_S400x40_S400x40_0_0

/-! ## What the body leaves in the output window's buffer -/

/-- Window 9's staging buffer after the body, from the input windows' blocks: its one store, of the log-softmax of the
    logits (the logits, their row maxima and the exponentials of the shifted logits are the three values the body's
    first part returns). -/
def out2_9 (x0 : Vec F S400x10000 .bf16) (x1 : Vec F S10000x64 .bf16) (x2 : Vec F S400x64 .f32) (x3 : Vec F S400x64 .f32) (x4 : Vec F S1x64 .f32) (x5 : Vec F S64x40 .f32) (x6 : Vec F S64x40 .f32) (x7 : Vec F S64x40 .f32) (x8 : Vec F S1x40 .f32) : Vec F S400x40 .f32 :=
  View.canon [⟨r2_6, k2_pay1 (k2_pay2 (View.ld x0 r2_0) (View.ld x1 r2_1) (View.ld x4 r2_2) (View.ld x2 r2_3) (View.ld x5 r2_4) (View.ld x3 r2_3) (View.ld x6 r2_4) (View.ld x7 r2_4) (View.ld x8 r2_5))
    (k2_pay3 (View.ld x0 r2_0) (View.ld x1 r2_1) (View.ld x4 r2_2) (View.ld x2 r2_3) (View.ld x5 r2_4) (View.ld x3 r2_3) (View.ld x6 r2_4) (View.ld x7 r2_4) (View.ld x8 r2_5))
    (k2_pay4 (View.ld x0 r2_0) (View.ld x1 r2_1) (View.ld x4 r2_2) (View.ld x2 r2_3) (View.ld x5 r2_4) (View.ld x3 r2_3) (View.ld x6 r2_4) (View.ld x7 r2_4) (View.ld x8 r2_5))⟩]

/-- The store is of the whole buffer, so it covers it. -/
theorem cover2_9 (p0 : Vec F S400x40 .f32) (y : S400x40.Idx) :
    ∃ pc ∈ ([⟨r2_6, p0⟩] : List (View.Piece (Elt F) S400x40 .f32)), y ∈ pc.1.set :=
  View.cover_of_tiled [⟨r2_6, p0⟩] S400x40.size (by rfl) y

/-! ## The body's triple -/

set_option maxHeartbeats 1000000 in
/-- The kernel body on whole staging memrefs, the inputs' at read contents `xW` and the output's at anything, runs to
    the continuation holding the inputs' as they were and the output's at `out2_9` of the inputs'. (The body also loads
    the output buffer before it stores into it; the loaded value is not used.) -/
theorem sound_kernel2 (c : Dev nD) (E : Set ℕ) (i : grid2.Coords)
    (arg1 : Memref sig .tc .vmem S400x10000 .bf16) (harg1 : arg1.IsWhole)
    (arg2 : Memref sig .tc .vmem S10000x64 .bf16) (harg2 : arg2.IsWhole)
    (arg3 : Memref sig .tc .vmem S400x64 .f32) (harg3 : arg3.IsWhole)
    (arg4 : Memref sig .tc .vmem S400x64 .f32) (harg4 : arg4.IsWhole)
    (arg5 : Memref sig .tc .vmem S1x64 .f32) (harg5 : arg5.IsWhole)
    (arg6 : Memref sig .tc .vmem S64x40 .f32) (harg6 : arg6.IsWhole)
    (arg7 : Memref sig .tc .vmem S64x40 .f32) (harg7 : arg7.IsWhole)
    (arg8 : Memref sig .tc .vmem S64x40 .f32) (harg8 : arg8.IsWhole)
    (arg9 : Memref sig .tc .vmem S1x40 .f32) (harg9 : arg9.IsWhole)
    (arg10 : Memref sig .tc .vmem S400x40 .f32) (harg10 : arg10.IsWhole)
    (x0 : Vec F S400x10000 .bf16) (x1 : Vec F S10000x64 .bf16) (x2 : Vec F S400x64 .f32) (x3 : Vec F S400x64 .f32) (x4 : Vec F S1x64 .f32) (x5 : Vec F S64x40 .f32) (x6 : Vec F S64x40 .f32) (x7 : Vec F S64x40 .f32) (x8 : Vec F S1x40 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out2_9 x0 x1 x2 x3 x4 x5 x6 x7 x8)) -∗ K ⟨⟩))
      ⊢ wp frame (wpE (defs₀ (F := F)) Variants.none c none) E (cc2__pass3_kernel i arg1 harg1 arg2 harg2 arg3 harg3 arg4 harg4 arg5 harg5 arg6 harg6 arg7 harg7 arg8 harg8 arg9 harg9 arg10 harg10) K := by
  simp only [cc2__pass3_kernel_eq_skeleton]; unfold cc2__pass3_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The pipeline's proof data -/

/-- The proof data of this pipeline on core `c`: the arrays as the region finds them (`V`); after the body at point
    `t` each input's buffer at its block and each output's at `out2_W` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of the whole program: one stretch of host operations (four reshapes of bias vectors and three row-slices of the
  classifier matrix) and then the three pallas_call regions back to back. The buffer contents at each boundary are a fold
  from the launch memory: after the host stretch its operations applied; after a region its arrays at what its
  write-backs leave and every other buffer as entered. Every argument array is read back through the fold to its launch
  contents (no host operation writes one; a region stages one through an input window or leaves it alone), and the
  result array is the last region's output window folded over its grid.
-/
import proofs.«130456_g21895743275233_cont_8to1_495_2_alg».proof.Proof.K.Reg0
import proofs.«130456_g21895743275233_cont_8to1_495_2_alg».proof.Proof.K.Reg1
import proofs.«130456_g21895743275233_cont_8to1_495_2_alg».proof.Proof.K.Reg2
import proofs.«130456_g21895743275233_cont_8to1_495_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (an input as entered, an output its write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (an input as entered, an output its write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (an input as entered, an output its write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_writes_sub hostOps0 _ hostOps0_writes (by decide : main_arg1 ∉ hostOps0_W)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ hostOps0_writes (by decide : main_arg2 ∉ hostOps0_W)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_writes_sub hostOps0 _ hostOps0_writes (by decide : main_arg4 ∉ hostOps0_W)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := (W3_arr m ρ c 3).trans (((dat1 (V2 m ρ) c).arrAt_in 3 rfl _).trans (A_eq1 (V2 m ρ) c 3))
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from PhiIn0 (V1 m ρ) c]; unfold Pipeline.ΦA
    iintro ⟨Hp, -, Hr⟩
    isplitl [Hr]; · iexact Hr
    iexact Hp
  hout c := by
    rw [Pipeline.ownSems0_none]
    refine (PhiOut0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are split
    out of the unscoped buffers and put back at the exit contents; the generator register goes into the invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting; the final state
    has the result array at the last boundary's contents and every argument array as launched. -/
theorem run_all : θ_run defs (onTc (τ := τ) (main (F := F))) ⟨m, fun _ => 0, ρ⟩ (fun r => ∀ c : Dev nD,
      r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_all m ρ)

/-- The result array at the end is the last region's output window folded over its grid. -/
theorem W4_result (c : Dev nD) : W4 m ρ c (Proc.devRef .tc main_v9) = (dat2 (V3 m ρ) c).arrAt 9 cfg2.N :=
  W4_arr m ρ c 9

end Cert.Kernel.Hand

end
-- ==== Proof.KI.Reg0.lean ====
/-
  The first pallas_call region (pass 1 of the graph-convolution network), body half, at any float instance and at a
  parameter `V`, the TensorCore's buffer contents when the region is entered.

  The region has 50 grid points; point `t` handles rows 200·t … 200·t + 199 of the adjacency. Its body keeps one scratch
  buffer across points: at the first point it stores the support matrix s1 = x · W1 there (the whole of x and W1 are
  staged at every point), and at every point it reads that matrix back. So after ANY point the scratch holds the same
  contents, the support matrix computed from the two whole arrays, and the three output blocks at point `t` are functions
  of the adjacency block at `t`, that matrix, the bias row and the second weight matrix.
-/
import proofs.«130456_g21895743275233_cont_8to1_495_2_alg».proof.Proof.Gen.KernelIdeal.Launch
import proofs.«130456_g21895743275233_cont_8to1_495_2_alg».proof.Proof.Gen.KernelIdeal.Skeleton
import proofs.«130456_g21895743275233_cont_8to1_495_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rA : Rect S200x10000 := Rect.unit (s := S200x10000) ![0, 0] S200x10000.size inb_S200x10000_S200x10000_0_0
abbrev rX : Rect S10000x128 := Rect.unit (s := S10000x128) ![0, 0] S10000x128.size inb_S10000x128_S10000x128_0_0
abbrev rW1 : Rect S128x64 := Rect.unit (s := S128x64) ![0, 0] S128x64.size inb_S128x64_S128x64_0_0
abbrev rB : Rect S1x64 := Rect.unit (s := S1x64) ![0, 0] S1x64.size inb_S1x64_S1x64_0_0
abbrev rW2 : Rect S64x64 := Rect.unit (s := S64x64) ![0, 0] S64x64.size inb_S64x64_S64x64_0_0
abbrev rO : Rect S200x64 := Rect.unit (s := S200x64) ![0, 0] S200x64.size inb_S200x64_S200x64_0_0
abbrev rS : Rect S10000x64 := Rect.unit (s := S10000x64) ![0, 0] S10000x64.size inb_S10000x64_S10000x64_0_0

/-! ## What the body leaves in the scratch and in each output window's buffer -/

/-- The support matrix x · W1 as the first point stores it into the scratch. -/
def scr0 (x1 : Vec F S10000x128 .f32) (x2 : Vec F S128x64 .f32) : Vec F S10000x64 .bf16 :=
  View.canon [⟨rS, k0_pay1 (View.ld x1 rX) (View.ld x2 rW1)⟩]
/-- Output window 5 (the re-formatted adjacency block) after the body. -/
def out0_5 (x0 : Vec F S200x10000 .f32) : Vec F S200x10000 .bf16 :=
  View.canon [⟨rA, k0_pay2 (View.ld x0 rA)⟩]
/-- Output window 6 (the first hidden layer's block) after the body, from the adjacency block, the scratch and the bias row. -/
def out0_6 (x0 : Vec F S200x10000 .f32) (xs : Vec F S10000x64 .bf16) (x3 : Vec F S1x64 .f32) : Vec F S200x64 .f32 :=
  View.canon [⟨rO, k0_pay3 (View.ld x0 rA) (View.ld xs rS) (View.ld x3 rB)⟩]
/-- Output window 7 (the next layer's support block) after the body. -/
def out0_7 (x0 : Vec F S200x10000 .f32) (xs : Vec F S10000x64 .bf16) (x3 : Vec F S1x64 .f32) (x4 : Vec F S64x64 .f32) : Vec F S200x64 .bf16 :=
  View.canon [⟨rO, k0_pay4 (View.ld x0 rA) (View.ld xs rS) (View.ld x3 rB) (View.ld x4 rW2)⟩]

theorem coverS (p0 : Vec F S10000x64 .bf16) (y : S10000x64.Idx) :
    ∃ pc ∈ ([⟨rS, p0⟩] : List (View.Piece (Elt F) S10000x64 .bf16)), y ∈ pc.1.set :=
  View.cover_of_tiled [⟨rS, p0⟩] S10000x64.size (by rfl) y
theorem cover0_5 (p0 : Vec F S200x10000 .bf16) (y : S200x10000.Idx) :
    ∃ pc ∈ ([⟨rA, p0⟩] : List (View.Piece (Elt F) S200x10000 .bf16)), y ∈ pc.1.set :=
  View.cover_of_tiled [⟨rA, p0⟩] S200x10000.size (by rfl) y
theorem cover0_6 (p0 : Vec F S200x64 .f32) (y : S200x64.Idx) :
    ∃ pc ∈ ([⟨rO, p0⟩] : List (View.Piece (Elt F) S200x64 .f32)), y ∈ pc.1.set :=
  View.cover_of_tiled [⟨rO, p0⟩] S200x64.size (by rfl) y
theorem cover0_7 (p0 : Vec F S200x64 .bf16) (y : S200x64.Idx) :
    ∃ pc ∈ ([⟨rO, p0⟩] : List (View.Piece (Elt F) S200x64 .bf16)), y ∈ pc.1.set :=
  View.cover_of_tiled [⟨rO, p0⟩] S200x64.size (by rfl) y

/-! ## The branch condition -/

/-- The body's one branch: taken exactly when the grid coordinate is 0. -/
abbrev cond0 (i : grid0.Coords) : Prop :=
  (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-! ## The body's triple, at a point that is not the first -/

set_option maxHeartbeats 4000000 in
/-- Away from the first point the body leaves the scratch as it found it and stores the three output blocks. -/
theorem sound_kernel0_B (c : Dev nD) (E : Set ℕ) (i : grid0.Coords) (hc : ¬ cond0 i)
    (arg1 : Memref sig .tc .vmem S200x10000 .f32) (harg1 : arg1.IsWhole) (arg2 : Memref sig .tc .vmem S10000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S200x10000 .bf16) (harg6 : arg6.IsWhole)
    (arg7 : Memref sig .tc .vmem S200x64 .f32) (harg7 : arg7.IsWhole) (arg8 : Memref sig .tc .vmem S200x64 .bf16) (harg8 : arg8.IsWhole)
    (arg9 : Memref sig .tc .vmem S10000x64 .bf16) (harg9 : arg9.IsWhole)
    (x0 : Vec F S200x10000 .f32) (x1 : Vec F S10000x128 .f32) (x2 : Vec F S128x64 .f32) (x3 : Vec F S1x64 .f32) (x4 : Vec F S64x64 .f32)
    (xs : Vec F S10000x64 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0) ∗ owns (c : Thread nD τ) arg7 fullShare (out0_6 x0 xs x3)
            ∗ owns (c : Thread nD τ) arg8 fullShare (out0_7 x0 xs x3 x4) ∗ owns (c : Thread nD τ) arg9 fullShare xs) -∗ K ⟨⟩))
      ⊢ wp frame (wpE (defs₀ (F := F)) Variants.none c none) E
          (cc0__pass1_kernel i arg1 harg1 arg2 harg2 arg3 harg3 arg4 harg4 arg5 harg5 arg6 harg6 arg7 harg7 arg8 harg8 arg9 harg9) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs, %hfs, HS⟩, Hk⟩
  subst hf0; subst hf1; subst hf2; subst hf3; subst hf4; subst hfs
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  iexists fs; isplitr; · ipureintro; rfl
  iexact HS

/-! ## The body's triple, at the first point -/

set_option maxHeartbeats 4000000 in
/-- At the first point the body first stores the support matrix into the scratch (whatever it held), then does what it does
    at every point, reading the scratch back. -/
theorem sound_kernel0_A (c : Dev nD) (E : Set ℕ) (i : grid0.Coords) (hc : cond0 i)
    (arg1 : Memref sig .tc .vmem S200x10000 .f32) (harg1 : arg1.IsWhole) (arg2 : Memref sig .tc .vmem S10000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S200x10000 .bf16) (harg6 : arg6.IsWhole)
    (arg7 : Memref sig .tc .vmem S200x64 .f32) (harg7 : arg7.IsWhole) (arg8 : Memref sig .tc .vmem S200x64 .bf16) (harg8 : arg8.IsWhole)
    (arg9 : Memref sig .tc .vmem S10000x64 .bf16) (harg9 : arg9.IsWhole)
    (x0 : Vec F S200x10000 .f32) (x1 : Vec F S10000x128 .f32) (x2 : Vec F S128x64 .f32) (x3 : Vec F S1x64 .f32) (x4 : Vec F S64x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0) ∗ owns (c : Thread nD τ) arg7 fullShare (out0_6 x0 (scr0 x1 x2) x3)
            ∗ owns (c : Thread nD τ) arg8 fullShare (out0_7 x0 (scr0 x1 x2) x3 x4) ∗ owns (c : Thread nD τ) arg9 fullShare (scr0 x1 x2)) -∗ K ⟨⟩))
      ⊢ wp frame (wpE (defs₀ (F := F)) Variants.none c none) E
          (cc0__pass1_kernel i arg1 harg1 arg2 harg2 arg3 harg3 arg4 harg4 arg5 harg5 arg6 harg6 arg7 harg7 arg8 harg8 arg9 harg9) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds, %fs, -, HS⟩, Hk⟩
  subst hf0; subst hf1; subst hf2; subst hf3; subst hf4
  sl_exec (disch := exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    refine (View.read_writes_eq_canon _ _ _ (cover0_6 _)).trans ?_
    rw [View.readCov_eq_canon_ld _ _ _ (coverS _)]
    rfl
  isplitl [H7]
  · iexists _; isplitr
    swap; · iexact H7
    ipureintro
    refine (View.read_writes_eq_canon _ _ _ (cover0_7 _)).trans ?_
    rw [View.readCov_eq_canon_ld _ _ _ (coverS _)]
    rfl
  iexists _; isplitr
  swap; · iexact HS
  ipureintro
  exact View.read_writes_eq_canon _ _ _ (coverS _)

/-! ## The carried scratch and the region's invariant -/

/-- The scratch buffer, whole. -/
abbrev scM0 : Memref sig .tc .vmem S10000x64 .bf16 := Memref.whole cc0_scratch0
/-- The grid's first point. -/
abbrev t00 : Fin cfg0.N := ⟨0, lt_of_lt_of_eq (by decide : 0 < 50) (show cfg0.N = 50 from N_0).symm⟩
/-- What the scratch holds after every point: the support matrix of the two whole arrays (windows 1 and 2 show the
    whole of x and W1 at every point; the first point's blocks name them). -/
def scrAt (c : Dev nD) : Vec F S10000x64 .bf16 := scr0 (iblk0 V c 1 t00) (iblk0 V c 2 t00)

/-- The core's scoped buffers that are neither a staging buffer of this region nor its scratch, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg8_0), ((c : Thread nD τ).loc cc2_stg8_0) ↦{fullShare} f) ∗ (∃ f : Buf (Elt F) ((c : Thread nD τ).loc cc2_stg9_0), ((c : Thread nD τ).loc cc2_stg9_0) ↦{fullShare} f) ∗ (∃ f : Buf (Elt F) ((c : Thread nD τ).loc cc2_stg9_1), ((c : Thread nD τ).loc cc2_stg9_1) ↦{fullShare} f))

/-- The class invariant with the scratch split off as a memref owned at some contents. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA; rw [scopedRest0_eq]; simp only [scM0, owns_whole, rest0]; try rfl

/-- The invariant before position `t`: before the first point every scoped buffer at anything; afterwards the scratch at the
    support matrix, the other scoped buffers at anything; the generator register at some state throughout. -/
def Phi0 (c : Dev nD) (t : Fin (cfg0.N + 1)) : sProp 𝕄 :=
  if t.val = 0 then Pipeline.ΦA spec0 c
  else iprop((owns (c : Thread nD τ) scM0 fullShare (scrAt V c) ∗ rest0 c) ∗ (∃ r, prngReg c r))

theorem Phi0_zero (c : Dev nD) (t : Fin (cfg0.N + 1)) (h : t.val = 0) : Phi0 V c t = Pipeline.ΦA spec0 c := by
  unfold Phi0; rw [if_pos h]
theorem Phi0_pos (c : Dev nD) (t : Fin (cfg0.N + 1)) (h : t.val ≠ 0) :
    Phi0 V c t = iprop((owns (c : Thread nD τ) scM0 fullShare (scrAt V c) ∗ rest0 c) ∗ (∃ r, prngReg c r)) := by
  unfold Phi0; rw [if_neg h]

/-! ## The pipeline's proof data -/

/-- The proof data of pipeline 0 on core `c`: the arrays as the region finds them; after the body at point `t` each input's
    buffer at its block and each output's at its function of the adjacency block, the support matrix, the bias row and
    the second weight matrix; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t)
    | ⟨6, _⟩ => out0_6 (iblk0 V c 0 t) (scrAt V c) (iblk0 V c 3 t)
    | ⟨7, _⟩ => out0_7 (iblk0 V c 0 t) (scrAt V c) (iblk0 V c 3 t) (iblk0 V c 4 t)
  Φ t := Phi0 V c t
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) := by dsimp only [dat0]
theorem after0_6 (c : Dev nD) (t : Fin cfg0.N) : (dat0 V c).after 6 t = out0_6 (iblk0 V c 0 t) (scrAt V c) (iblk0 V c 3 t) := by dsimp only [dat0]
theorem after0_7 (c : Dev nD) (t : Fin cfg0.N) : (dat0 V c).after 7 t = out0_7 (iblk0 V c 0 t) (scrAt V c) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' memrefs hold their blocks; at the first point the invariant hands over the scratch at
    anything and takes it back at the support matrix, at every later point it hands it over and takes it back at the
    support matrix. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5, after0_6, after0_7]
  rw [show (dat0 V c).Φ t.succ = Phi0 V c t.succ from rfl, Phi0_pos V c t.succ (by simp),
    show (dat0 V c).Φ t.castSucc = Phi0 V c t.castSucc from rfl]
  by_cases hz : t.val = 0
  · rw [Phi0_zero V c t.castSucc (by simpa using hz), PhiA0_eq]
    have ht : t = t00 := Fin.ext hz
    have hs : scrAt V c = scr0 (iblk0 V c 1 t) (iblk0 V c 2 t) := by unfold scrAt; rw [ht]
    rw [hs]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_A c Set.univ (grid0.coords t) ((hcond0 t).mpr hz) _ _ _ _ _ _ _ _ _ _ _ _ _ _ _ _ _ _
      (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Phi0_pos V c t.castSucc (by simpa using hz)]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_B c Set.univ (grid0.coords t) (fun h => hz ((hcond0 t).mp h)) _ _ _ _ _ _ _ _ _ _ _ _ _ _ _ _ _ _
      (iblk0 V c 0 t) (iblk0 V c 1 t) (iblk0 V c 2 t) (iblk0 V c 3 t) (iblk0 V c 4 t) (scrAt V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem PhiIn0 (c : Dev nD) : (dat0 V c).Φ 0 = Pipeline.ΦA spec0 c :=
  Phi0_zero V c 0 rfl

/-- After the last point the invariant gives the class invariant back: what the scratch holds is forgotten. -/
theorem PhiOut0 (c : Dev nD) : (dat0 V c).Φ (Fin.last cfg0.N) ⊢ (Pipeline.ΦA spec0 c : sProp 𝕄) := by
  rw [show (dat0 V c).Φ (Fin.last cfg0.N) = Phi0 V c (Fin.last cfg0.N) from rfl,
    Phi0_pos V c (Fin.last cfg0.N) (by rw [Fin.val_last, show cfg0.N = 50 from N_0]; decide), PhiA0_eq]
  iintro ⟨⟨HS, Hrest⟩, Hg⟩
  isplitl [HS Hrest]
  · isplitl [HS]; · iexists _; iexact HS
    iexact Hrest
  iexact Hg

end Cert.KernelIdeal.Hand

end
-- ==== Proof.KI.Reg1.lean ====
/-
  The second pallas_call region (pass 2 of the graph-convolution network), body half, at any float instance and at a
  parameter `V`, the TensorCore's buffer contents when the region is entered.

  The region has 25 grid points; point `t` handles rows 400·t … 400·t + 399 of the adjacency. Its body reads the
  adjacency block, the whole support matrix s2, the bias row b2 and the weight matrix W3, and writes two blocks: the
  layer output x2 = max(adj · s2 · 1 + b2, 0) and the next support matrix s3 = x2 · W3 rounded to the narrow format.
  Every load and every store is of a whole staging buffer, so each output block at point `t` is one payload of the
  four input blocks at `t`.
-/
import proofs.«130456_g21895743275233_cont_8to1_495_2_alg».proof.Proof.Gen.KernelIdeal.Launch
import proofs.«130456_g21895743275233_cont_8to1_495_2_alg».proof.Proof.Gen.KernelIdeal.Skeleton
import proofs.«130456_g21895743275233_cont_8to1_495_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether it was fetched there or not
    (where it was not fetched, its block index has not moved since the last fetch). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether it was fetched there or not
    (where it was not fetched, its block index has not moved since the last fetch). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether it was fetched there or not
    (where it was not fetched, its block index has not moved since the last fetch). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether it was fetched there or not
    (where it was not fetched, its block index has not moved since the last fetch). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S400x10000 := Rect.unit (s := S400x10000) ![0, 0] S400x10000.size inb_S400x10000_S400x10000_0_0
abbrev r1_1 : Rect S10000x64 := Rect.unit (s := S10000x64) ![0, 0] S10000x64.size inb_S10000x64_S10000x64_0_0
abbrev r1_2 : Rect S1x64 := Rect.unit (s := S1x64) ![0, 0] S1x64.size inb_S1x64_S1x64_0_0
abbrev r1_3 : Rect S64x64 := Rect.unit (s := S64x64) ![0, 0] S64x64.size inb_S64x64_S64x64_0_0
abbrev r1_4 : Rect S400x64 := Rect.unit (s := S400x64) ![0, 0] S400x64.size inb_S400x64_S400x64_0_0

/-! ## What the body leaves in each output window's buffer -/

/-- Window 4's staging buffer after the body, from the input windows' blocks: its one store, of the layer output. -/
def out1_4 (x0 : Vec F S400x10000 .bf16) (x1 : Vec F S10000x64 .bf16) (x2 : Vec F S1x64 .f32) : Vec F S400x64 .f32 :=
  View.canon [⟨r1_4, k1_pay1 (View.ld x0 r1_0) (View.ld x1 r1_1) (View.ld x2 r1_2)⟩]

/-- The store is of the whole buffer, so it covers it. -/
theorem cover1_4 (p0 : Vec F S400x64 .f32) (y : S400x64.Idx) :
    ∃ pc ∈ ([⟨r1_4, p0⟩] : List (View.Piece (Elt F) S400x64 .f32)), y ∈ pc.1.set :=
  View.cover_of_tiled [⟨r1_4, p0⟩] S400x64.size (by rfl) y

/-- Window 5's staging buffer after the body, from the input windows' blocks: its one store, of the next support
    matrix's block. -/
def out1_5 (x0 : Vec F S400x10000 .bf16) (x1 : Vec F S10000x64 .bf16) (x2 : Vec F S1x64 .f32) (x3 : Vec F S64x64 .f32) : Vec F S400x64 .bf16 :=
  View.canon [⟨r1_4, k1_pay2 (View.ld x0 r1_0) (View.ld x1 r1_1) (View.ld x2 r1_2) (View.ld x3 r1_3)⟩]

/-- The store is of the whole buffer, so it covers it. -/
theorem cover1_5 (p0 : Vec F S400x64 .bf16) (y : S400x64.Idx) :
    ∃ pc ∈ ([⟨r1_4, p0⟩] : List (View.Piece (Elt F) S400x64 .bf16)), y ∈ pc.1.set :=
  View.cover_of_tiled [⟨r1_4, p0⟩] S400x64.size (by rfl) y

/-! ## The body's triple -/

set_option maxHeartbeats 1000000 in
/-- The kernel body on whole staging memrefs, the inputs' at read contents `xW` and the outputs' at anything, runs to
    the continuation holding the inputs' as they were and each output's at `out1_W` of the inputs'. (The body also
    loads each output buffer before it stores into it; the loaded value is not used.) -/
theorem sound_kernel1 (c : Dev nD) (E : Set ℕ) (i : grid1.Coords)
    (arg1 : Memref sig .tc .vmem S400x10000 .bf16) (harg1 : arg1.IsWhole) (arg2 : Memref sig .tc .vmem S10000x64 .bf16) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S400x64 .f32) (harg5 : arg5.IsWhole) (arg6 : Memref sig .tc .vmem S400x64 .bf16) (harg6 : arg6.IsWhole)
    (x0 : Vec F S400x10000 .bf16) (x1 : Vec F S10000x64 .bf16) (x2 : Vec F S1x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2)
            ∗ owns (c : Thread nD τ) arg6 fullShare (out1_5 x0 x1 x2 x3)) -∗ K ⟨⟩))
      ⊢ wp frame (wpE (defs₀ (F := F)) Variants.none c none) E (cc1__pass2_kernel i arg1 harg1 arg2 harg2 arg3 harg3 arg4 harg4 arg5 harg5 arg6 harg6) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of this pipeline on core `c`: the arrays as the region finds them (`V`); after the body at point
    `t` each input's buffer at its block and each output's at `out1_W` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t)
    | ⟨5, _⟩ => out1_5 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  The third pallas_call region (pass 3 of the graph-convolution network), body half, at any float instance and at a
  parameter `V`, the TensorCore's buffer contents when the region is entered.

  The region has 25 grid points; point `t` handles rows 400·t … 400·t + 399. Its body reads the adjacency block, the
  whole support matrix s3, the blocks of the two earlier layer outputs x1 and x2, the bias row b3, the three 64-row
  slices of the classifier's weight matrix and its bias row, and writes one block: the row-wise log-softmax of
  logits = x1 · Wl1 + x2 · Wl2 + x3 · Wl3 + bl, where x3 = adj · s3 · 1 + b3. Every load and the one store are of a
  whole staging buffer, so the output block at point `t` is one payload of the nine input blocks at `t`.
-/
import proofs.«130456_g21895743275233_cont_8to1_495_2_alg».proof.Proof.Gen.KernelIdeal.Launch
import proofs.«130456_g21895743275233_cont_8to1_495_2_alg».proof.Proof.Gen.KernelIdeal.Skeleton
import proofs.«130456_g21895743275233_cont_8to1_495_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether it was fetched there or not
    (where it was not fetched, its block index has not moved since the last fetch). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether it was fetched there or not
    (where it was not fetched, its block index has not moved since the last fetch). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether it was fetched there or not
    (where it was not fetched, its block index has not moved since the last fetch). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether it was fetched there or not
    (where it was not fetched, its block index has not moved since the last fetch). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether it was fetched there or not
    (where it was not fetched, its block index has not moved since the last fetch). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether it was fetched there or not
    (where it was not fetched, its block index has not moved since the last fetch). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, whether it was fetched there or not
    (where it was not fetched, its block index has not moved since the last fetch). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, whether it was fetched there or not
    (where it was not fetched, its block index has not moved since the last fetch). -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, whether it was fetched there or not
    (where it was not fetched, its block index has not moved since the last fetch). -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev r2_0 : Rect S400x10000 := Rect.unit (s := S400x10000) ![0, 0] S400x10000.size inb_S400x10000_S400x10000_0_0
abbrev r2_1 : Rect S10000x64 := Rect.unit (s := S10000x64) ![0, 0] S10000x64.size inb_S10000x64_S10000x64_0_0
abbrev r2_2 : Rect S1x64 := Rect.unit (s := S1x64) ![0, 0] S1x64.size inb_S1x64_S1x64_0_0
abbrev r2_3 : Rect S400x64 := Rect.unit (s := S400x64) ![0, 0] S400x64.size inb_S400x64_S400x64_0_0
abbrev r2_4 : Rect S64x40 := Rect.unit (s := S64x40) ![0, 0] S64x40.size inb_S64x40_S64x40_0_0
abbrev r2_5 : Rect S1x40 := Rect.unit (s := S1x40) ![0, 0] S1x40.size inb_S1x40_S1x40_0_0
abbrev r2_6 : Rect S400x40 := Rect.unit (s := S400x40) ![0, 0] S400x40.size inb_S400x40_S400x40_0_0

/-! ## What the body leaves in the output window's buffer -/

/-- Window 9's staging buffer after the body, from the input windows' blocks: its one store, of the log-softmax of the
    logits (the logits, their row maxima and the exponentials of the shifted logits are the three values the body's
    first part returns). -/
def out2_9 (x0 : Vec F S400x10000 .bf16) (x1 : Vec F S10000x64 .bf16) (x2 : Vec F S400x64 .f32) (x3 : Vec F S400x64 .f32) (x4 : Vec F S1x64 .f32) (x5 : Vec F S64x40 .f32) (x6 : Vec F S64x40 .f32) (x7 : Vec F S64x40 .f32) (x8 : Vec F S1x40 .f32) : Vec F S400x40 .f32 :=
  View.canon [⟨r2_6, k2_pay1 (k2_pay2 (View.ld x0 r2_0) (View.ld x1 r2_1) (View.ld x4 r2_2) (View.ld x2 r2_3) (View.ld x5 r2_4) (View.ld x3 r2_3) (View.ld x6 r2_4) (View.ld x7 r2_4) (View.ld x8 r2_5))
    (k2_pay3 (View.ld x0 r2_0) (View.ld x1 r2_1) (View.ld x4 r2_2) (View.ld x2 r2_3) (View.ld x5 r2_4) (View.ld x3 r2_3) (View.ld x6 r2_4) (View.ld x7 r2_4) (View.ld x8 r2_5))
    (k2_pay4 (View.ld x0 r2_0) (View.ld x1 r2_1) (View.ld x4 r2_2) (View.ld x2 r2_3) (View.ld x5 r2_4) (View.ld x3 r2_3) (View.ld x6 r2_4) (View.ld x7 r2_4) (View.ld x8 r2_5))⟩]

/-- The store is of the whole buffer, so it covers it. -/
theorem cover2_9 (p0 : Vec F S400x40 .f32) (y : S400x40.Idx) :
    ∃ pc ∈ ([⟨r2_6, p0⟩] : List (View.Piece (Elt F) S400x40 .f32)), y ∈ pc.1.set :=
  View.cover_of_tiled [⟨r2_6, p0⟩] S400x40.size (by rfl) y

/-! ## The body's triple -/

set_option maxHeartbeats 1000000 in
/-- The kernel body on whole staging memrefs, the inputs' at read contents `xW` and the output's at anything, runs to
    the continuation holding the inputs' as they were and the output's at `out2_9` of the inputs'. (The body also loads
    the output buffer before it stores into it; the loaded value is not used.) -/
theorem sound_kernel2 (c : Dev nD) (E : Set ℕ) (i : grid2.Coords)
    (arg1 : Memref sig .tc .vmem S400x10000 .bf16) (harg1 : arg1.IsWhole)
    (arg2 : Memref sig .tc .vmem S10000x64 .bf16) (harg2 : arg2.IsWhole)
    (arg3 : Memref sig .tc .vmem S400x64 .f32) (harg3 : arg3.IsWhole)
    (arg4 : Memref sig .tc .vmem S400x64 .f32) (harg4 : arg4.IsWhole)
    (arg5 : Memref sig .tc .vmem S1x64 .f32) (harg5 : arg5.IsWhole)
    (arg6 : Memref sig .tc .vmem S64x40 .f32) (harg6 : arg6.IsWhole)
    (arg7 : Memref sig .tc .vmem S64x40 .f32) (harg7 : arg7.IsWhole)
    (arg8 : Memref sig .tc .vmem S64x40 .f32) (harg8 : arg8.IsWhole)
    (arg9 : Memref sig .tc .vmem S1x40 .f32) (harg9 : arg9.IsWhole)
    (arg10 : Memref sig .tc .vmem S400x40 .f32) (harg10 : arg10.IsWhole)
    (x0 : Vec F S400x10000 .bf16) (x1 : Vec F S10000x64 .bf16) (x2 : Vec F S400x64 .f32) (x3 : Vec F S400x64 .f32) (x4 : Vec F S1x64 .f32) (x5 : Vec F S64x40 .f32) (x6 : Vec F S64x40 .f32) (x7 : Vec F S64x40 .f32) (x8 : Vec F S1x40 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out2_9 x0 x1 x2 x3 x4 x5 x6 x7 x8)) -∗ K ⟨⟩))
      ⊢ wp frame (wpE (defs₀ (F := F)) Variants.none c none) E (cc2__pass3_kernel i arg1 harg1 arg2 harg2 arg3 harg3 arg4 harg4 arg5 harg5 arg6 harg6 arg7 harg7 arg8 harg8 arg9 harg9 arg10 harg10) K := by
  simp only [cc2__pass3_kernel_eq_skeleton]; unfold cc2__pass3_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The pipeline's proof data -/

/-- The proof data of this pipeline on core `c`: the arrays as the region finds them (`V`); after the body at point
    `t` each input's buffer at its block and each output's at `out2_W` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of the whole program: one stretch of host operations (four reshapes of bias vectors and three row-slices of the
  classifier matrix) and then the three pallas_call regions back to back. The buffer contents at each boundary are a fold
  from the launch memory: after the host stretch its operations applied; after a region its arrays at what its
  write-backs leave and every other buffer as entered. Every argument array is read back through the fold to its launch
  contents (no host operation writes one; a region stages one through an input window or leaves it alone), and the
  result array is the last region's output window folded over its grid.
-/
import proofs.«130456_g21895743275233_cont_8to1_495_2_alg».proof.Proof.KI.Reg0
import proofs.«130456_g21895743275233_cont_8to1_495_2_alg».proof.Proof.KI.Reg1
import proofs.«130456_g21895743275233_cont_8to1_495_2_alg».proof.Proof.KI.Reg2
import proofs.«130456_g21895743275233_cont_8to1_495_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (an input as entered, an output its write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (an input as entered, an output its write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (an input as entered, an output its write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_writes_sub hostOps0 _ hostOps0_writes (by decide : main_arg1 ∉ hostOps0_W)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ hostOps0_writes (by decide : main_arg2 ∉ hostOps0_W)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_writes_sub hostOps0 _ hostOps0_writes (by decide : main_arg4 ∉ hostOps0_W)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := (W3_arr m ρ c 3).trans (((dat1 (V2 m ρ) c).arrAt_in 3 rfl _).trans (A_eq1 (V2 m ρ) c 3))
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from PhiIn0 (V1 m ρ) c]; unfold Pipeline.ΦA
    iintro ⟨Hp, -, Hr⟩
    isplitl [Hr]; · iexact Hr
    iexact Hp
  hout c := by
    rw [Pipeline.ownSems0_none]
    refine (PhiOut0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are split
    out of the unscoped buffers and put back at the exit contents; the generator register goes into the invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting; the final state
    has the result array at the last boundary's contents and every argument array as launched. -/
theorem run_all : θ_run defs (onTc (τ := τ) (main (F := F))) ⟨m, fun _ => 0, ρ⟩ (fun r => ∀ c : Dev nD,
      r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_all m ρ)

/-- The result array at the end is the last region's output window folded over its grid. -/
theorem W4_result (c : Dev nD) : W4 m ρ c (Proc.devRef .tc main_v9) = (dat2 (V3 m ρ) c).arrAt 9 cfg2.N :=
  W4_arr m ρ c 9

end Cert.KernelIdeal.Hand

end
-- ==== Proof.LibPayload.lean ====
/- General facts about a kernel's pure values at the ideal semantics, read at an index: a plain matrix product into the
   zero accumulator, a column broadcast, a vector cast to a one-column matrix, the f32 words of 1.0 and of minus infinity,
   and the row sum and row maximum of a matrix. Every index is written with ix1 / ix2 over literal Fin coordinates. -/
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx

/-! ## A plain matrix product read at an index -/

/-- The dimension numbers of a plain product [m, K] · [K, n] → [m, n]: the left operand's axis 1 contracted with the
    right operand's axis 0, no batch axes. Any record with these six lists is this one (its well-formedness is a proof). -/
abbrev plainDims {m K n : ℕ}
    (wf : DotDims.WF (⟨2, ![m, K]⟩ : Shape) ⟨2, ![K, n]⟩ ⟨2, ![m, n]⟩ [1] [0] [0] [1] [] []) :
    DotDims ⟨2, ![m, K]⟩ ⟨2, ![K, n]⟩ ⟨2, ![m, n]⟩ :=
  ⟨[1], [0], [0], [1], [], [], wf⟩

/-- A plain matrix product into the zero accumulator, read at (p, q), is the sum over k of lhs (p, k) * rhs (k, q): the
    sum over the one-axis contraction index re-indexed by its coordinate, the operands' indices read off coordinate by
    coordinate. -/
theorem matmul_plain_zero_apply {m K n : ℕ} {φ₁ φ₂ : FTy}
    (wf : DotDims.WF (⟨2, ![m, K]⟩ : Shape) ⟨2, ![K, n]⟩ ⟨2, ![m, n]⟩ [1] [0] [0] [1] [] [])
    (prec : Option ContractPrecision) (lhs : FVec Ideal ⟨2, ![m, K]⟩ φ₁) (rhs : FVec Ideal ⟨2, ![K, n]⟩ φ₂)
    (p : Fin m) (q : Fin n) :
    FloatOps.matmul (plainDims wf) prec lhs rhs (constant ⟨2, ![m, n]⟩ .f32 0x00000000#32) (ix2 p q)
      = ∑ k : Fin K, lhs (ix2 p k) * rhs (ix2 k q) := by
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, h0⟩ =>
        have hb : ¬(⟨0, h0⟩ : Fin (Shape.rank ⟨2, ![m, K]⟩)) ∈ (plainDims wf).lhsBatch := List.not_mem_nil
        have hn : (⟨0, h0⟩ : Fin (Shape.rank ⟨2, ![m, K]⟩)) ∈ (plainDims wf).lhsNonContracting :=
          List.mem_singleton.2 rfl
        unfold DotDims.lhsIdx
        rw [dif_neg hb, dif_pos hn]
        rfl
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, h1⟩ =>
        have hb : ¬(⟨1, h1⟩ : Fin (Shape.rank ⟨2, ![K, n]⟩)) ∈ (plainDims wf).rhsBatch := List.not_mem_nil
        have hn : (⟨1, h1⟩ : Fin (Shape.rank ⟨2, ![K, n]⟩)) ∈ (plainDims wf).rhsNonContracting :=
          List.mem_singleton.2 rfl
        unfold DotDims.rhsIdx
        rw [dif_neg hb, dif_pos hn]
        rfl)
  rw [el, er]

/-! ## Layout operations at an index -/

section Layout
variable {α : Type}

/-- An [a, 1] column broadcast to [a, b] reads, at (p, c), the operand's one column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] array cast to [a, 1] reads, at (i, u), the operand at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## Two f32 words -/

/-- The f32 word of 1.0 is the extended real 1. -/
theorem ofBits_one_f32 : Ideal.ofBits .f32 0x3F800000#32 = 1 := by
  simp [Ideal.ofBits, Ideal.ieee, -EReal.coe_mul]; norm_num

/-- The f32 word of minus infinity is the least extended real. -/
theorem ofBits_neg_inf_f32 : Ideal.ofBits .f32 0xFF800000#32 = ⊥ := by
  simp [Ideal.ofBits, Ideal.ieee]

/-! ## A matrix reduced along its rows -/

/-- The reduced index p of an [a, b] matrix reduced over its second axis, with the coordinate k put back, is (p, k). -/
theorem lift_rows_ix1 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over the second axis of an [a, b] matrix from the accumulator 0, read at p, is the row's sum. -/
theorem multiReduction_add_rows_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_rows_ix1 h p k)

/-- The fold of max from the least element over all of Fin n is the supremum. -/
theorem fold_max_bot_eq_sup {n : ℕ} (f : Fin n → EReal) :
    (Finset.univ : Finset (Fin n)).fold max ⊥ f = Finset.univ.sup f := rfl

/-- A float maximum over the second axis of an [a, b] matrix from the accumulator minus infinity, read at p, is the row's
    supremum. -/
theorem multiReduction_maximumf_rows_apply {a b : ℕ} (src : FVec Ideal ⟨2, ![a, b]⟩ .f32)
    (h : (⟨2, ![a, b]⟩ : Shape).Reduces [1] (⟨1, ![a]⟩ : Shape)) (hφ : FKind.Formats .f32)
    (hacc : (0xFF800000#32 : BitVec 32) = 0xFF800000#32) (p : Fin a) :
    multiReduction .maximumf [1] ⟨1, ![a]⟩ src 0xFF800000#32 h hφ hacc (ix1 p)
      = Finset.univ.sup fun k : Fin b => src (ix2 p k) := by
  refine (Ideal.multiReduction_maximumf_single src 0xFF800000#32 h hφ hacc (ix1 p)).trans ?_
  have hf : (src ∘ h.lift (ix1 p)) = fun k : Fin b => src (ix2 p k) :=
    funext fun k => congrArg src (lift_rows_ix1 h p k)
  show (Finset.univ : Finset (Fin b)).fold max (Ideal.ofBits .f32 0xFF800000#32) (src ∘ h.lift (ix1 p)) = _
  rw [hf, ofBits_neg_inf_f32]
  exact fold_max_bot_eq_sup _

end Cert.KernelIdeal.Pay

end
-- ==== Proof.Pay0.lean ====
/- What the first pass's four payloads compute at an index, at the ideal semantics: s = x · W, the adjacency block
   unchanged, the rectified row of adj · s plus the bias, and that times the next layer's weights. -/
import proofs.«130456_g21895743275233_cont_8to1_495_2_alg».proof.Proof.Gen.KernelIdeal.Skeleton
import proofs.«130456_g21895743275233_cont_8to1_495_2_alg».proof.Proof.LibPayload

noncomputable section

namespace Cert.KernelIdeal.Pay

open Cert.KernelIdeal Cert.KernelIdeal.Gen Idealize.ShloMosaic Idealize.ShloMosaic.ValueIdx

/-- The [10000, 128] · [128, 64] product into the zero accumulator, at (k, q). -/
theorem matmul_10000x128_128x64_apply (lhs : FVec Ideal S10000x128 .f32) (rhs : FVec Ideal S128x64 .f32)
    (k : Fin 10000) (q : Fin 64) :
    matmul dot_S10000x128_S128x64_S10000x64_1_0_0_1_n_n none lhs rhs (constant S10000x64 .f32 0x00000000#32) (ix2 k q)
      = ∑ l : Fin 128, lhs (ix2 k l) * rhs (ix2 l q) :=
  matmul_plain_zero_apply Facts₀.dot_S10000x128_S128x64_S10000x64_1_0_0_1_n_n_wf none lhs rhs k q

/-- The [200, 10000] · [10000, 64] product into the zero accumulator, at (p, q). -/
theorem matmul_200x10000_10000x64_apply (lhs : FVec Ideal S200x10000 .bf16) (rhs : FVec Ideal S10000x64 .bf16)
    (p : Fin 200) (q : Fin 64) :
    matmul dot_S200x10000_S10000x64_S200x64_1_0_0_1_n_n none lhs rhs (constant S200x64 .f32 0x00000000#32) (ix2 p q)
      = ∑ k : Fin 10000, lhs (ix2 p k) * rhs (ix2 k q) :=
  matmul_plain_zero_apply Facts₀.dot_S200x10000_S10000x64_S200x64_1_0_0_1_n_n_wf none lhs rhs p q

/-- The [200, 64] · [64, 64] product into the zero accumulator, at (p, q). -/
theorem matmul_200x64_64x64_apply (lhs : FVec Ideal S200x64 .f32) (rhs : FVec Ideal S64x64 .f32)
    (p : Fin 200) (q : Fin 64) :
    matmul dot_S200x64_S64x64_S200x64_1_0_0_1_n_n none lhs rhs (constant S200x64 .f32 0x00000000#32) (ix2 p q)
      = ∑ k : Fin 64, lhs (ix2 p k) * rhs (ix2 k q) :=
  matmul_plain_zero_apply Facts₀.dot_S200x64_S64x64_S200x64_1_0_0_1_n_n_wf none lhs rhs p q

/-- The first payload at (k, q): row k of x times column q of W. -/
theorem k0_pay1_apply (v23 : FVec Ideal S10000x128 .f32) (v24 : FVec Ideal S128x64 .f32) (k : Fin 10000) (q : Fin 64) :
    k0_pay1 (F := Ideal) v23 v24 (ix2 k q) = ∑ l : Fin 128, v23 (ix2 k l) * v24 (ix2 l q) := by
  unfold k0_pay1
  rw [shapeCast_self, truncf_apply]
  exact matmul_10000x128_128x64_apply v23 v24 k q

/-- The second payload at (p, k): the adjacency block there; the product with the splat of 1.0 is the identity. -/
theorem k0_pay2_apply (v3 : FVec Ideal S200x10000 .f32) (p : Fin 200) (k : Fin 10000) :
    k0_pay2 (F := Ideal) v3 (ix2 p k) = v3 (ix2 p k) := by
  unfold k0_pay2
  rw [truncf_apply, mulf_apply, broadcast_apply]
  show v3 (ix2 p k) * Ideal.ofBits .f32 0x3F800000#32 = _
  rw [ofBits_one_f32, mul_one]

/-- The third payload at (p, q): max ((∑ k, adj (p, k) * s (k, q)) + b (0, q)) 0. -/
theorem k0_pay3_apply (v3 : FVec Ideal S200x10000 .f32) (v8 : FVec Ideal S10000x64 .bf16) (v12 : FVec Ideal S1x64 .f32)
    (p : Fin 200) (q : Fin 64) :
    k0_pay3 (F := Ideal) v3 v8 v12 (ix2 p q)
      = max ((∑ k : Fin 10000, v3 (ix2 p k) * v8 (ix2 k q)) + v12 (ix2 0 q)) 0 := by
  unfold k0_pay3
  rw [shapeCast_self]
  rw [maximumf_apply, addf_apply, mulf_apply, broadcast_apply, broadcast_apply,
    matmul_200x10000_10000x64_apply, broadcastTo_1b_ab_apply]
  show max ((∑ k : Fin 10000, k0_pay2 (F := Ideal) v3 (ix2 p k) * v8 (ix2 k q)) * Ideal.ofBits .f32 0x3F800000#32
      + v12 (ix2 0 q)) (Ideal.ofBits .f32 0x00000000#32) = _
  rw [ofBits_one_f32, Ideal.ofBits_zero_f32, mul_one]
  refine congrArg (fun t => max (t + v12 (ix2 0 q)) 0) (Finset.sum_congr rfl fun k _ => ?_)
  rw [k0_pay2_apply]

/-- The fourth payload at (p, q): the third payload's row p times the weights' column q. -/
theorem k0_pay4_apply (v3 : FVec Ideal S200x10000 .f32) (v8 : FVec Ideal S10000x64 .bf16) (v12 : FVec Ideal S1x64 .f32)
    (v19 : FVec Ideal S64x64 .f32) (p : Fin 200) (q : Fin 64) :
    k0_pay4 (F := Ideal) v3 v8 v12 v19 (ix2 p q)
      = ∑ l : Fin 64, k0_pay3 (F := Ideal) v3 v8 v12 (ix2 p l) * v19 (ix2 l q) := by
  unfold k0_pay4
  rw [truncf_apply]
  exact matmul_200x64_64x64_apply _ v19 p q

end Cert.KernelIdeal.Pay

end
-- ==== Proof.KI.Val0.lean ====
/-
  What the first region leaves in its three output arrays, at the ideal instance and at any entry contents `V`.
  Point `t` of the grid handles rows 200·t … 200·t + 199: its block of the adjacency is those rows, its blocks of x, W1,
  the bias row and W2 are the whole arrays, and the scratch holds the support matrix x · W1. So row r of the first hidden
  layer depends on row r of the adjacency, all of x and W1, and the bias; the blocks tile the arrays, row r in point r / 200.
-/
import proofs.«130456_g21895743275233_cont_8to1_495_2_alg».proof.Proof.KI.Reg0
import proofs.«130456_g21895743275233_cont_8to1_495_2_alg».proof.Proof.Pay0
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.KernelIdeal.Pay

variable (V : (c : Dev nD) → (b : Ref sig .tc) → Buf (Elt Ideal) ((c : Thread nD τ).loc b))

theorem off00 : (![0, 0] : Fin 2 → Nat) = fun _ => 0 := funext fun a => by fin_cases a <;> rfl

/-- The printed index maps over the grid: the adjacency's and the three outputs' blocks move with the point along the
    rows, the other windows show their whole arrays. -/
theorem idx0 : ∀ t : Fin cfg0.N, win0_0.index t (0 : Fin 2) = t.val ∧ win0_0.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The row of the array that row `p` of point `t`'s block is. -/
def arow0 (t : Fin cfg0.N) (p : Fin 200) : Fin 10000 :=
  ⟨t.val * 200 + p.val, by have ht : t.val < 50 := lt_of_lt_of_eq t.isLt (show cfg0.N = 50 from N_0); have := p.isLt; omega⟩

/-! ## The input blocks, read at coordinates -/

theorem blk0_0 (c : Dev nD) (t : Fin cfg0.N) (p : Fin 200) (k : Fin 10000) :
    (iblk0 V c 0 t : Vec Ideal S200x10000 .f32) (ix2 p k) = V c main_arg1 (ix2 (arow0 t p) k) := by
  obtain ⟨e0, e1, -⟩ := idx0 t
  show V c main_arg1 (((cfg0.win 0).blk t).view.emb (ix2 p k)) = _
  refine congrArg (V c main_arg1) ?_
  funext a; apply Fin.ext
  match a with
  | ⟨0, _⟩ => show win0_0.index t (0 : Fin 2) * 200 + 1 * p.val = t.val * 200 + p.val; omega
  | ⟨1, _⟩ => show win0_0.index t (1 : Fin 2) * 10000 + 1 * k.val = k.val; omega
theorem blk0_1 (c : Dev nD) (t : Fin cfg0.N) (k : Fin 10000) (l : Fin 128) :
    (iblk0 V c 1 t : Vec Ideal S10000x128 .f32) (ix2 k l) = V c main_arg0 (ix2 k l) := by
  obtain ⟨-, -, -, -, -, -, -, -, e0, e1, -⟩ := idx0 t
  show V c main_arg0 (((cfg0.win 1).blk t).view.emb (ix2 k l)) = _
  refine congrArg (V c main_arg0) ?_
  funext a; apply Fin.ext
  match a with
  | ⟨0, _⟩ => show win0_1.index t (0 : Fin 2) * 10000 + 1 * k.val = k.val; omega
  | ⟨1, _⟩ => show win0_1.index t (1 : Fin 2) * 128 + 1 * l.val = l.val; omega
theorem blk0_2 (c : Dev nD) (t : Fin cfg0.N) (l : Fin 128) (q : Fin 64) :
    (iblk0 V c 2 t : Vec Ideal S128x64 .f32) (ix2 l q) = V c main_arg2 (ix2 l q) := by
  obtain ⟨-, -, -, -, -, -, -, -, -, -, e0, e1, -⟩ := idx0 t
  show V c main_arg2 (((cfg0.win 2).blk t).view.emb (ix2 l q)) = _
  refine congrArg (V c main_arg2) ?_
  funext a; apply Fin.ext
  match a with
  | ⟨0, _⟩ => show win0_2.index t (0 : Fin 2) * 128 + 1 * l.val = l.val; omega
  | ⟨1, _⟩ => show win0_2.index t (1 : Fin 2) * 64 + 1 * q.val = q.val; omega
theorem blk0_3 (c : Dev nD) (t : Fin cfg0.N) (q : Fin 64) :
    (iblk0 V c 3 t : Vec Ideal S1x64 .f32) (ix2 (0 : Fin 1) q) = V c main_v0 (ix2 (0 : Fin 1) q) := by
  obtain ⟨-, -, -, -, -, -, -, -, -, -, -, -, e0, e1, -⟩ := idx0 t
  show V c main_v0 (((cfg0.win 3).blk t).view.emb (ix2 (0 : Fin 1) q)) = _
  refine congrArg (V c main_v0) ?_
  funext a; apply Fin.ext
  match a with
  | ⟨0, _⟩ => show win0_3.index t (0 : Fin 2) * 1 + 1 * (0 : Fin 1).val = (0 : Fin 1).val; omega
  | ⟨1, _⟩ => show win0_3.index t (1 : Fin 2) * 64 + 1 * q.val = q.val; omega
theorem blk0_4 (c : Dev nD) (t : Fin cfg0.N) (l : Fin 64) (q : Fin 64) :
    (iblk0 V c 4 t : Vec Ideal S64x64 .f32) (ix2 l q) = V c main_arg4 (ix2 l q) := by
  obtain ⟨-, -, -, -, -, -, -, -, -, -, -, -, -, -, e0, e1⟩ := idx0 t
  show V c main_arg4 (((cfg0.win 4).blk t).view.emb (ix2 l q)) = _
  refine congrArg (V c main_arg4) ?_
  funext a; apply Fin.ext
  match a with
  | ⟨0, _⟩ => show win0_4.index t (0 : Fin 2) * 64 + 1 * l.val = l.val; omega
  | ⟨1, _⟩ => show win0_4.index t (1 : Fin 2) * 64 + 1 * q.val = q.val; omega

/-! ## The functions the arrays end holding -/

/-- The entry contents of the arrays the region reads, as extended reals at literal coordinates. -/
abbrev aAdj (c : Dev nD) (p k : Fin 10000) : EReal := V c main_arg1 (ix2 p k)
abbrev aX (c : Dev nD) (k : Fin 10000) (l : Fin 128) : EReal := V c main_arg0 (ix2 k l)
abbrev aW1 (c : Dev nD) (l : Fin 128) (q : Fin 64) : EReal := V c main_arg2 (ix2 l q)
abbrev aB1 (c : Dev nD) (q : Fin 64) : EReal := V c main_v0 (ix2 (0 : Fin 1) q)
abbrev aW2 (c : Dev nD) (l q : Fin 64) : EReal := V c main_arg4 (ix2 l q)

/-- The support matrix x · W1 of the entry contents. -/
def sup1 (c : Dev nD) (k : Fin 10000) (q : Fin 64) : EReal := ∑ l : Fin 128, aX V c k l * aW1 V c l q
/-- The first hidden layer: relu (adj · (x · W1) + b1), the bias read through its reshaped row `main_v0`. -/
def hid1 (c : Dev nD) (p : Fin 10000) (q : Fin 64) : EReal :=
  max ((∑ k : Fin 10000, aAdj V c p k * sup1 V c k q) + aB1 V c q) 0
/-- The second layer's support: hid1 · W2. -/
def sup2 (c : Dev nD) (p : Fin 10000) (q : Fin 64) : EReal := ∑ l : Fin 64, hid1 V c p l * aW2 V c l q

/-- The scratch holds the support matrix. -/
theorem scr_at (c : Dev nD) (k : Fin 10000) (q : Fin 64) : scrAt V c (ix2 k q) = sup1 V c k q := by
  unfold scrAt scr0
  rw [View.canon_unit_zero off00]
  simp only [View.ld_unit_zero (S := S10000x128) off00, View.ld_unit_zero (S := S128x64) off00]
  refine (k0_pay1_apply _ _ k q).trans ?_
  unfold sup1
  exact Finset.sum_congr rfl fun l _ => congrArg₂ (· * ·) (blk0_1 V c t00 k l) (blk0_2 V c t00 l q)

/-- Point `t`'s block of the first hidden layer, row `p`, column `q`. -/
theorem pay3_at (c : Dev nD) (t : Fin cfg0.N) (p : Fin 200) (q : Fin 64) :
    k0_pay3 (F := Ideal) (iblk0 V c 0 t) (scrAt V c) (iblk0 V c 3 t) (ix2 p q) = hid1 V c (arow0 t p) q := by
  refine (k0_pay3_apply _ _ _ p q).trans ?_
  unfold hid1
  refine congrArg₂ max (congrArg₂ (· + ·) (Finset.sum_congr rfl fun k _ => congrArg₂ (· * ·) (blk0_0 V c t p k) (scr_at V c k q)) (blk0_3 V c t q)) rfl

/-! ## Where a block's element sits, and which point covers an index -/

theorem emb0_5 (t : Fin cfg0.N) (p : Fin 200) (q : Fin 10000) :
    ((cfg0.win 5).blk t).view.emb (ix2 p q) = (ix2 (arow0 t p) q : S10000x10000.Idx) := by
  obtain ⟨-, -, e50, e51, e60, e61, e70, e71, -⟩ := idx0 t
  funext a; apply Fin.ext
  match a with
  | ⟨0, _⟩ => show win0_5.index t (0 : Fin 2) * 200 + 1 * p.val = t.val * 200 + p.val; omega
  | ⟨1, _⟩ => show win0_5.index t (1 : Fin 2) * 10000 + 1 * q.val = q.val; omega
theorem mem_blk0_5 (t : Fin cfg0.N) (i : S10000x10000.Idx) :
    i ∈ ((cfg0.win 5).blk t).view.set ↔ ∀ a : Fin 2, win0_5.index t a * S200x10000.size a ≤ (i a).val ∧ (i a).val < win0_5.index t a * S200x10000.size a + S200x10000.size a := by
  show i ∈ ((View.whole main_v7_0).slice (win0_5.rect t)).set ↔ _
  rw [View.set_slice_whole, Rect.mem_set_unit]
  exact Iff.rfl
theorem cover0_5_arr (i : S10000x10000.Idx) : ∃ t : Fin cfg0.N, (cfg0.win 5).flush t = true ∧ i ∈ ((cfg0.win 5).blk t).view.set := by
  have hi0 : (i 0).val < 10000 := (i 0).isLt
  have hi1 : (i 1).val < 10000 := (i 1).isLt
  have hN : cfg0.N = 50 := N_0
  let t : Fin cfg0.N := ⟨(i 0).val / 200, by rw [hN]; omega⟩
  obtain ⟨-, -, e50, e51, e60, e61, e70, e71, -⟩ := idx0 t
  have htv : t.val = (i 0).val / 200 := rfl
  refine ⟨t, flush0_5 t, ?_⟩
  rw [mem_blk0_5]
  intro a
  match a with
  | ⟨0, _⟩ => show win0_5.index t (0 : Fin 2) * 200 ≤ (i 0).val ∧ (i 0).val < win0_5.index t (0 : Fin 2) * 200 + 200; omega
  | ⟨1, _⟩ => show win0_5.index t (1 : Fin 2) * 10000 ≤ (i 1).val ∧ (i 1).val < win0_5.index t (1 : Fin 2) * 10000 + 10000; omega

theorem emb0_6 (t : Fin cfg0.N) (p : Fin 200) (q : Fin 64) :
    ((cfg0.win 6).blk t).view.emb (ix2 p q) = (ix2 (arow0 t p) q : S10000x64.Idx) := by
  obtain ⟨-, -, e50, e51, e60, e61, e70, e71, -⟩ := idx0 t
  funext a; apply Fin.ext
  match a with
  | ⟨0, _⟩ => show win0_6.index t (0 : Fin 2) * 200 + 1 * p.val = t.val * 200 + p.val; omega
  | ⟨1, _⟩ => show win0_6.index t (1 : Fin 2) * 64 + 1 * q.val = q.val; omega
theorem mem_blk0_6 (t : Fin cfg0.N) (i : S10000x64.Idx) :
    i ∈ ((cfg0.win 6).blk t).view.set ↔ ∀ a : Fin 2, win0_6.index t a * S200x64.size a ≤ (i a).val ∧ (i a).val < win0_6.index t a * S200x64.size a + S200x64.size a := by
  show i ∈ ((View.whole main_v7_1).slice (win0_6.rect t)).set ↔ _
  rw [View.set_slice_whole, Rect.mem_set_unit]
  exact Iff.rfl
theorem cover0_6_arr (i : S10000x64.Idx) : ∃ t : Fin cfg0.N, (cfg0.win 6).flush t = true ∧ i ∈ ((cfg0.win 6).blk t).view.set := by
  have hi0 : (i 0).val < 10000 := (i 0).isLt
  have hi1 : (i 1).val < 64 := (i 1).isLt
  have hN : cfg0.N = 50 := N_0
  let t : Fin cfg0.N := ⟨(i 0).val / 200, by rw [hN]; omega⟩
  obtain ⟨-, -, e50, e51, e60, e61, e70, e71, -⟩ := idx0 t
  have htv : t.val = (i 0).val / 200 := rfl
  refine ⟨t, flush0_6 t, ?_⟩
  rw [mem_blk0_6]
  intro a
  match a with
  | ⟨0, _⟩ => show win0_6.index t (0 : Fin 2) * 200 ≤ (i 0).val ∧ (i 0).val < win0_6.index t (0 : Fin 2) * 200 + 200; omega
  | ⟨1, _⟩ => show win0_6.index t (1 : Fin 2) * 64 ≤ (i 1).val ∧ (i 1).val < win0_6.index t (1 : Fin 2) * 64 + 64; omega

theorem emb0_7 (t : Fin cfg0.N) (p : Fin 200) (q : Fin 64) :
    ((cfg0.win 7).blk t).view.emb (ix2 p q) = (ix2 (arow0 t p) q : S10000x64.Idx) := by
  obtain ⟨-, -, e50, e51, e60, e61, e70, e71, -⟩ := idx0 t
  funext a; apply Fin.ext
  match a with
  | ⟨0, _⟩ => show win0_7.index t (0 : Fin 2) * 200 + 1 * p.val = t.val * 200 + p.val; omega
  | ⟨1, _⟩ => show win0_7.index t (1 : Fin 2) * 64 + 1 * q.val = q.val; omega
theorem mem_blk0_7 (t : Fin cfg0.N) (i : S10000x64.Idx) :
    i ∈ ((cfg0.win 7).blk t).view.set ↔ ∀ a : Fin 2, win0_7.index t a * S200x64.size a ≤ (i a).val ∧ (i a).val < win0_7.index t a * S200x64.size a + S200x64.size a := by
  show i ∈ ((View.whole main_v7_2).slice (win0_7.rect t)).set ↔ _
  rw [View.set_slice_whole, Rect.mem_set_unit]
  exact Iff.rfl
theorem cover0_7_arr (i : S10000x64.Idx) : ∃ t : Fin cfg0.N, (cfg0.win 7).flush t = true ∧ i ∈ ((cfg0.win 7).blk t).view.set := by
  have hi0 : (i 0).val < 10000 := (i 0).isLt
  have hi1 : (i 1).val < 64 := (i 1).isLt
  have hN : cfg0.N = 50 := N_0
  let t : Fin cfg0.N := ⟨(i 0).val / 200, by rw [hN]; omega⟩
  obtain ⟨-, -, e50, e51, e60, e61, e70, e71, -⟩ := idx0 t
  have htv : t.val = (i 0).val / 200 := rfl
  refine ⟨t, flush0_7 t, ?_⟩
  rw [mem_blk0_7]
  intro a
  match a with
  | ⟨0, _⟩ => show win0_7.index t (0 : Fin 2) * 200 ≤ (i 0).val ∧ (i 0).val < win0_7.index t (0 : Fin 2) * 200 + 200; omega
  | ⟨1, _⟩ => show win0_7.index t (1 : Fin 2) * 64 ≤ (i 1).val ∧ (i 1).val < win0_7.index t (1 : Fin 2) * 64 + 64; omega

/-! ## What each point writes back, and the arrays after the grid -/

/-- The re-formatted adjacency is the adjacency. -/
theorem flushed0_5 (c : Dev nD) (t : Fin cfg0.N) :
    (dat0 (F := Ideal) V c).flushed 5 t = ((cfg0.win 5).blk t).view.read (Elt Ideal) (fun i : S10000x10000.Idx => aAdj V c ⟨(i 0).val, (i 0).isLt⟩ ⟨(i 1).val, (i 1).isLt⟩) := by
  show (cfg0.win 5).cut (grid0.coords t) ((dat0 V c).after 5 t) = _
  rw [after0_5]; unfold out0_5
  rw [View.canon_unit_zero off00]
  simp only [View.ld_unit_zero (S := S200x10000) off00]
  funext j
  obtain ⟨p, q, rfl⟩ : ∃ (p : Fin 200) (q : Fin 10000), j = ix2 p q := ⟨j 0, j 1, eq_ix2 j⟩
  show k0_pay2 (F := Ideal) (iblk0 V c 0 t) (ix2 p q) = (fun i : S10000x10000.Idx => aAdj V c ⟨(i 0).val, (i 0).isLt⟩ ⟨(i 1).val, (i 1).isLt⟩) (((cfg0.win 5).blk t).view.emb (ix2 p q))
  rw [emb0_5 t p q]
  exact (k0_pay2_apply _ p q).trans (blk0_0 V c t p q)

theorem flushed0_6 (c : Dev nD) (t : Fin cfg0.N) :
    (dat0 (F := Ideal) V c).flushed 6 t = ((cfg0.win 6).blk t).view.read (Elt Ideal) (fun i : S10000x64.Idx => hid1 V c ⟨(i 0).val, (i 0).isLt⟩ ⟨(i 1).val, (i 1).isLt⟩) := by
  show (cfg0.win 6).cut (grid0.coords t) ((dat0 V c).after 6 t) = _
  rw [after0_6]; unfold out0_6
  rw [View.canon_unit_zero off00]
  simp only [View.ld_unit_zero (S := S200x10000) off00, View.ld_unit_zero (S := S10000x64) off00, View.ld_unit_zero (S := S1x64) off00]
  funext j
  obtain ⟨p, q, rfl⟩ : ∃ (p : Fin 200) (q : Fin 64), j = ix2 p q := ⟨j 0, j 1, eq_ix2 j⟩
  show k0_pay3 (F := Ideal) (iblk0 V c 0 t) (scrAt V c) (iblk0 V c 3 t) (ix2 p q) = (fun i : S10000x64.Idx => hid1 V c ⟨(i 0).val, (i 0).isLt⟩ ⟨(i 1).val, (i 1).isLt⟩) (((cfg0.win 6).blk t).view.emb (ix2 p q))
  rw [emb0_6 t p q]
  exact pay3_at V c t p q

theorem flushed0_7 (c : Dev nD) (t : Fin cfg0.N) :
    (dat0 (F := Ideal) V c).flushed 7 t = ((cfg0.win 7).blk t).view.read (Elt Ideal) (fun i : S10000x64.Idx => sup2 V c ⟨(i 0).val, (i 0).isLt⟩ ⟨(i 1).val, (i 1).isLt⟩) := by
  show (cfg0.win 7).cut (grid0.coords t) ((dat0 V c).after 7 t) = _
  rw [after0_7]; unfold out0_7
  rw [View.canon_unit_zero off00]
  simp only [View.ld_unit_zero (S := S200x10000) off00, View.ld_unit_zero (S := S10000x64) off00, View.ld_unit_zero (S := S1x64) off00, View.ld_unit_zero (S := S64x64) off00]
  funext j
  obtain ⟨p, q, rfl⟩ : ∃ (p : Fin 200) (q : Fin 64), j = ix2 p q := ⟨j 0, j 1, eq_ix2 j⟩
  show k0_pay4 (F := Ideal) (iblk0 V c 0 t) (scrAt V c) (iblk0 V c 3 t) (iblk0 V c 4 t) (ix2 p q) = (fun i : S10000x64.Idx => sup2 V c ⟨(i 0).val, (i 0).isLt⟩ ⟨(i 1).val, (i 1).isLt⟩) (((cfg0.win 7).blk t).view.emb (ix2 p q))
  rw [emb0_7 t p q]
  refine (k0_pay4_apply _ _ _ _ p q).trans ?_
  exact Finset.sum_congr rfl fun l _ => congrArg₂ (· * ·) (pay3_at V c t p l) (blk0_4 V c t l q)

/-- After the grid: the adjacency copy, the first hidden layer, the second layer's support. -/
theorem final0_5 (c : Dev nD) : (dat0 (F := Ideal) V c).arrAt 5 cfg0.N = fun i : S10000x10000.Idx => aAdj V c ⟨(i 0).val, (i 0).isLt⟩ ⟨(i 1).val, (i 1).isLt⟩ :=
  (dat0 V c).arrAt_eq_of_cover 5 _ (fun t _ => flushed0_5 V c t) cover0_5_arr
theorem final0_6 (c : Dev nD) : (dat0 (F := Ideal) V c).arrAt 6 cfg0.N = fun i : S10000x64.Idx => hid1 V c ⟨(i 0).val, (i 0).isLt⟩ ⟨(i 1).val, (i 1).isLt⟩ :=
  (dat0 V c).arrAt_eq_of_cover 6 _ (fun t _ => flushed0_6 V c t) cover0_6_arr
theorem final0_7 (c : Dev nD) : (dat0 (F := Ideal) V c).arrAt 7 cfg0.N = fun i : S10000x64.Idx => sup2 V c ⟨(i 0).val, (i 0).isLt⟩ ⟨(i 1).val, (i 1).isLt⟩ :=
  (dat0 V c).arrAt_eq_of_cover 7 _ (fun t _ => flushed0_7 V c t) cover0_7_arr

end Cert.KernelIdeal.Hand

end
-- ==== Proof.Pay1.lean ====
/- What the second pass's two payloads compute at an index, at the ideal semantics: the first is the rectified row of
   adj · s plus the bias, the second its product with the next layer's weights. -/
import proofs.«130456_g21895743275233_cont_8to1_495_2_alg».proof.Proof.Gen.KernelIdeal.Skeleton
import proofs.«130456_g21895743275233_cont_8to1_495_2_alg».proof.Proof.LibPayload

noncomputable section

namespace Cert.KernelIdeal.Pay

open Cert.KernelIdeal Cert.KernelIdeal.Gen Idealize.ShloMosaic Idealize.ShloMosaic.ValueIdx

/-- The [400, 10000] · [10000, 64] product into the zero accumulator, at (p, q). -/
theorem matmul_400x10000_10000x64_apply (lhs : FVec Ideal S400x10000 .bf16) (rhs : FVec Ideal S10000x64 .bf16)
    (p : Fin 400) (q : Fin 64) :
    matmul dot_S400x10000_S10000x64_S400x64_1_0_0_1_n_n none lhs rhs (constant S400x64 .f32 0x00000000#32) (ix2 p q)
      = ∑ k : Fin 10000, lhs (ix2 p k) * rhs (ix2 k q) :=
  matmul_plain_zero_apply Facts₀.dot_S400x10000_S10000x64_S400x64_1_0_0_1_n_n_wf none lhs rhs p q

/-- The [400, 64] · [64, 64] product into the zero accumulator, at (p, q). -/
theorem matmul_400x64_64x64_apply (lhs : FVec Ideal S400x64 .f32) (rhs : FVec Ideal S64x64 .f32)
    (p : Fin 400) (q : Fin 64) :
    matmul dot_S400x64_S64x64_S400x64_1_0_0_1_n_n none lhs rhs (constant S400x64 .f32 0x00000000#32) (ix2 p q)
      = ∑ k : Fin 64, lhs (ix2 p k) * rhs (ix2 k q) :=
  matmul_plain_zero_apply Facts₀.dot_S400x64_S64x64_S400x64_1_0_0_1_n_n_wf none lhs rhs p q

/-- The first payload at (p, q): max ((∑ k, adj (p, k) * s (k, q)) + b (0, q)) 0. The product with the splat of 1.0 is
    the identity and the splat of 0.0 is 0. -/
theorem k1_pay1_apply (v0 : FVec Ideal S400x10000 .bf16) (v2 : FVec Ideal S10000x64 .bf16) (v7 : FVec Ideal S1x64 .f32)
    (p : Fin 400) (q : Fin 64) :
    k1_pay1 (F := Ideal) v0 v2 v7 (ix2 p q)
      = max ((∑ k : Fin 10000, v0 (ix2 p k) * v2 (ix2 k q)) + v7 (ix2 0 q)) 0 := by
  unfold k1_pay1
  rw [shapeCast_self, shapeCast_self, shapeCast_self]
  rw [maximumf_apply, addf_apply, mulf_apply, broadcast_apply, broadcast_apply,
    matmul_400x10000_10000x64_apply, broadcastTo_1b_ab_apply]
  show max ((∑ k : Fin 10000, v0 (ix2 p k) * v2 (ix2 k q)) * Ideal.ofBits .f32 0x3F800000#32 + v7 (ix2 0 q))
      (Ideal.ofBits .f32 0x00000000#32) = _
  rw [ofBits_one_f32, Ideal.ofBits_zero_f32, mul_one]

/-- The second payload at (p, q): the first payload's row p times the weights' column q. -/
theorem k1_pay2_apply (v0 : FVec Ideal S400x10000 .bf16) (v2 : FVec Ideal S10000x64 .bf16) (v7 : FVec Ideal S1x64 .f32)
    (v14 : FVec Ideal S64x64 .f32) (p : Fin 400) (q : Fin 64) :
    k1_pay2 (F := Ideal) v0 v2 v7 v14 (ix2 p q)
      = ∑ l : Fin 64, k1_pay1 (F := Ideal) v0 v2 v7 (ix2 p l) * v14 (ix2 l q) := by
  unfold k1_pay2
  rw [truncf_apply]
  exact matmul_400x64_64x64_apply _ v14 p q

end Cert.KernelIdeal.Pay

end
-- ==== Proof.KI.Val1.lean ====
/-
  The second pallas_call region's two output arrays after its 25 grid points, at the ideal semantics, as functions of
  the arrays the region finds (`V`): the layer output x2 = max(adj · s2 + b2, 0), row by row, and the next support
  matrix s3 = x2 · W3.

  Point `t` writes back rows 400·t … 400·t + 399 of each output; the adjacency's window moves with it (rows 400·t …),
  the other three input windows are their whole arrays at every point. So what point `t` writes back is block `t` of one
  function of the arrays, and the 25 blocks cover the 10000 rows.
-/
import proofs.«130456_g21895743275233_cont_8to1_495_2_alg».proof.Proof.KI.Reg1
import proofs.«130456_g21895743275233_cont_8to1_495_2_alg».proof.Proof.Pay1
import Idealize.ShloMosaic.Lib.Pipeline.Value

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Coordinates -/

/-- The row of a rank-2 index, as a number below the literal extent. -/
abbrev rowOf {n0 n1 : Nat} (i : (⟨2, ![n0, n1]⟩ : Shape).Idx) : Fin n0 := ⟨(i 0).val, idx2_lt0 i⟩
/-- The column of a rank-2 index, as a number below the literal extent. -/
abbrev colOf {n0 n1 : Nat} (i : (⟨2, ![n0, n1]⟩ : Shape).Idx) : Fin n1 := ⟨(i 1).val, idx2_lt1 i⟩

theorem rowOf_ix2 {n0 n1 : Nat} (a : Fin n0) (b : Fin n1) : rowOf (ix2 a b) = a := rfl
theorem colOf_ix2 {n0 n1 : Nat} (a : Fin n0) (b : Fin n1) : colOf (ix2 a b) = b := rfl

theorem zero_offsets : (![0, 0] : Fin 2 → Nat) = fun _ => 0 := funext fun a => by fin_cases a <;> rfl

/-! ## The index maps, decided over the grid -/

/-- The adjacency's window and the two output windows sit at block row `t`; the other windows at block (0, 0). -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-! ## Each input block, read where the array index says -/

/-- The adjacency's block at point `t` is rows 400·t … 400·t + 399 of the array. -/
theorem iblk1_0_at (c : Dev nD) (t : Fin cfg1.N) (p : Fin 400) (k : Fin 10000) (r : Fin 10000) (hr : r.val = 400 * t.val + p.val) :
    (iblk1 V c 0 t : Vec Ideal S400x10000 .bf16) (ix2 p k) = (V c main_v7_0 : S10000x10000.Idx → EReal) (ix2 r k) := by
  obtain ⟨h0, h1, -⟩ := index_facts1 t
  unfold iblk1
  rw [View.read_apply]
  show (V c main_v7_0 : S10000x10000.Idx → EReal) _ = (V c main_v7_0 : S10000x10000.Idx → EReal) _
  congr 1
  funext a
  apply Fin.ext
  match a with
  | ⟨0, _⟩ => show win1_0.index t (0 : Fin 2) * 400 + 1 * p.val = r.val; rw [h0, hr]; omega
  | ⟨1, _⟩ => show win1_0.index t (1 : Fin 2) * 10000 + 1 * k.val = k.val; rw [h1]; omega

/-- The support matrix's block at every point is the whole array. -/
theorem iblk1_1_at (c : Dev nD) (t : Fin cfg1.N) (k : Fin 10000) (q : Fin 64) :
    (iblk1 V c 1 t : Vec Ideal S10000x64 .bf16) (ix2 k q) = (V c main_v7_2 : S10000x64.Idx → EReal) (ix2 k q) := by
  obtain ⟨-, -, h0, h1, -⟩ := index_facts1 t
  unfold iblk1
  rw [View.read_apply]
  show (V c main_v7_2 : S10000x64.Idx → EReal) _ = (V c main_v7_2 : S10000x64.Idx → EReal) _
  congr 1
  funext a
  apply Fin.ext
  match a with
  | ⟨0, _⟩ => show win1_1.index t (0 : Fin 2) * 10000 + 1 * k.val = k.val; rw [h0]; omega
  | ⟨1, _⟩ => show win1_1.index t (1 : Fin 2) * 64 + 1 * q.val = q.val; rw [h1]; omega

/-- The bias row's block at every point is the whole array. -/
theorem iblk1_2_at (c : Dev nD) (t : Fin cfg1.N) (z : Fin 1) (q : Fin 64) :
    (iblk1 V c 2 t : Vec Ideal S1x64 .f32) (ix2 z q) = (V c main_v1 : S1x64.Idx → EReal) (ix2 z q) := by
  obtain ⟨-, -, -, -, h0, h1, -⟩ := index_facts1 t
  unfold iblk1
  rw [View.read_apply]
  show (V c main_v1 : S1x64.Idx → EReal) _ = (V c main_v1 : S1x64.Idx → EReal) _
  congr 1
  funext a
  apply Fin.ext
  match a with
  | ⟨0, _⟩ => show win1_2.index t (0 : Fin 2) * 1 + 1 * z.val = z.val; rw [h0]; omega
  | ⟨1, _⟩ => show win1_2.index t (1 : Fin 2) * 64 + 1 * q.val = q.val; rw [h1]; omega

/-- The weight matrix's block at every point is the whole array. -/
theorem iblk1_3_at (c : Dev nD) (t : Fin cfg1.N) (l : Fin 64) (q : Fin 64) :
    (iblk1 V c 3 t : Vec Ideal S64x64 .f32) (ix2 l q) = (V c main_arg6 : S64x64.Idx → EReal) (ix2 l q) := by
  obtain ⟨-, -, -, -, -, -, h0, h1, -⟩ := index_facts1 t
  unfold iblk1
  rw [View.read_apply]
  show (V c main_arg6 : S64x64.Idx → EReal) _ = (V c main_arg6 : S64x64.Idx → EReal) _
  congr 1
  funext a
  apply Fin.ext
  match a with
  | ⟨0, _⟩ => show win1_3.index t (0 : Fin 2) * 64 + 1 * l.val = l.val; rw [h0]; omega
  | ⟨1, _⟩ => show win1_3.index t (1 : Fin 2) * 64 + 1 * q.val = q.val; rw [h1]; omega

/-! ## The two output arrays as functions of the arrays the region finds -/

/-- The arrays the region reads, as the region finds them, each at its literal index type: the adjacency's copy, the
    support matrix s2, the bias row b2, the weight matrix W3. -/
abbrev arrAdj (c : Dev nD) : S10000x10000.Idx → EReal := V c main_v7_0
abbrev arrS2 (c : Dev nD) : S10000x64.Idx → EReal := V c main_v7_2
abbrev arrB2 (c : Dev nD) : S1x64.Idx → EReal := V c main_v1
abbrev arrW3 (c : Dev nD) : S64x64.Idx → EReal := V c main_arg6

/-- The layer output: max(adj · s2 + b2, 0) at row `rowOf i`, column `colOf i`. -/
def x2of (c : Dev nD) : S10000x64.Idx → EReal := fun i =>
  max ((∑ k : Fin 10000, arrAdj V c (ix2 (rowOf i) k) * arrS2 V c (ix2 k (colOf i))) + arrB2 V c (ix2 0 (colOf i))) 0

/-- The next support matrix: the layer output times W3. -/
def s3of (c : Dev nD) : S10000x64.Idx → EReal := fun i =>
  ∑ l : Fin 64, x2of V c (ix2 (rowOf i) l) * arrW3 V c (ix2 l (colOf i))

/-! ## One point's payloads, over blocks that read the arrays at row `r` -/

/-- The first payload at (p, q), when row `p` of the adjacency block is row `r` of the array `A` and the other two
    blocks are the arrays `S`, `B`. -/
theorem pay1_at_row (a0 : FVec Ideal S400x10000 .bf16) (a1 : FVec Ideal S10000x64 .bf16) (a2 : FVec Ideal S1x64 .f32)
    (A : S10000x10000.Idx → EReal) (S : S10000x64.Idx → EReal) (B : S1x64.Idx → EReal) (r : Fin 10000) (p : Fin 400) (q : Fin 64)
    (h0 : ∀ k, a0 (ix2 p k) = A (ix2 r k)) (h1 : ∀ k, a1 (ix2 k q) = S (ix2 k q)) (h2 : a2 (ix2 0 q) = B (ix2 0 q)) :
    k1_pay1 (F := Ideal) a0 a1 a2 (ix2 p q) = max ((∑ k : Fin 10000, A (ix2 r k) * S (ix2 k q)) + B (ix2 0 q)) 0 := by
  refine (k1_pay1_apply a0 a1 a2 p q).trans ?_
  rw [h2]
  congr 2
  exact Finset.sum_congr rfl fun k _ => by rw [h0, h1]

/-- The second payload at (p, q), likewise, the weight block being the array `W`. -/
theorem pay2_at_row (a0 : FVec Ideal S400x10000 .bf16) (a1 : FVec Ideal S10000x64 .bf16) (a2 : FVec Ideal S1x64 .f32) (a3 : FVec Ideal S64x64 .f32)
    (A : S10000x10000.Idx → EReal) (S : S10000x64.Idx → EReal) (B : S1x64.Idx → EReal) (W : S64x64.Idx → EReal) (r : Fin 10000) (p : Fin 400) (q : Fin 64)
    (h0 : ∀ k, a0 (ix2 p k) = A (ix2 r k)) (h1 : ∀ k l, a1 (ix2 k l) = S (ix2 k l)) (h2 : ∀ l, a2 (ix2 0 l) = B (ix2 0 l))
    (h3 : ∀ l, a3 (ix2 l q) = W (ix2 l q)) :
    k1_pay2 (F := Ideal) a0 a1 a2 a3 (ix2 p q)
      = ∑ l : Fin 64, max ((∑ k : Fin 10000, A (ix2 r k) * S (ix2 k l)) + B (ix2 0 l)) 0 * W (ix2 l q) := by
  refine (k1_pay2_apply a0 a1 a2 a3 p q).trans ?_
  exact Finset.sum_congr rfl fun l _ => by
    rw [h3, pay1_at_row a0 a1 a2 A S B r p l h0 (fun k => h1 k l) (h2 l)]

/-! ## What a point writes back is its block of those functions -/

/-- Point `t` writes back block `t` of the layer output. -/
theorem flushed1_4_eq (c : Dev nD) (t : Fin cfg1.N) :
    (dat1 (F := Ideal) V c).flushed 4 t = ((cfg1.win 4).blk t).view.read (Elt Ideal) (x2of V c) := by
  obtain ⟨-, -, -, -, -, -, -, -, e0, e1, -⟩ := index_facts1 t
  show (cfg1.win 4).cut (grid1.coords t) ((dat1 V c).after 4 t) = _
  rw [after1_4]
  unfold out1_4
  rw [View.canon_unit_zero zero_offsets]
  simp only [View.ld_unit_zero (S := S400x10000) zero_offsets, View.ld_unit_zero (S := S10000x64) zero_offsets,
    View.ld_unit_zero (S := S1x64) zero_offsets]
  funext j
  obtain ⟨p, q, rfl⟩ : ∃ (p : Fin 400) (q : Fin 64), j = ix2 p q := ⟨j 0, j 1, eq_ix2 j⟩
  have hr : (rowOf (n0 := 10000) (n1 := 64) (((cfg1.win 4).blk t).view.emb (ix2 p q))).val = 400 * t.val + p.val := by
    show win1_4.index t (0 : Fin 2) * 400 + 1 * p.val = _; rw [e0]; omega
  have hq : colOf (n0 := 10000) (n1 := 64) (((cfg1.win 4).blk t).view.emb (ix2 p q)) = q := Fin.ext (by
    show win1_4.index t (1 : Fin 2) * 64 + 1 * q.val = q.val; rw [e1]; omega)
  show k1_pay1 (F := Ideal) (iblk1 V c 0 t) (iblk1 V c 1 t) (iblk1 V c 2 t) (ix2 p q)
    = x2of V c (((cfg1.win 4).blk t).view.emb (ix2 p q))
  unfold x2of
  rw [hq]
  exact pay1_at_row _ _ _ (arrAdj V c) (arrS2 V c) (arrB2 V c) _ p q (fun k => iblk1_0_at V c t p k _ hr)
    (fun k => iblk1_1_at V c t k q) (iblk1_2_at V c t 0 q)

/-- Point `t` writes back block `t` of the next support matrix. -/
theorem flushed1_5_eq (c : Dev nD) (t : Fin cfg1.N) :
    (dat1 (F := Ideal) V c).flushed 5 t = ((cfg1.win 5).blk t).view.read (Elt Ideal) (s3of V c) := by
  obtain ⟨-, -, -, -, -, -, -, -, -, -, e0, e1⟩ := index_facts1 t
  show (cfg1.win 5).cut (grid1.coords t) ((dat1 V c).after 5 t) = _
  rw [after1_5]
  unfold out1_5
  rw [View.canon_unit_zero zero_offsets]
  simp only [View.ld_unit_zero (S := S400x10000) zero_offsets, View.ld_unit_zero (S := S10000x64) zero_offsets,
    View.ld_unit_zero (S := S1x64) zero_offsets, View.ld_unit_zero (S := S64x64) zero_offsets]
  funext j
  obtain ⟨p, q, rfl⟩ : ∃ (p : Fin 400) (q : Fin 64), j = ix2 p q := ⟨j 0, j 1, eq_ix2 j⟩
  have hr : (rowOf (n0 := 10000) (n1 := 64) (((cfg1.win 5).blk t).view.emb (ix2 p q))).val = 400 * t.val + p.val := by
    show win1_5.index t (0 : Fin 2) * 400 + 1 * p.val = _; rw [e0]; omega
  have hq : colOf (n0 := 10000) (n1 := 64) (((cfg1.win 5).blk t).view.emb (ix2 p q)) = q := Fin.ext (by
    show win1_5.index t (1 : Fin 2) * 64 + 1 * q.val = q.val; rw [e1]; omega)
  show k1_pay2 (F := Ideal) (iblk1 V c 0 t) (iblk1 V c 1 t) (iblk1 V c 2 t) (iblk1 V c 3 t) (ix2 p q)
    = s3of V c (((cfg1.win 5).blk t).view.emb (ix2 p q))
  unfold s3of x2of
  rw [hq]
  simp only [rowOf_ix2, colOf_ix2]
  exact pay2_at_row _ _ _ _ (arrAdj V c) (arrS2 V c) (arrB2 V c) (arrW3 V c) _ p q (fun k => iblk1_0_at V c t p k _ hr)
    (fun k l => iblk1_1_at V c t k l) (fun l => iblk1_2_at V c t 0 l) (fun l => iblk1_3_at V c t l q)

/-! ## The blocks cover the arrays -/

/-- An index of output window 4's array is in point `t`'s block iff each coordinate is in the block's range. -/
theorem mem_blk1_4 (t : Fin cfg1.N) (i : S10000x64.Idx) :
    i ∈ ((cfg1.win 4).blk t).view.set ↔ ∀ a : Fin 2, win1_4.index t a * S400x64.size a ≤ (i a).val
      ∧ (i a).val < win1_4.index t a * S400x64.size a + S400x64.size a := by
  show i ∈ ((View.whole main_v8_0).slice (win1_4.rect t)).set ↔ _
  rw [View.set_slice_whole, Rect.mem_set_unit]
  exact Iff.rfl

/-- The same for output window 5's array. -/
theorem mem_blk1_5 (t : Fin cfg1.N) (i : S10000x64.Idx) :
    i ∈ ((cfg1.win 5).blk t).view.set ↔ ∀ a : Fin 2, win1_5.index t a * S400x64.size a ≤ (i a).val
      ∧ (i a).val < win1_5.index t a * S400x64.size a + S400x64.size a := by
  show i ∈ ((View.whole main_v8_1).slice (win1_5.rect t)).set ↔ _
  rw [View.set_slice_whole, Rect.mem_set_unit]
  exact Iff.rfl

/-- Row `r` of output window 4's array is in the block of point `r / 400`. -/
theorem covered1_4 (i : S10000x64.Idx) :
    ∃ t : Fin cfg1.N, (cfg1.win 4).flush t = true ∧ i ∈ ((cfg1.win 4).blk t).view.set := by
  have hN : cfg1.N = 25 := N_1
  have hi0 : (i 0).val < 10000 := idx2_lt0 i
  have hi1 : (i 1).val < 64 := idx2_lt1 i
  obtain ⟨t, ht⟩ : ∃ t : Fin cfg1.N, t.val = (i 0).val / 400 := ⟨⟨(i 0).val / 400, by rw [hN]; omega⟩, rfl⟩
  obtain ⟨-, -, -, -, -, -, -, -, e0, e1, -⟩ := index_facts1 t
  refine ⟨t, flush1_4 t, ?_⟩
  rw [mem_blk1_4]
  intro a
  match a with
  | ⟨0, _⟩ =>
    show win1_4.index t (0 : Fin 2) * 400 ≤ (i 0).val ∧ (i 0).val < win1_4.index t (0 : Fin 2) * 400 + 400
    rw [e0, ht]; omega
  | ⟨1, _⟩ =>
    show win1_4.index t (1 : Fin 2) * 64 ≤ (i 1).val ∧ (i 1).val < win1_4.index t (1 : Fin 2) * 64 + 64
    rw [e1]; omega

/-- The same for output window 5's array. -/
theorem covered1_5 (i : S10000x64.Idx) :
    ∃ t : Fin cfg1.N, (cfg1.win 5).flush t = true ∧ i ∈ ((cfg1.win 5).blk t).view.set := by
  have hN : cfg1.N = 25 := N_1
  have hi0 : (i 0).val < 10000 := idx2_lt0 i
  have hi1 : (i 1).val < 64 := idx2_lt1 i
  obtain ⟨t, ht⟩ : ∃ t : Fin cfg1.N, t.val = (i 0).val / 400 := ⟨⟨(i 0).val / 400, by rw [hN]; omega⟩, rfl⟩
  obtain ⟨-, -, -, -, -, -, -, -, -, -, e0, e1⟩ := index_facts1 t
  refine ⟨t, flush1_5 t, ?_⟩
  rw [mem_blk1_5]
  intro a
  match a with
  | ⟨0, _⟩ =>
    show win1_5.index t (0 : Fin 2) * 400 ≤ (i 0).val ∧ (i 0).val < win1_5.index t (0 : Fin 2) * 400 + 400
    rw [e0, ht]; omega
  | ⟨1, _⟩ =>
    show win1_5.index t (1 : Fin 2) * 64 ≤ (i 1).val ∧ (i 1).val < win1_5.index t (1 : Fin 2) * 64 + 64
    rw [e1]; omega

/-! ## The arrays after the grid -/

/-- After the region's 25 points the first output array holds the layer output. -/
theorem final1_4 (c : Dev nD) : (dat1 (F := Ideal) V c).arrAt 4 cfg1.N = x2of V c :=
  (dat1 (F := Ideal) V c).arrAt_eq_of_cover 4 (x2of V c) (fun t _ => flushed1_4_eq V c t) covered1_4

/-- After the region's 25 points the second output array holds the next support matrix. -/
theorem final1_5 (c : Dev nD) : (dat1 (F := Ideal) V c).arrAt 5 cfg1.N = s3of V c :=
  (dat1 (F := Ideal) V c).arrAt_eq_of_cover 5 (s3of V c) (fun t _ => flushed1_5_eq V c t) covered1_5

end Cert.KernelIdeal.Hand

end
-- ==== Proof.Pay2.lean ====
/- What the third pass's four payloads compute at an index, at the ideal semantics: the logits (three 64-term sums added
   left to right, plus the bias), their row maximum, the exponentials of the logits less that maximum, and the
   log-softmax row. -/
import proofs.«130456_g21895743275233_cont_8to1_495_2_alg».proof.Proof.Gen.KernelIdeal.Skeleton
import proofs.«130456_g21895743275233_cont_8to1_495_2_alg».proof.Proof.LibPayload
import proofs.«130456_g21895743275233_cont_8to1_495_2_alg».proof.Proof.Pay1

noncomputable section

namespace Cert.KernelIdeal.Pay

open Cert.KernelIdeal Cert.KernelIdeal.Gen Idealize.ShloMosaic Idealize.ShloMosaic.ValueIdx

/-- The [400, 64] · [64, 40] product into the zero accumulator, at (p, j). -/
theorem matmul_400x64_64x40_apply (lhs : FVec Ideal S400x64 .f32) (rhs : FVec Ideal S64x40 .f32)
    (p : Fin 400) (j : Fin 40) :
    matmul dot_S400x64_S64x40_S400x40_1_0_0_1_n_n none lhs rhs (constant S400x40 .f32 0x00000000#32) (ix2 p j)
      = ∑ k : Fin 64, lhs (ix2 p k) * rhs (ix2 k j) :=
  matmul_plain_zero_apply Facts₀.dot_S400x64_S64x40_S400x40_1_0_0_1_n_n_wf none lhs rhs p j

/-- The logits at (p, j): x1 (p, ·) · Wl[0:64] + x2 (p, ·) · Wl[64:128] + x3 (p, ·) · Wl[128:192] + bl, the three sums
    added left to right, where x3 (p, k) = (∑ r, adj (p, r) * s (r, k)) + b (0, k) (the last layer is not rectified). -/
theorem k2_pay2_apply (v0 : FVec Ideal S400x10000 .bf16) (v2 : FVec Ideal S10000x64 .bf16) (v7 : FVec Ideal S1x64 .f32)
    (v11 : FVec Ideal S400x64 .f32) (v13 : FVec Ideal S64x40 .f32) (v16 : FVec Ideal S400x64 .f32)
    (v18 : FVec Ideal S64x40 .f32) (v22 : FVec Ideal S64x40 .f32) (v26 : FVec Ideal S1x40 .f32)
    (p : Fin 400) (j : Fin 40) :
    k2_pay2 (F := Ideal) v0 v2 v7 v11 v13 v16 v18 v22 v26 (ix2 p j)
      = (((∑ k : Fin 64, v11 (ix2 p k) * v13 (ix2 k j)) + (∑ k : Fin 64, v16 (ix2 p k) * v18 (ix2 k j)))
          + (∑ k : Fin 64, ((∑ r : Fin 10000, v0 (ix2 p r) * v2 (ix2 r k)) + v7 (ix2 0 k)) * v22 (ix2 k j)))
        + v26 (ix2 0 j) := by
  unfold k2_pay2
  simp only [shapeCast_self]
  rw [addf_apply, addf_apply, addf_apply, broadcastTo_1b_ab_apply,
    matmul_400x64_64x40_apply, matmul_400x64_64x40_apply, matmul_400x64_64x40_apply]
  refine congrArg (fun t => (∑ k : Fin 64, v11 (ix2 p k) * v13 (ix2 k j)) + (∑ k : Fin 64, v16 (ix2 p k) * v18 (ix2 k j))
    + t + v26 (ix2 0 j)) (Finset.sum_congr rfl fun k _ => ?_)
  rw [addf_apply, mulf_apply, broadcast_apply, matmul_400x10000_10000x64_apply, broadcastTo_1b_ab_apply]
  show ((∑ r : Fin 10000, v0 (ix2 p r) * v2 (ix2 r k)) * Ideal.ofBits .f32 0x3F800000#32 + v7 (ix2 0 k))
      * v22 (ix2 k j) = _
  rw [ofBits_one_f32, mul_one]

/-- The row maximum of the logits at (p, 0): the supremum over the 40 lanes (the fold of max from minus infinity). -/
theorem k2_pay3_apply (v0 : FVec Ideal S400x10000 .bf16) (v2 : FVec Ideal S10000x64 .bf16) (v7 : FVec Ideal S1x64 .f32)
    (v11 : FVec Ideal S400x64 .f32) (v13 : FVec Ideal S64x40 .f32) (v16 : FVec Ideal S400x64 .f32)
    (v18 : FVec Ideal S64x40 .f32) (v22 : FVec Ideal S64x40 .f32) (v26 : FVec Ideal S1x40 .f32)
    (p : Fin 400) :
    k2_pay3 (F := Ideal) v0 v2 v7 v11 v13 v16 v18 v22 v26 (ix2 p 0)
      = Finset.univ.sup fun j : Fin 40 => k2_pay2 (F := Ideal) v0 v2 v7 v11 v13 v16 v18 v22 v26 (ix2 p j) := by
  unfold k2_pay3
  refine (shapeCast_a_a1_apply _ _ p 0).trans ?_
  exact multiReduction_maximumf_rows_apply _ _ _ _ p

/-- The exponentials at (p, j): exp (logits (p, j) - rowmax (p, 0)). -/
theorem k2_pay4_apply (v0 : FVec Ideal S400x10000 .bf16) (v2 : FVec Ideal S10000x64 .bf16) (v7 : FVec Ideal S1x64 .f32)
    (v11 : FVec Ideal S400x64 .f32) (v13 : FVec Ideal S64x40 .f32) (v16 : FVec Ideal S400x64 .f32)
    (v18 : FVec Ideal S64x40 .f32) (v22 : FVec Ideal S64x40 .f32) (v26 : FVec Ideal S1x40 .f32)
    (p : Fin 400) (j : Fin 40) :
    k2_pay4 (F := Ideal) v0 v2 v7 v11 v13 v16 v18 v22 v26 (ix2 p j)
      = Ideal.exp (k2_pay2 (F := Ideal) v0 v2 v7 v11 v13 v16 v18 v22 v26 (ix2 p j) - k2_pay3 (F := Ideal) v0 v2 v7 v11 v13 v16 v18 v22 v26 (ix2 p 0)) := by
  unfold k2_pay4
  show Ideal.exp (k2_pay2 (F := Ideal) v0 v2 v7 v11 v13 v16 v18 v22 v26 (ix2 p j)
      - broadcastTo S400x40 (k2_pay3 (F := Ideal) v0 v2 v7 v11 v13 v16 v18 v22 v26) Facts₀.broadcasts_S400x1_S400x40 (ix2 p j)) = _
  rw [broadcastTo_a1_ab_apply]

/-- The stored row at (p, j): logits (p, j) - (log (∑ j', e (p, j')) + rowmax (p, 0)). -/
theorem k2_pay1_apply (v29 : FVec Ideal S400x40 .f32) (v31 : FVec Ideal S400x1 .f32) (v34 : FVec Ideal S400x40 .f32)
    (p : Fin 400) (j : Fin 40) :
    k2_pay1 (F := Ideal) v29 v31 v34 (ix2 p j)
      = v29 (ix2 p j) - (Ideal.log (∑ j' : Fin 40, v34 (ix2 p j')) + v31 (ix2 p 0)) := by
  unfold k2_pay1
  rw [subf_apply, broadcastTo_a1_ab_apply, addf_apply]
  show v29 (ix2 p j) - (Ideal.log (shapeCast S400x1 (multiReduction .add [1] S400 v34 0x00000000#32
      Facts₀.reduces_S400x40_S400 (.inl rfl) rfl) Facts₀.shapeCasts_S400_S400x1 (ix2 p 0)) + v31 (ix2 p 0)) = _
  rw [shapeCast_a_a1_apply, multiReduction_add_rows_apply]

end Cert.KernelIdeal.Pay

end
-- ==== Proof.Spec.lean ====
/-
  The mathematics of the three-layer graph convolution with a row-wise log-softmax, as functions of the
  ten argument arrays read at literal indices, over the extended reals.

  * `gc128`, `gc64`: one graph-convolution layer, `adj · (h · W) + b`, entry by entry;
  * `x1`, `x2`, `x3`: the three layers (the first two followed by `max · 0`);
  * `logitsR`: the final linear layer as ONE sum over the 192 joined features; `logitsK`: the same as three
    sums over 64 features each, added left to right — equal on all of `EReal` (`logitsK_eq_logitsR`), since
    `+` there is commutative and associative;
  * `lsmR`: `(l - m) - log Σ exp (l - m)`; `lsmK`: `l - (log Σ exp (l - m) + m)`, `m` the row maximum — equal
    when every entry of the row is a real number (`lsmK_eq_lsmR`), not on all of `EReal` (at `m = ⊤` the two differ);
  * `logits_real`: real inputs give real logits (products, finite sums and `max · 0` of reals are real).
-/
import Idealize.ShloMosaic.PureOps.Ideal
import Mathlib.Data.EReal.Operations
import Mathlib.Algebra.BigOperators.Fin
import Mathlib.Analysis.SpecialFunctions.Log.Basic

noncomputable section

namespace Cert.Spec

open Idealize.ShloMosaic
open scoped BigOperators

/-! ### Extended reals that are real numbers -/

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of two reals is real. -/
theorem real_add {x y : EReal} (hx : ∃ r : ℝ, x = (r : EReal)) (hy : ∃ r : ℝ, y = (r : EReal)) :
    ∃ r : ℝ, x + y = (r : EReal) := by
  obtain ⟨r, rfl⟩ := hx; obtain ⟨s, rfl⟩ := hy; exact ⟨r + s, (EReal.coe_add r s).symm⟩

/-- A product of two reals is real. -/
theorem real_mul {x y : EReal} (hx : ∃ r : ℝ, x = (r : EReal)) (hy : ∃ r : ℝ, y = (r : EReal)) :
    ∃ r : ℝ, x * y = (r : EReal) := by
  obtain ⟨r, rfl⟩ := hx; obtain ⟨s, rfl⟩ := hy; exact ⟨r * s, (EReal.coe_mul r s).symm⟩

/-- The larger of a real and zero is real. -/
theorem real_max_zero {x : EReal} (hx : ∃ r : ℝ, x = (r : EReal)) : ∃ r : ℝ, max x 0 = (r : EReal) := by
  obtain ⟨r, rfl⟩ := hx
  rcases le_total (r : EReal) 0 with h | h
  · exact ⟨0, by rw [max_eq_right h]; rfl⟩
  · exact ⟨r, by rw [max_eq_left h]⟩

/-- A finite sum of reals is real. -/
theorem real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl (fun i _ => hg i)⟩

/-! ### The layers -/

/-- One graph-convolution layer on 128 input features: `(adj · (h · W)) p q + b q`. -/
def gc128 (adj : Fin 10000 → Fin 10000 → EReal) (h : Fin 10000 → Fin 128 → EReal) (W : Fin 128 → Fin 64 → EReal)
    (b : Fin 64 → EReal) (p : Fin 10000) (q : Fin 64) : EReal :=
  (∑ k : Fin 10000, adj p k * ∑ l : Fin 128, h k l * W l q) + b q

/-- One graph-convolution layer on 64 input features. -/
def gc64 (adj : Fin 10000 → Fin 10000 → EReal) (h : Fin 10000 → Fin 64 → EReal) (W : Fin 64 → Fin 64 → EReal)
    (b : Fin 64 → EReal) (p : Fin 10000) (q : Fin 64) : EReal :=
  (∑ k : Fin 10000, adj p k * ∑ l : Fin 64, h k l * W l q) + b q

/-- The first layer's output. -/
def x1 (adj : Fin 10000 → Fin 10000 → EReal) (x : Fin 10000 → Fin 128 → EReal) (W1 : Fin 128 → Fin 64 → EReal)
    (b1 : Fin 64 → EReal) (p : Fin 10000) (q : Fin 64) : EReal :=
  max (gc128 adj x W1 b1 p q) 0

/-- The second layer's output. -/
def x2 (adj : Fin 10000 → Fin 10000 → EReal) (x : Fin 10000 → Fin 128 → EReal) (W1 : Fin 128 → Fin 64 → EReal)
    (b1 : Fin 64 → EReal) (W2 : Fin 64 → Fin 64 → EReal) (b2 : Fin 64 → EReal) (p : Fin 10000) (q : Fin 64) : EReal :=
  max (gc64 adj (x1 adj x W1 b1) W2 b2 p q) 0

/-- The third layer's output (no `max`). -/
def x3 (adj : Fin 10000 → Fin 10000 → EReal) (x : Fin 10000 → Fin 128 → EReal) (W1 : Fin 128 → Fin 64 → EReal)
    (b1 : Fin 64 → EReal) (W2 : Fin 64 → Fin 64 → EReal) (b2 : Fin 64 → EReal) (W3 : Fin 64 → Fin 64 → EReal)
    (b3 : Fin 64 → EReal) (p : Fin 10000) (q : Fin 64) : EReal :=
  gc64 adj (x2 adj x W1 b1 W2 b2) W3 b3 p q

/-- The three layers' outputs joined along the feature axis. -/
def hcat (a b c : Fin 10000 → Fin 64 → EReal) (p : Fin 10000) (j : Fin 192) : EReal :=
  if h : j.val < 64 then a p ⟨j.val, h⟩
  else if h2 : j.val < 128 then b p ⟨j.val - 64, by omega⟩
  else c p ⟨j.val - 128, by omega⟩

/-- The final linear layer as one sum over the 192 joined features. -/
def logitsR (a b c : Fin 10000 → Fin 64 → EReal) (Wl : Fin 192 → Fin 40 → EReal) (bl : Fin 40 → EReal)
    (p : Fin 10000) (j : Fin 40) : EReal :=
  (∑ k : Fin 192, hcat a b c p k * Wl k j) + bl j

/-- The final linear layer as three sums over 64 features each, added left to right. -/
def logitsK (a b c : Fin 10000 → Fin 64 → EReal) (Wl : Fin 192 → Fin 40 → EReal) (bl : Fin 40 → EReal)
    (p : Fin 10000) (j : Fin 40) : EReal :=
  (((∑ k : Fin 64, a p k * Wl ⟨k.val, by omega⟩ j) + (∑ k : Fin 64, b p k * Wl ⟨k.val + 64, by omega⟩ j))
    + (∑ k : Fin 64, c p k * Wl ⟨k.val + 128, by omega⟩ j)) + bl j

/-- The maximum of a row (`⊥`-based supremum over the 40 classes). -/
def rowmax (l : Fin 40 → EReal) : EReal := Finset.univ.sup l

/-- Log-softmax of a row, shifted first: `(l - m) - log Σ exp (l - m)`. -/
def lsmR (l : Fin 40 → EReal) (j : Fin 40) : EReal :=
  (l j - rowmax l) - Ideal.log (∑ j' : Fin 40, Ideal.exp (l j' - rowmax l))

/-- Log-softmax of a row, the log-sum-exp subtracted at once: `l - (log Σ exp (l - m) + m)`. -/
def lsmK (l : Fin 40 → EReal) (j : Fin 40) : EReal :=
  l j - (Ideal.log (∑ j' : Fin 40, Ideal.exp (l j' - rowmax l)) + rowmax l)

/-- The network's output: the log-softmax of the logits of the three layers. -/
def out (adj : Fin 10000 → Fin 10000 → EReal) (x : Fin 10000 → Fin 128 → EReal) (W1 : Fin 128 → Fin 64 → EReal)
    (b1 : Fin 64 → EReal) (W2 : Fin 64 → Fin 64 → EReal) (b2 : Fin 64 → EReal) (W3 : Fin 64 → Fin 64 → EReal)
    (b3 : Fin 64 → EReal) (Wl : Fin 192 → Fin 40 → EReal) (bl : Fin 40 → EReal) (p : Fin 10000) (j : Fin 40) : EReal :=
  lsmR (logitsR (x1 adj x W1 b1) (x2 adj x W1 b1 W2 b2) (x3 adj x W1 b1 W2 b2 W3 b3) Wl bl p) j

/-! ### One sum over 192 features is three sums over 64 -/

/-- A sum over `Fin 192` split into its three blocks of 64. -/
theorem sum_fin192 {M : Type*} [AddCommMonoid M] (g : Fin 192 → M) :
    ∑ k, g k = ((∑ k : Fin 64, g ⟨k.val, by omega⟩) + ∑ k : Fin 64, g ⟨k.val + 64, by omega⟩)
      + ∑ k : Fin 64, g ⟨k.val + 128, by omega⟩ := by
  have h1 : ∑ k, g k = ∑ i : Fin 128, g (Fin.castAdd 64 i) + ∑ i : Fin 64, g (Fin.natAdd 128 i) :=
    Fin.sum_univ_add (a := 128) (b := 64) g
  have h2 : ∑ i : Fin 128, g (Fin.castAdd 64 i)
      = ∑ i : Fin 64, g (Fin.castAdd 64 (Fin.castAdd 64 i)) + ∑ i : Fin 64, g (Fin.castAdd 64 (Fin.natAdd 64 i)) :=
    Fin.sum_univ_add (a := 64) (b := 64) (fun i : Fin 128 => g (Fin.castAdd 64 i))
  rw [h1, h2]
  refine congrArg₂ (· + ·) (congrArg₂ (· + ·) ?_ ?_) ?_
  · exact Finset.sum_congr rfl (fun k _ => congrArg g (Fin.ext rfl))
  · exact Finset.sum_congr rfl (fun k _ => congrArg g (Fin.ext (Nat.add_comm 64 k.val)))
  · exact Finset.sum_congr rfl (fun k _ => congrArg g (Fin.ext (Nat.add_comm 128 k.val)))

theorem hcat_lo (a b c : Fin 10000 → Fin 64 → EReal) (p : Fin 10000) (k : Fin 64) :
    hcat a b c p ⟨k.val, by omega⟩ = a p k := by
  unfold hcat; rw [dif_pos (show k.val < 64 from k.isLt)]

theorem hcat_mid (a b c : Fin 10000 → Fin 64 → EReal) (p : Fin 10000) (k : Fin 64) :
    hcat a b c p ⟨k.val + 64, by omega⟩ = b p k := by
  unfold hcat
  rw [dif_neg (show ¬ k.val + 64 < 64 by omega), dif_pos (show k.val + 64 < 128 by omega)]
  exact congrArg (b p) (Fin.ext (show k.val + 64 - 64 = k.val by omega))

theorem hcat_hi (a b c : Fin 10000 → Fin 64 → EReal) (p : Fin 10000) (k : Fin 64) :
    hcat a b c p ⟨k.val + 128, by omega⟩ = c p k := by
  unfold hcat
  rw [dif_neg (show ¬ k.val + 128 < 64 by omega), dif_neg (show ¬ k.val + 128 < 128 by omega)]
  exact congrArg (c p) (Fin.ext (show k.val + 128 - 128 = k.val by omega))

/-- Three 64-sums added left to right are the one 192-sum over the joined features: no finiteness is needed. -/
theorem logitsK_eq_logitsR (a b c : Fin 10000 → Fin 64 → EReal) (Wl : Fin 192 → Fin 40 → EReal) (bl : Fin 40 → EReal)
    (p : Fin 10000) (j : Fin 40) : logitsK a b c Wl bl p j = logitsR a b c Wl bl p j := by
  unfold logitsK logitsR
  rw [sum_fin192 (fun k => hcat a b c p k * Wl k j)]
  simp only [hcat_lo, hcat_mid, hcat_hi]

/-! ### The two spellings of log-softmax agree on real rows -/

/-- On a row of real numbers, subtracting `log Σ exp (l - m) + m` at once is subtracting `m` and then the logarithm. -/
theorem lsmK_eq_lsmR (l : Fin 40 → EReal) (hl : ∀ j, ∃ r : ℝ, l j = (r : EReal)) : lsmK l = lsmR l := by
  choose r hr using hl
  obtain ⟨j0, -, hj0⟩ := Finset.exists_mem_eq_sup Finset.univ Finset.univ_nonempty l
  have hm : rowmax l = (r j0 : EReal) := by rw [rowmax, hj0, hr]
  have hS : (∑ j' : Fin 40, Ideal.exp (l j' - rowmax l)) = ((∑ j' : Fin 40, Real.exp (r j' - r j0) : ℝ) : EReal) := by
    rw [coe_sum]
    refine Finset.sum_congr rfl (fun j' _ => ?_)
    rw [hm, hr j', ← EReal.coe_sub, Ideal.exp_coe]
  have hpos : 0 < ∑ j' : Fin 40, Real.exp (r j' - r j0) :=
    Finset.sum_pos (fun _ _ => Real.exp_pos _) Finset.univ_nonempty
  funext j
  unfold lsmK lsmR
  rw [hS, Ideal.log_coe, if_neg (not_le.mpr hpos), hm, hr j]
  rw [← EReal.coe_add, ← EReal.coe_sub, ← EReal.coe_sub, ← EReal.coe_sub]
  congr 1; ring

/-! ### Real inputs give real logits -/

theorem gc128_real {adj : Fin 10000 → Fin 10000 → EReal} {h : Fin 10000 → Fin 128 → EReal} {W : Fin 128 → Fin 64 → EReal}
    {b : Fin 64 → EReal} (hadj : ∀ p k, ∃ r : ℝ, adj p k = (r : EReal)) (hh : ∀ p l, ∃ r : ℝ, h p l = (r : EReal))
    (hW : ∀ l q, ∃ r : ℝ, W l q = (r : EReal)) (hb : ∀ q, ∃ r : ℝ, b q = (r : EReal)) (p : Fin 10000) (q : Fin 64) :
    ∃ r : ℝ, gc128 adj h W b p q = (r : EReal) :=
  real_add (real_sum _ _ fun k => real_mul (hadj p k) (real_sum _ _ fun l => real_mul (hh k l) (hW l q))) (hb q)

theorem gc64_real {adj : Fin 10000 → Fin 10000 → EReal} {h : Fin 10000 → Fin 64 → EReal} {W : Fin 64 → Fin 64 → EReal}
    {b : Fin 64 → EReal} (hadj : ∀ p k, ∃ r : ℝ, adj p k = (r : EReal)) (hh : ∀ p l, ∃ r : ℝ, h p l = (r : EReal))
    (hW : ∀ l q, ∃ r : ℝ, W l q = (r : EReal)) (hb : ∀ q, ∃ r : ℝ, b q = (r : EReal)) (p : Fin 10000) (q : Fin 64) :
    ∃ r : ℝ, gc64 adj h W b p q = (r : EReal) :=
  real_add (real_sum _ _ fun k => real_mul (hadj p k) (real_sum _ _ fun l => real_mul (hh k l) (hW l q))) (hb q)

theorem hcat_real {a b c : Fin 10000 → Fin 64 → EReal} (ha : ∀ p q, ∃ r : ℝ, a p q = (r : EReal))
    (hb : ∀ p q, ∃ r : ℝ, b p q = (r : EReal)) (hc : ∀ p q, ∃ r : ℝ, c p q = (r : EReal)) (p : Fin 10000) (j : Fin 192) :
    ∃ r : ℝ, hcat a b c p j = (r : EReal) := by
  unfold hcat; split_ifs
  · exact ha _ _
  · exact hb _ _
  · exact hc _ _

/-- Real inputs give real logits. -/
theorem logits_real {adj : Fin 10000 → Fin 10000 → EReal} {x : Fin 10000 → Fin 128 → EReal} {W1 : Fin 128 → Fin 64 → EReal}
    {b1 : Fin 64 → EReal} {W2 : Fin 64 → Fin 64 → EReal} {b2 : Fin 64 → EReal} {W3 : Fin 64 → Fin 64 → EReal}
    {b3 : Fin 64 → EReal} {Wl : Fin 192 → Fin 40 → EReal} {bl : Fin 40 → EReal}
    (hadj : ∀ p k, ∃ r : ℝ, adj p k = (r : EReal)) (hx : ∀ p l, ∃ r : ℝ, x p l = (r : EReal))
    (hW1 : ∀ l q, ∃ r : ℝ, W1 l q = (r : EReal)) (hb1 : ∀ q, ∃ r : ℝ, b1 q = (r : EReal))
    (hW2 : ∀ l q, ∃ r : ℝ, W2 l q = (r : EReal)) (hb2 : ∀ q, ∃ r : ℝ, b2 q = (r : EReal))
    (hW3 : ∀ l q, ∃ r : ℝ, W3 l q = (r : EReal)) (hb3 : ∀ q, ∃ r : ℝ, b3 q = (r : EReal))
    (hWl : ∀ k j, ∃ r : ℝ, Wl k j = (r : EReal)) (hbl : ∀ j, ∃ r : ℝ, bl j = (r : EReal)) (p : Fin 10000) (j : Fin 40) :
    ∃ r : ℝ, logitsR (x1 adj x W1 b1) (x2 adj x W1 b1 W2 b2) (x3 adj x W1 b1 W2 b2 W3 b3) Wl bl p j = (r : EReal) := by
  have h1 : ∀ p q, ∃ r : ℝ, x1 adj x W1 b1 p q = (r : EReal) := fun p q => real_max_zero (gc128_real hadj hx hW1 hb1 p q)
  have h2 : ∀ p q, ∃ r : ℝ, x2 adj x W1 b1 W2 b2 p q = (r : EReal) := fun p q => real_max_zero (gc64_real hadj h1 hW2 hb2 p q)
  have h3 : ∀ p q, ∃ r : ℝ, x3 adj x W1 b1 W2 b2 W3 b3 p q = (r : EReal) := fun p q => gc64_real hadj h2 hW3 hb3 p q
  exact real_add (real_sum _ _ fun k => real_mul (hcat_real h1 h2 h3 p k) (hWl k j)) (hbl j)

end Cert.Spec

end
-- ==== Proof.KI.Val2.lean ====
/-
  The third pallas_call region's output array after its 25 grid points, at the ideal semantics, as a function of the
  arrays the region finds (`V`): row by row, the log-softmax (in the kernel's order of operations) of
  logits = x1 · Wl1 + x2 · Wl2 + (adj · s3 + b3) · Wl3 + bl, the three 64-term sums added left to right.

  Point `t` writes back rows 400·t … 400·t + 399 of the output; the windows of the adjacency and of the two earlier
  layer outputs move with it, the other six input windows are their whole arrays at every point. So what point `t`
  writes back is block `t` of one function of the arrays, and the 25 blocks cover the 10000 rows.
-/
import proofs.«130456_g21895743275233_cont_8to1_495_2_alg».proof.Proof.KI.Reg2
import proofs.«130456_g21895743275233_cont_8to1_495_2_alg».proof.Proof.KI.Val1
import proofs.«130456_g21895743275233_cont_8to1_495_2_alg».proof.Proof.Pay2
import proofs.«130456_g21895743275233_cont_8to1_495_2_alg».proof.Proof.Spec
import Idealize.ShloMosaic.Lib.Pipeline.Value

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The index maps, decided over the grid -/

/-- The windows of the adjacency, of the two earlier layer outputs and of the output sit at block row `t`; -/
theorem index2_0 : ∀ t : Fin cfg2.N, win2_0.index t (0 : Fin 2) = t.val ∧ win2_0.index t (1 : Fin 2) = 0 :=
  (by decide +kernel : ∀ t : Fin grid2.N, _)
theorem index2_2 : ∀ t : Fin cfg2.N, win2_2.index t (0 : Fin 2) = t.val ∧ win2_2.index t (1 : Fin 2) = 0 :=
  (by decide +kernel : ∀ t : Fin grid2.N, _)
theorem index2_3 : ∀ t : Fin cfg2.N, win2_3.index t (0 : Fin 2) = t.val ∧ win2_3.index t (1 : Fin 2) = 0 :=
  (by decide +kernel : ∀ t : Fin grid2.N, _)
theorem index2_9 : ∀ t : Fin cfg2.N, win2_9.index t (0 : Fin 2) = t.val ∧ win2_9.index t (1 : Fin 2) = 0 :=
  (by decide +kernel : ∀ t : Fin grid2.N, _)
/-- the other windows at block (0, 0). -/
theorem index2_1 : ∀ t : Fin cfg2.N, win2_1.index t (0 : Fin 2) = 0 ∧ win2_1.index t (1 : Fin 2) = 0 :=
  (by decide +kernel : ∀ t : Fin grid2.N, _)
theorem index2_4 : ∀ t : Fin cfg2.N, win2_4.index t (0 : Fin 2) = 0 ∧ win2_4.index t (1 : Fin 2) = 0 :=
  (by decide +kernel : ∀ t : Fin grid2.N, _)
theorem index2_5 : ∀ t : Fin cfg2.N, win2_5.index t (0 : Fin 2) = 0 ∧ win2_5.index t (1 : Fin 2) = 0 :=
  (by decide +kernel : ∀ t : Fin grid2.N, _)
theorem index2_6 : ∀ t : Fin cfg2.N, win2_6.index t (0 : Fin 2) = 0 ∧ win2_6.index t (1 : Fin 2) = 0 :=
  (by decide +kernel : ∀ t : Fin grid2.N, _)
theorem index2_7 : ∀ t : Fin cfg2.N, win2_7.index t (0 : Fin 2) = 0 ∧ win2_7.index t (1 : Fin 2) = 0 :=
  (by decide +kernel : ∀ t : Fin grid2.N, _)
theorem index2_8 : ∀ t : Fin cfg2.N, win2_8.index t (0 : Fin 2) = 0 ∧ win2_8.index t (1 : Fin 2) = 0 :=
  (by decide +kernel : ∀ t : Fin grid2.N, _)

/-! ## Each input block, read where the array index says -/

/-- The adjacency's block at point `t` is rows 400·t … 400·t + 399 of the array. -/
theorem iblk2_0_at (c : Dev nD) (t : Fin cfg2.N) (p : Fin 400) (k : Fin 10000) (r : Fin 10000) (hr : r.val = 400 * t.val + p.val) :
    (iblk2 V c 0 t : Vec Ideal S400x10000 .bf16) (ix2 p k) = (V c main_v7_0 : S10000x10000.Idx → EReal) (ix2 r k) := by
  obtain ⟨h0, h1⟩ := index2_0 t
  unfold iblk2
  rw [View.read_apply]
  show (V c main_v7_0 : S10000x10000.Idx → EReal) _ = (V c main_v7_0 : S10000x10000.Idx → EReal) _
  congr 1
  funext a
  apply Fin.ext
  match a with
  | ⟨0, _⟩ => show win2_0.index t (0 : Fin 2) * 400 + 1 * p.val = r.val; rw [h0, hr]; omega
  | ⟨1, _⟩ => show win2_0.index t (1 : Fin 2) * 10000 + 1 * k.val = k.val; rw [h1]; omega

/-- The support matrix's block at every point is the whole array. -/
theorem iblk2_1_at (c : Dev nD) (t : Fin cfg2.N) (a : Fin 10000) (b : Fin 64) :
    (iblk2 V c 1 t : Vec Ideal S10000x64 .bf16) (ix2 a b) = (V c main_v8_1 : S10000x64.Idx → EReal) (ix2 a b) := by
  obtain ⟨h0, h1⟩ := index2_1 t
  unfold iblk2
  rw [View.read_apply]
  show (V c main_v8_1 : S10000x64.Idx → EReal) _ = (V c main_v8_1 : S10000x64.Idx → EReal) _
  congr 1
  funext d
  apply Fin.ext
  match d with
  | ⟨0, _⟩ => show win2_1.index t (0 : Fin 2) * 10000 + 1 * a.val = a.val; rw [h0]; omega
  | ⟨1, _⟩ => show win2_1.index t (1 : Fin 2) * 64 + 1 * b.val = b.val; rw [h1]; omega

/-- The first layer output's block at point `t` is rows 400·t … 400·t + 399 of the array. -/
theorem iblk2_2_at (c : Dev nD) (t : Fin cfg2.N) (p : Fin 400) (k : Fin 64) (r : Fin 10000) (hr : r.val = 400 * t.val + p.val) :
    (iblk2 V c 2 t : Vec Ideal S400x64 .f32) (ix2 p k) = (V c main_v7_1 : S10000x64.Idx → EReal) (ix2 r k) := by
  obtain ⟨h0, h1⟩ := index2_2 t
  unfold iblk2
  rw [View.read_apply]
  show (V c main_v7_1 : S10000x64.Idx → EReal) _ = (V c main_v7_1 : S10000x64.Idx → EReal) _
  congr 1
  funext a
  apply Fin.ext
  match a with
  | ⟨0, _⟩ => show win2_2.index t (0 : Fin 2) * 400 + 1 * p.val = r.val; rw [h0, hr]; omega
  | ⟨1, _⟩ => show win2_2.index t (1 : Fin 2) * 64 + 1 * k.val = k.val; rw [h1]; omega

/-- The second layer output's block at point `t` is rows 400·t … 400·t + 399 of the array. -/
theorem iblk2_3_at (c : Dev nD) (t : Fin cfg2.N) (p : Fin 400) (k : Fin 64) (r : Fin 10000) (hr : r.val = 400 * t.val + p.val) :
    (iblk2 V c 3 t : Vec Ideal S400x64 .f32) (ix2 p k) = (V c main_v8_0 : S10000x64.Idx → EReal) (ix2 r k) := by
  obtain ⟨h0, h1⟩ := index2_3 t
  unfold iblk2
  rw [View.read_apply]
  show (V c main_v8_0 : S10000x64.Idx → EReal) _ = (V c main_v8_0 : S10000x64.Idx → EReal) _
  congr 1
  funext a
  apply Fin.ext
  match a with
  | ⟨0, _⟩ => show win2_3.index t (0 : Fin 2) * 400 + 1 * p.val = r.val; rw [h0, hr]; omega
  | ⟨1, _⟩ => show win2_3.index t (1 : Fin 2) * 64 + 1 * k.val = k.val; rw [h1]; omega

/-- The bias row's block at every point is the whole array. -/
theorem iblk2_4_at (c : Dev nD) (t : Fin cfg2.N) (a : Fin 1) (b : Fin 64) :
    (iblk2 V c 4 t : Vec Ideal S1x64 .f32) (ix2 a b) = (V c main_v2 : S1x64.Idx → EReal) (ix2 a b) := by
  obtain ⟨h0, h1⟩ := index2_4 t
  unfold iblk2
  rw [View.read_apply]
  show (V c main_v2 : S1x64.Idx → EReal) _ = (V c main_v2 : S1x64.Idx → EReal) _
  congr 1
  funext d
  apply Fin.ext
  match d with
  | ⟨0, _⟩ => show win2_4.index t (0 : Fin 2) * 1 + 1 * a.val = a.val; rw [h0]; omega
  | ⟨1, _⟩ => show win2_4.index t (1 : Fin 2) * 64 + 1 * b.val = b.val; rw [h1]; omega

/-- The first classifier slice's block at every point is the whole array. -/
theorem iblk2_5_at (c : Dev nD) (t : Fin cfg2.N) (a : Fin 64) (b : Fin 40) :
    (iblk2 V c 5 t : Vec Ideal S64x40 .f32) (ix2 a b) = (V c main_v4 : S64x40.Idx → EReal) (ix2 a b) := by
  obtain ⟨h0, h1⟩ := index2_5 t
  unfold iblk2
  rw [View.read_apply]
  show (V c main_v4 : S64x40.Idx → EReal) _ = (V c main_v4 : S64x40.Idx → EReal) _
  congr 1
  funext d
  apply Fin.ext
  match d with
  | ⟨0, _⟩ => show win2_5.index t (0 : Fin 2) * 64 + 1 * a.val = a.val; rw [h0]; omega
  | ⟨1, _⟩ => show win2_5.index t (1 : Fin 2) * 40 + 1 * b.val = b.val; rw [h1]; omega

/-- The second classifier slice's block at every point is the whole array. -/
theorem iblk2_6_at (c : Dev nD) (t : Fin cfg2.N) (a : Fin 64) (b : Fin 40) :
    (iblk2 V c 6 t : Vec Ideal S64x40 .f32) (ix2 a b) = (V c main_v5 : S64x40.Idx → EReal) (ix2 a b) := by
  obtain ⟨h0, h1⟩ := index2_6 t
  unfold iblk2
  rw [View.read_apply]
  show (V c main_v5 : S64x40.Idx → EReal) _ = (V c main_v5 : S64x40.Idx → EReal) _
  congr 1
  funext d
  apply Fin.ext
  match d with
  | ⟨0, _⟩ => show win2_6.index t (0 : Fin 2) * 64 + 1 * a.val = a.val; rw [h0]; omega
  | ⟨1, _⟩ => show win2_6.index t (1 : Fin 2) * 40 + 1 * b.val = b.val; rw [h1]; omega

/-- The third classifier slice's block at every point is the whole array. -/
theorem iblk2_7_at (c : Dev nD) (t : Fin cfg2.N) (a : Fin 64) (b : Fin 40) :
    (iblk2 V c 7 t : Vec Ideal S64x40 .f32) (ix2 a b) = (V c main_v6 : S64x40.Idx → EReal) (ix2 a b) := by
  obtain ⟨h0, h1⟩ := index2_7 t
  unfold iblk2
  rw [View.read_apply]
  show (V c main_v6 : S64x40.Idx → EReal) _ = (V c main_v6 : S64x40.Idx → EReal) _
  congr 1
  funext d
  apply Fin.ext
  match d with
  | ⟨0, _⟩ => show win2_7.index t (0 : Fin 2) * 64 + 1 * a.val = a.val; rw [h0]; omega
  | ⟨1, _⟩ => show win2_7.index t (1 : Fin 2) * 40 + 1 * b.val = b.val; rw [h1]; omega

/-- The classifier bias row's block at every point is the whole array. -/
theorem iblk2_8_at (c : Dev nD) (t : Fin cfg2.N) (a : Fin 1) (b : Fin 40) :
    (iblk2 V c 8 t : Vec Ideal S1x40 .f32) (ix2 a b) = (V c main_v3 : S1x40.Idx → EReal) (ix2 a b) := by
  obtain ⟨h0, h1⟩ := index2_8 t
  unfold iblk2
  rw [View.read_apply]
  show (V c main_v3 : S1x40.Idx → EReal) _ = (V c main_v3 : S1x40.Idx → EReal) _
  congr 1
  funext d
  apply Fin.ext
  match d with
  | ⟨0, _⟩ => show win2_8.index t (0 : Fin 2) * 1 + 1 * a.val = a.val; rw [h0]; omega
  | ⟨1, _⟩ => show win2_8.index t (1 : Fin 2) * 40 + 1 * b.val = b.val; rw [h1]; omega

/-! ## The output array as a function of the arrays the region finds -/

/-- The arrays the region reads (besides the adjacency's copy), as the region finds them, each at its literal index
    type: the support matrix s3, the two earlier layer outputs x1 and x2, the bias row b3, the classifier's three
    64-row slices and its bias row. -/
abbrev arrS3 (c : Dev nD) : S10000x64.Idx → EReal := V c main_v8_1
abbrev arrX1 (c : Dev nD) : S10000x64.Idx → EReal := V c main_v7_1
abbrev arrX2 (c : Dev nD) : S10000x64.Idx → EReal := V c main_v8_0
abbrev arrB3 (c : Dev nD) : S1x64.Idx → EReal := V c main_v2
abbrev arrWl1 (c : Dev nD) : S64x40.Idx → EReal := V c main_v4
abbrev arrWl2 (c : Dev nD) : S64x40.Idx → EReal := V c main_v5
abbrev arrWl3 (c : Dev nD) : S64x40.Idx → EReal := V c main_v6
abbrev arrBl (c : Dev nD) : S1x40.Idx → EReal := V c main_v3

/-- The logits at row `r`, lane `j`, of nine arrays: x1 · Wl1 + x2 · Wl2 + (adj · s3 + b3) · Wl3 + bl, added left to
    right. -/
def logitsFn (A : S10000x10000.Idx → EReal) (S : S10000x64.Idx → EReal) (B : S1x64.Idx → EReal)
    (X1 X2 : S10000x64.Idx → EReal) (W1 W2 W3 : S64x40.Idx → EReal) (Bl : S1x40.Idx → EReal) (r : Fin 10000) (j : Fin 40) : EReal :=
  (((∑ k : Fin 64, X1 (ix2 r k) * W1 (ix2 k j)) + (∑ k : Fin 64, X2 (ix2 r k) * W2 (ix2 k j)))
      + (∑ k : Fin 64, ((∑ s : Fin 10000, A (ix2 r s) * S (ix2 s k)) + B (ix2 0 k)) * W3 (ix2 k j)))
    + Bl (ix2 0 j)

/-- The logits of the arrays the region finds. -/
def logitsOf (c : Dev nD) (r : Fin 10000) (j : Fin 40) : EReal :=
  logitsFn (arrAdj V c) (arrS3 V c) (arrB3 V c) (arrX1 V c) (arrX2 V c) (arrWl1 V c) (arrWl2 V c) (arrWl3 V c) (arrBl V c) r j

/-- Spelt out. -/
theorem logitsOf_apply (c : Dev nD) (r : Fin 10000) (j : Fin 40) : logitsOf V c r j =
    (((∑ k : Fin 64, arrX1 V c (ix2 r k) * arrWl1 V c (ix2 k j)) + (∑ k : Fin 64, arrX2 V c (ix2 r k) * arrWl2 V c (ix2 k j)))
      + (∑ k : Fin 64, ((∑ s : Fin 10000, arrAdj V c (ix2 r s) * arrS3 V c (ix2 s k)) + arrB3 V c (ix2 0 k)) * arrWl3 V c (ix2 k j)))
    + arrBl V c (ix2 0 j) := rfl

/-- The output: each row the log-softmax of its logits, in the kernel's order of operations. -/
def lsmOf (c : Dev nD) : S10000x40.Idx → EReal := fun i => Cert.Spec.lsmK (fun j => logitsOf V c (rowOf i) j) (colOf i)

/-! ## One point's payloads, over blocks that read the arrays at row `r` -/

/-- The logits payload at (p, j), when row `p` of each moving block is row `r` of its array and the other blocks are
    their arrays. -/
theorem logits_at_row (v0 : FVec Ideal S400x10000 .bf16) (v2 : FVec Ideal S10000x64 .bf16) (v7 : FVec Ideal S1x64 .f32)
    (v11 : FVec Ideal S400x64 .f32) (v13 : FVec Ideal S64x40 .f32) (v16 : FVec Ideal S400x64 .f32)
    (v18 : FVec Ideal S64x40 .f32) (v22 : FVec Ideal S64x40 .f32) (v26 : FVec Ideal S1x40 .f32)
    (A : S10000x10000.Idx → EReal) (S : S10000x64.Idx → EReal) (B : S1x64.Idx → EReal)
    (X1 X2 : S10000x64.Idx → EReal) (W1 W2 W3 : S64x40.Idx → EReal) (Bl : S1x40.Idx → EReal) (r : Fin 10000) (p : Fin 400)
    (h0 : ∀ s, v0 (ix2 p s) = A (ix2 r s)) (h2 : ∀ s k, v2 (ix2 s k) = S (ix2 s k)) (h7 : ∀ k, v7 (ix2 0 k) = B (ix2 0 k))
    (h11 : ∀ k, v11 (ix2 p k) = X1 (ix2 r k)) (h13 : ∀ k j, v13 (ix2 k j) = W1 (ix2 k j))
    (h16 : ∀ k, v16 (ix2 p k) = X2 (ix2 r k)) (h18 : ∀ k j, v18 (ix2 k j) = W2 (ix2 k j))
    (h22 : ∀ k j, v22 (ix2 k j) = W3 (ix2 k j)) (h26 : ∀ j, v26 (ix2 0 j) = Bl (ix2 0 j)) (j : Fin 40) :
    k2_pay2 (F := Ideal) v0 v2 v7 v11 v13 v16 v18 v22 v26 (ix2 p j) = logitsFn A S B X1 X2 W1 W2 W3 Bl r j := by
  refine (k2_pay2_apply v0 v2 v7 v11 v13 v16 v18 v22 v26 p j).trans ?_
  unfold logitsFn
  simp only [h0, h2, h7, h11, h13, h16, h18, h22, h26]

/-- The stored payload at (p, j), likewise: the log-softmax of the logits' row. -/
theorem lsm_at_row (v0 : FVec Ideal S400x10000 .bf16) (v2 : FVec Ideal S10000x64 .bf16) (v7 : FVec Ideal S1x64 .f32)
    (v11 : FVec Ideal S400x64 .f32) (v13 : FVec Ideal S64x40 .f32) (v16 : FVec Ideal S400x64 .f32)
    (v18 : FVec Ideal S64x40 .f32) (v22 : FVec Ideal S64x40 .f32) (v26 : FVec Ideal S1x40 .f32)
    (L : Fin 40 → EReal) (p : Fin 400)
    (hL : ∀ j, k2_pay2 (F := Ideal) v0 v2 v7 v11 v13 v16 v18 v22 v26 (ix2 p j) = L j) (j : Fin 40) :
    k2_pay1 (F := Ideal) (k2_pay2 v0 v2 v7 v11 v13 v16 v18 v22 v26) (k2_pay3 v0 v2 v7 v11 v13 v16 v18 v22 v26)
        (k2_pay4 v0 v2 v7 v11 v13 v16 v18 v22 v26) (ix2 p j) = Cert.Spec.lsmK L j := by
  refine (k2_pay1_apply _ _ _ p j).trans ?_
  simp only [k2_pay4_apply, k2_pay3_apply, hL]
  rfl

/-! ## What a point writes back is its block of that function -/

/-- Point `t` writes back block `t` of the log-softmax rows. -/
theorem flushed2_9_eq (c : Dev nD) (t : Fin cfg2.N) :
    (dat2 (F := Ideal) V c).flushed 9 t = ((cfg2.win 9).blk t).view.read (Elt Ideal) (lsmOf V c) := by
  obtain ⟨e0, e1⟩ := index2_9 t
  show (cfg2.win 9).cut (grid2.coords t) ((dat2 V c).after 9 t) = _
  rw [after2_9]
  unfold out2_9
  rw [View.canon_unit_zero zero_offsets]
  simp only [View.ld_unit_zero (S := S400x10000) zero_offsets, View.ld_unit_zero (S := S10000x64) zero_offsets,
    View.ld_unit_zero (S := S1x64) zero_offsets, View.ld_unit_zero (S := S400x64) zero_offsets,
    View.ld_unit_zero (S := S64x40) zero_offsets, View.ld_unit_zero (S := S1x40) zero_offsets]
  funext y
  obtain ⟨p, j, rfl⟩ : ∃ (p : Fin 400) (j : Fin 40), y = ix2 p j := ⟨y 0, y 1, eq_ix2 y⟩
  have hr : (rowOf (n0 := 10000) (n1 := 40) (((cfg2.win 9).blk t).view.emb (ix2 p j))).val = 400 * t.val + p.val := by
    show win2_9.index t (0 : Fin 2) * 400 + 1 * p.val = _; rw [e0]; omega
  have hj : colOf (n0 := 10000) (n1 := 40) (((cfg2.win 9).blk t).view.emb (ix2 p j)) = j := Fin.ext (by
    show win2_9.index t (1 : Fin 2) * 40 + 1 * j.val = j.val; rw [e1]; omega)
  show k2_pay1 (F := Ideal)
      (k2_pay2 (iblk2 V c 0 t) (iblk2 V c 1 t) (iblk2 V c 4 t) (iblk2 V c 2 t) (iblk2 V c 5 t) (iblk2 V c 3 t) (iblk2 V c 6 t) (iblk2 V c 7 t) (iblk2 V c 8 t))
      (k2_pay3 (iblk2 V c 0 t) (iblk2 V c 1 t) (iblk2 V c 4 t) (iblk2 V c 2 t) (iblk2 V c 5 t) (iblk2 V c 3 t) (iblk2 V c 6 t) (iblk2 V c 7 t) (iblk2 V c 8 t))
      (k2_pay4 (iblk2 V c 0 t) (iblk2 V c 1 t) (iblk2 V c 4 t) (iblk2 V c 2 t) (iblk2 V c 5 t) (iblk2 V c 3 t) (iblk2 V c 6 t) (iblk2 V c 7 t) (iblk2 V c 8 t))
      (ix2 p j)
    = lsmOf V c (((cfg2.win 9).blk t).view.emb (ix2 p j))
  unfold lsmOf
  rw [hj]
  refine lsm_at_row _ _ _ _ _ _ _ _ _ _ p (fun j' => ?_) j
  unfold logitsOf
  exact logits_at_row _ _ _ _ _ _ _ _ _ (arrAdj V c) (arrS3 V c) (arrB3 V c) (arrX1 V c) (arrX2 V c) (arrWl1 V c) (arrWl2 V c)
    (arrWl3 V c) (arrBl V c) _ p (fun s => iblk2_0_at V c t p s _ hr) (fun s k => iblk2_1_at V c t s k) (fun k => iblk2_4_at V c t 0 k)
    (fun k => iblk2_2_at V c t p k _ hr) (fun k j => iblk2_5_at V c t k j) (fun k => iblk2_3_at V c t p k _ hr)
    (fun k j => iblk2_6_at V c t k j) (fun k j => iblk2_7_at V c t k j) (fun j => iblk2_8_at V c t 0 j) j'

/-! ## The blocks cover the array -/

/-- An index of the output array is in point `t`'s block iff each coordinate is in the block's range. -/
theorem mem_blk2_9 (t : Fin cfg2.N) (i : S10000x40.Idx) :
    i ∈ ((cfg2.win 9).blk t).view.set ↔ ∀ a : Fin 2, win2_9.index t a * S400x40.size a ≤ (i a).val
      ∧ (i a).val < win2_9.index t a * S400x40.size a + S400x40.size a := by
  show i ∈ ((View.whole main_v9).slice (win2_9.rect t)).set ↔ _
  rw [View.set_slice_whole, Rect.mem_set_unit]
  exact Iff.rfl

/-- Row `r` of the output array is in the block of point `r / 400`. -/
theorem covered2_9 (i : S10000x40.Idx) :
    ∃ t : Fin cfg2.N, (cfg2.win 9).flush t = true ∧ i ∈ ((cfg2.win 9).blk t).view.set := by
  have hN : cfg2.N = 25 := N_2
  have hi0 : (i 0).val < 10000 := idx2_lt0 i
  have hi1 : (i 1).val < 40 := idx2_lt1 i
  obtain ⟨t, ht⟩ : ∃ t : Fin cfg2.N, t.val = (i 0).val / 400 := ⟨⟨(i 0).val / 400, by rw [hN]; omega⟩, rfl⟩
  obtain ⟨e0, e1⟩ := index2_9 t
  refine ⟨t, flush2_9 t, ?_⟩
  rw [mem_blk2_9]
  intro a
  match a with
  | ⟨0, _⟩ =>
    show win2_9.index t (0 : Fin 2) * 400 ≤ (i 0).val ∧ (i 0).val < win2_9.index t (0 : Fin 2) * 400 + 400
    rw [e0, ht]; omega
  | ⟨1, _⟩ =>
    show win2_9.index t (1 : Fin 2) * 40 ≤ (i 1).val ∧ (i 1).val < win2_9.index t (1 : Fin 2) * 40 + 40
    rw [e1]; omega

/-! ## The array after the grid -/

/-- After the region's 25 points the output array holds the log-softmax rows. -/
theorem final2_9 (c : Dev nD) : (dat2 (F := Ideal) V c).arrAt 9 cfg2.N
    = fun i => Cert.Spec.lsmK (fun j => logitsOf V c (rowOf i) j) (colOf i) :=
  (dat2 (F := Ideal) V c).arrAt_eq_of_cover 9 (lsmOf V c) (fun t _ => flushed2_9_eq V c t) covered2_9

end Cert.KernelIdeal.Hand

end
-- ==== Proof.KI.HostVals.lean ====
/- The seven host operations before the first region, read at an index: four reshapes of a bias vector [b] to a one-row
   matrix [1, b], and three row slices [64, 40] of the [192, 40] output weights at row offsets 0, 64 and 128. Each holds for
   any contents of the argument buffers and at any float instance. -/
import proofs.«130456_g21895743275233_cont_8to1_495_2_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

variable {F : FTy → Type} [FloatOps F]

/-- The host's reshape [64] → [1, 64] of main_arg3 into main_v0, read at (0, q): the operand at q. -/
theorem host_v0 (W : Valuation τ sig (Elt F)) (q : Fin 64) :
    (StableHlo.after hostOps0 W (Proc.devRef .tc main_v0) : S1x64.Idx → F .f32) (ix2 (0 : Fin 1) q)
      = (W (Proc.devRef .tc main_arg3) : S64.Idx → F .f32) (ix1 q) := by
  have e : (StableHlo.after hostOps0 W (Proc.devRef .tc main_v0) : S1x64.Idx → F .f32)
      = shapeCast S1x64 (W (Proc.devRef .tc main_arg3) : S64.Idx → F .f32) Facts₀.shapeCasts_S64_S1x64 := by
    dsimp only [hostOps0]; after_results; rfl
  exact (congrFun e _).trans (shapeCast_a_1a_apply _ _ 0 q)

/-- The host's reshape [64] → [1, 64] of main_arg5 into main_v1, read at (0, q): the operand at q. -/
theorem host_v1 (W : Valuation τ sig (Elt F)) (q : Fin 64) :
    (StableHlo.after hostOps0 W (Proc.devRef .tc main_v1) : S1x64.Idx → F .f32) (ix2 (0 : Fin 1) q)
      = (W (Proc.devRef .tc main_arg5) : S64.Idx → F .f32) (ix1 q) := by
  have e : (StableHlo.after hostOps0 W (Proc.devRef .tc main_v1) : S1x64.Idx → F .f32)
      = shapeCast S1x64 (W (Proc.devRef .tc main_arg5) : S64.Idx → F .f32) Facts₀.shapeCasts_S64_S1x64 := by
    dsimp only [hostOps0]; after_results; rfl
  exact (congrFun e _).trans (shapeCast_a_1a_apply _ _ 0 q)

/-- The host's reshape [64] → [1, 64] of main_arg7 into main_v2, read at (0, q): the operand at q. -/
theorem host_v2 (W : Valuation τ sig (Elt F)) (q : Fin 64) :
    (StableHlo.after hostOps0 W (Proc.devRef .tc main_v2) : S1x64.Idx → F .f32) (ix2 (0 : Fin 1) q)
      = (W (Proc.devRef .tc main_arg7) : S64.Idx → F .f32) (ix1 q) := by
  have e : (StableHlo.after hostOps0 W (Proc.devRef .tc main_v2) : S1x64.Idx → F .f32)
      = shapeCast S1x64 (W (Proc.devRef .tc main_arg7) : S64.Idx → F .f32) Facts₀.shapeCasts_S64_S1x64 := by
    dsimp only [hostOps0]; after_results; rfl
  exact (congrFun e _).trans (shapeCast_a_1a_apply _ _ 0 q)

/-- The host's reshape [40] → [1, 40] of main_arg9 into main_v3, read at (0, j): the operand at j. -/
theorem host_v3 (W : Valuation τ sig (Elt F)) (j : Fin 40) :
    (StableHlo.after hostOps0 W (Proc.devRef .tc main_v3) : S1x40.Idx → F .f32) (ix2 (0 : Fin 1) j)
      = (W (Proc.devRef .tc main_arg9) : S40.Idx → F .f32) (ix1 j) := by
  have e : (StableHlo.after hostOps0 W (Proc.devRef .tc main_v3) : S1x40.Idx → F .f32)
      = shapeCast S1x40 (W (Proc.devRef .tc main_arg9) : S40.Idx → F .f32) Facts₀.shapeCasts_S40_S1x40 := by
    dsimp only [hostOps0]; after_results; rfl
  exact (congrFun e _).trans (shapeCast_a_1a_apply _ _ 0 j)

/-- The host's slice of main_arg8 [192, 40] at row offset 0 into main_v4 [64, 40], read at (k, j): the operand at
    (k + 0, j). -/
theorem host_v4 (W : Valuation τ sig (Elt F)) (k : Fin 64) (j : Fin 40) :
    (StableHlo.after hostOps0 W (Proc.devRef .tc main_v4) : S64x40.Idx → F .f32) (ix2 k j)
      = (W (Proc.devRef .tc main_arg8) : S192x40.Idx → F .f32)
          (ix2 (⟨k.val, by have := k.isLt; omega⟩ : Fin 192) j) := by
  have e : (StableHlo.after hostOps0 W (Proc.devRef .tc main_v4) : S64x40.Idx → F .f32)
      = extractStridedSlice S64x40 ![0, 0] (W (Proc.devRef .tc main_arg8) : S192x40.Idx → F .f32)
          Facts₀.slices_S192x40_S64x40_0_0 := by
    dsimp only [hostOps0]; after_results
  refine (congrFun e _).trans (extractStridedSlice_apply _ _ _ _ _ fun a => ?_)
  match a with
  | ⟨0, _⟩ => show k.val = 0 + k.val; omega
  | ⟨1, _⟩ => show j.val = 0 + j.val; omega

/-- The host's slice of main_arg8 [192, 40] at row offset 64 into main_v5 [64, 40], read at (k, j): the operand at
    (k + 64, j). -/
theorem host_v5 (W : Valuation τ sig (Elt F)) (k : Fin 64) (j : Fin 40) :
    (StableHlo.after hostOps0 W (Proc.devRef .tc main_v5) : S64x40.Idx → F .f32) (ix2 k j)
      = (W (Proc.devRef .tc main_arg8) : S192x40.Idx → F .f32)
          (ix2 (⟨k.val + 64, by have := k.isLt; omega⟩ : Fin 192) j) := by
  have e : (StableHlo.after hostOps0 W (Proc.devRef .tc main_v5) : S64x40.Idx → F .f32)
      = extractStridedSlice S64x40 ![64, 0] (W (Proc.devRef .tc main_arg8) : S192x40.Idx → F .f32)
          Facts₀.slices_S192x40_S64x40_64_0 := by
    dsimp only [hostOps0]; after_results
  refine (congrFun e _).trans (extractStridedSlice_apply _ _ _ _ _ fun a => ?_)
  match a with
  | ⟨0, _⟩ => show k.val + 64 = 64 + k.val; omega
  | ⟨1, _⟩ => show j.val = 0 + j.val; omega

/-- The host's slice of main_arg8 [192, 40] at row offset 128 into main_v6 [64, 40], read at (k, j): the operand at
    (k + 128, j). -/
theorem host_v6 (W : Valuation τ sig (Elt F)) (k : Fin 64) (j : Fin 40) :
    (StableHlo.after hostOps0 W (Proc.devRef .tc main_v6) : S64x40.Idx → F .f32) (ix2 k j)
      = (W (Proc.devRef .tc main_arg8) : S192x40.Idx → F .f32)
          (ix2 (⟨k.val + 128, by have := k.isLt; omega⟩ : Fin 192) j) := by
  have e : (StableHlo.after hostOps0 W (Proc.devRef .tc main_v6) : S64x40.Idx → F .f32)
      = extractStridedSlice S64x40 ![128, 0] (W (Proc.devRef .tc main_arg8) : S192x40.Idx → F .f32)
          Facts₀.slices_S192x40_S64x40_128_0 := by
    dsimp only [hostOps0]; after_results
  refine (congrFun e _).trans (extractStridedSlice_apply _ _ _ _ _ fun a => ?_)
  match a with
  | ⟨0, _⟩ => show k.val + 128 = 128 + k.val; omega
  | ⟨1, _⟩ => show j.val = 0 + j.val; omega

end Cert.KernelIdeal.Hand

end
-- ==== Proof.KI.Chain.lean ====
/-
  From the run to the specification. The kernel program's buffers at each boundary are followed from the launch memory:
  the host stretch reshapes the four bias vectors into rows and cuts the classifier matrix into three 64-row pieces; the
  first region leaves the adjacency copy, the first hidden layer and the second layer's support; the second region the
  second hidden layer and the third layer's support; the third region the log-softmax of the classifier's logits. Each is
  the specification's function of the argument arrays, read index by index.
-/
import proofs.«130456_g21895743275233_cont_8to1_495_2_alg».proof.Proof.KI.Run
import proofs.«130456_g21895743275233_cont_8to1_495_2_alg».proof.Proof.KI.Val0
import proofs.«130456_g21895743275233_cont_8to1_495_2_alg».proof.Proof.KI.Val1
import proofs.«130456_g21895743275233_cont_8to1_495_2_alg».proof.Proof.KI.Val2
import proofs.«130456_g21895743275233_cont_8to1_495_2_alg».proof.Proof.KI.HostVals
import proofs.«130456_g21895743275233_cont_8to1_495_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.KernelIdeal.Pay

variable (m : (ℓ : Loc nD τ sig) → Buf (Elt Ideal) ℓ) (ρ : Dev nD → PrngReg)

/-! ## The argument arrays as extended reals at literal coordinates -/

abbrev mAdj (c : Dev nD) (p k : Fin 10000) : EReal := m ((c.tc : Thread nD τ).loc main_arg1) (ix2 p k)
abbrev mX (c : Dev nD) (k : Fin 10000) (l : Fin 128) : EReal := m ((c.tc : Thread nD τ).loc main_arg0) (ix2 k l)
abbrev mW1 (c : Dev nD) (l : Fin 128) (q : Fin 64) : EReal := m ((c.tc : Thread nD τ).loc main_arg2) (ix2 l q)
abbrev mB1 (c : Dev nD) (q : Fin 64) : EReal := m ((c.tc : Thread nD τ).loc main_arg3) (ix1 q)
abbrev mW2 (c : Dev nD) (l q : Fin 64) : EReal := m ((c.tc : Thread nD τ).loc main_arg4) (ix2 l q)
abbrev mB2 (c : Dev nD) (q : Fin 64) : EReal := m ((c.tc : Thread nD τ).loc main_arg5) (ix1 q)
abbrev mW3 (c : Dev nD) (l q : Fin 64) : EReal := m ((c.tc : Thread nD τ).loc main_arg6) (ix2 l q)
abbrev mB3 (c : Dev nD) (q : Fin 64) : EReal := m ((c.tc : Thread nD τ).loc main_arg7) (ix1 q)
abbrev mWl (c : Dev nD) (k : Fin 192) (j : Fin 40) : EReal := m ((c.tc : Thread nD τ).loc main_arg8) (ix2 k j)
abbrev mBl (c : Dev nD) (j : Fin 40) : EReal := m ((c.tc : Thread nD τ).loc main_arg9) (ix1 j)

/-- The three hidden layers of the specification, of the launch memory. -/
abbrev sX1 (c : Dev nD) : Fin 10000 → Fin 64 → EReal := Cert.Spec.x1 (mAdj m c) (mX m c) (mW1 m c) (mB1 m c)
abbrev sX2 (c : Dev nD) : Fin 10000 → Fin 64 → EReal := Cert.Spec.x2 (mAdj m c) (mX m c) (mW1 m c) (mB1 m c) (mW2 m c) (mB2 m c)
abbrev sX3 (c : Dev nD) : Fin 10000 → Fin 64 → EReal := Cert.Spec.x3 (mAdj m c) (mX m c) (mW1 m c) (mB1 m c) (mW2 m c) (mB2 m c) (mW3 m c) (mB3 m c)

/-! ## After the host stretch -/

/-- A buffer no host operation writes holds its launch contents at the first region's entry. -/
theorem V1_keep (c : Dev nD) (a : Ref sig .tc) (h : a ∉ hostOps0_W) : V1 m ρ c a = m ((c : Thread nD τ).loc a) :=
  StableHlo.after_of_writes_sub hostOps0 _ hostOps0_writes h

/-! ## The first region -/

theorem aAdj_V1 (c : Dev nD) (p k : Fin 10000) : aAdj (V1 m ρ) c p k = mAdj m c p k := congrFun (V1_keep m ρ c main_arg1 (by decide)) _
theorem aX_V1 (c : Dev nD) (k : Fin 10000) (l : Fin 128) : aX (V1 m ρ) c k l = mX m c k l := congrFun (V1_keep m ρ c main_arg0 (by decide)) _
theorem aW1_V1 (c : Dev nD) (l : Fin 128) (q : Fin 64) : aW1 (V1 m ρ) c l q = mW1 m c l q := congrFun (V1_keep m ρ c main_arg2 (by decide)) _
theorem aW2_V1 (c : Dev nD) (l q : Fin 64) : aW2 (V1 m ρ) c l q = mW2 m c l q := congrFun (V1_keep m ρ c main_arg4 (by decide)) _
theorem aB1_V1 (c : Dev nD) (q : Fin 64) : aB1 (V1 m ρ) c q = mB1 m c q := host_v0 (W0 m ρ c) q

/-- The first region's hidden layer is the specification's. -/
theorem hid1_eq (c : Dev nD) (p : Fin 10000) (q : Fin 64) : hid1 (V1 m ρ) c p q = sX1 m c p q := by
  unfold hid1 sup1 sX1 Cert.Spec.x1 Cert.Spec.gc128
  exact congrArg₂ max (congrArg₂ (· + ·) (Finset.sum_congr rfl fun k _ => congrArg₂ (· * ·) (aAdj_V1 m ρ c p k)
    (Finset.sum_congr rfl fun l _ => congrArg₂ (· * ·) (aX_V1 m ρ c k l) (aW1_V1 m ρ c l q))) (aB1_V1 m ρ c q)) rfl

/-- What the first region leaves. -/
theorem V2_v7_0 (c : Dev nD) (p k : Fin 10000) : (V2 m ρ c main_v7_0 (ix2 p k) : EReal) = mAdj m c p k :=
  (show (V2 m ρ c main_v7_0 (ix2 p k) : EReal) = aAdj (V1 m ρ) c p k from congrFun ((W2_arr m ρ c 5).trans (final0_5 (V1 m ρ) c)) (ix2 p k)).trans (aAdj_V1 m ρ c p k)
theorem V2_v7_1 (c : Dev nD) (p : Fin 10000) (q : Fin 64) : (V2 m ρ c main_v7_1 (ix2 p q) : EReal) = sX1 m c p q :=
  (show (V2 m ρ c main_v7_1 (ix2 p q) : EReal) = hid1 (V1 m ρ) c p q from congrFun ((W2_arr m ρ c 6).trans (final0_6 (V1 m ρ) c)) (ix2 p q)).trans (hid1_eq m ρ c p q)
theorem sup2_eq (c : Dev nD) (p : Fin 10000) (q : Fin 64) : sup2 (V1 m ρ) c p q = ∑ l : Fin 64, sX1 m c p l * mW2 m c l q := by
  unfold sup2
  exact Finset.sum_congr rfl fun l _ => congrArg₂ (· * ·) (hid1_eq m ρ c p l) (aW2_V1 m ρ c l q)
theorem V2_v7_2 (c : Dev nD) (p : Fin 10000) (q : Fin 64) : (V2 m ρ c main_v7_2 (ix2 p q) : EReal) = ∑ l : Fin 64, sX1 m c p l * mW2 m c l q :=
  (show (V2 m ρ c main_v7_2 (ix2 p q) : EReal) = sup2 (V1 m ρ) c p q from congrFun ((W2_arr m ρ c 7).trans (final0_7 (V1 m ρ) c)) (ix2 p q)).trans
    (sup2_eq m ρ c p q)
/-- A buffer that is none of the first region's arrays passes through it. -/
theorem V2_keep (c : Dev nD) (b : Ref sig .tc) (hb : ∀ w, Pipeline.arrRef spec0 w ≠ b) : V2 m ρ c b = V1 m ρ c b :=
  W2_of_ne m ρ c b hb

/-! ## The bias rows and the classifier's pieces after the host stretch, carried to the later regions -/

theorem V1_v1 (c : Dev nD) (q : Fin 64) : (V1 m ρ c main_v1 : S1x64.Idx → EReal) (ix2 (0 : Fin 1) q) = mB2 m c q := host_v1 (W0 m ρ c) q
theorem V1_v2 (c : Dev nD) (q : Fin 64) : (V1 m ρ c main_v2 : S1x64.Idx → EReal) (ix2 (0 : Fin 1) q) = mB3 m c q := host_v2 (W0 m ρ c) q
theorem V1_v3 (c : Dev nD) (j : Fin 40) : (V1 m ρ c main_v3 : S1x40.Idx → EReal) (ix2 (0 : Fin 1) j) = mBl m c j := host_v3 (W0 m ρ c) j
theorem V1_v4 (c : Dev nD) (k : Fin 64) (j : Fin 40) : (V1 m ρ c main_v4 : S64x40.Idx → EReal) (ix2 k j) = mWl m c ⟨k.val, by have := k.isLt; omega⟩ j := host_v4 (W0 m ρ c) k j
theorem V1_v5 (c : Dev nD) (k : Fin 64) (j : Fin 40) : (V1 m ρ c main_v5 : S64x40.Idx → EReal) (ix2 k j) = mWl m c ⟨k.val + 64, by have := k.isLt; omega⟩ j := host_v5 (W0 m ρ c) k j
theorem V1_v6 (c : Dev nD) (k : Fin 64) (j : Fin 40) : (V1 m ρ c main_v6 : S64x40.Idx → EReal) (ix2 k j) = mWl m c ⟨k.val + 128, by have := k.isLt; omega⟩ j := host_v6 (W0 m ρ c) k j

/-! ## The second region -/

theorem arrAdj_V2 (c : Dev nD) (p k : Fin 10000) : arrAdj (V2 m ρ) c (ix2 p k) = mAdj m c p k := V2_v7_0 m ρ c p k
theorem arrS2_V2 (c : Dev nD) (k : Fin 10000) (q : Fin 64) : arrS2 (V2 m ρ) c (ix2 k q) = ∑ l : Fin 64, sX1 m c k l * mW2 m c l q := V2_v7_2 m ρ c k q
theorem arrB2_V2 (c : Dev nD) (q : Fin 64) : arrB2 (V2 m ρ) c (ix2 (0 : Fin 1) q) = mB2 m c q :=
  (congrFun (V2_keep m ρ c main_v1 (by decide)) (ix2 (0 : Fin 1) q)).trans (V1_v1 m ρ c q)
theorem arrW3_V2 (c : Dev nD) (l q : Fin 64) : arrW3 (V2 m ρ) c (ix2 l q) = mW3 m c l q :=
  (congrFun (V2_keep m ρ c main_arg6 (by decide)) (ix2 l q)).trans (congrFun (V1_keep m ρ c main_arg6 (by decide)) (ix2 l q))

/-- The second region's hidden layer is the specification's. -/
theorem x2of_eq (c : Dev nD) (p : Fin 10000) (q : Fin 64) : x2of (V2 m ρ) c (ix2 p q) = sX2 m c p q := by
  unfold x2of sX2 Cert.Spec.x2 Cert.Spec.gc64
  exact congrArg₂ max (congrArg₂ (· + ·) (Finset.sum_congr rfl fun k _ => congrArg₂ (· * ·) (arrAdj_V2 m ρ c p k) (arrS2_V2 m ρ c k q)) (arrB2_V2 m ρ c q)) rfl
theorem s3of_eq (c : Dev nD) (p : Fin 10000) (q : Fin 64) : s3of (V2 m ρ) c (ix2 p q) = ∑ l : Fin 64, sX2 m c p l * mW3 m c l q := by
  unfold s3of
  exact Finset.sum_congr rfl fun l _ => congrArg₂ (· * ·) (x2of_eq m ρ c p l) (arrW3_V2 m ρ c l q)

/-- What the second region leaves, and what passes through it. -/
theorem V3_v8_0 (c : Dev nD) (p : Fin 10000) (q : Fin 64) : (V3 m ρ c main_v8_0 : S10000x64.Idx → EReal) (ix2 p q) = sX2 m c p q :=
  (show (V3 m ρ c main_v8_0 : S10000x64.Idx → EReal) (ix2 p q) = x2of (V2 m ρ) c (ix2 p q) from congrFun ((W3_arr m ρ c 4).trans (final1_4 (V2 m ρ) c)) (ix2 p q)).trans (x2of_eq m ρ c p q)
theorem V3_v8_1 (c : Dev nD) (p : Fin 10000) (q : Fin 64) : (V3 m ρ c main_v8_1 : S10000x64.Idx → EReal) (ix2 p q) = ∑ l : Fin 64, sX2 m c p l * mW3 m c l q :=
  (show (V3 m ρ c main_v8_1 : S10000x64.Idx → EReal) (ix2 p q) = s3of (V2 m ρ) c (ix2 p q) from congrFun ((W3_arr m ρ c 5).trans (final1_5 (V2 m ρ) c)) (ix2 p q)).trans (s3of_eq m ρ c p q)
theorem V3_keep (c : Dev nD) (b : Ref sig .tc) (hb : ∀ w, Pipeline.arrRef spec1 w ≠ b) : V3 m ρ c b = V2 m ρ c b :=
  W3_of_ne m ρ c b hb

/-! ## The third region -/

/-- The adjacency copy, an input of the second region, passes through it. -/
theorem V3_v7_0 (c : Dev nD) : V3 m ρ c main_v7_0 = V2 m ρ c main_v7_0 :=
  (W3_arr m ρ c 0).trans (((dat1 (V2 m ρ) c).arrAt_in 0 rfl _).trans (A_eq1 (V2 m ρ) c 0))

theorem arrAdj_V3 (c : Dev nD) (p k : Fin 10000) : arrAdj (V3 m ρ) c (ix2 p k) = mAdj m c p k :=
  (congrFun (V3_v7_0 m ρ c) (ix2 p k)).trans (V2_v7_0 m ρ c p k)
theorem arrX1_V3 (c : Dev nD) (p : Fin 10000) (q : Fin 64) : arrX1 (V3 m ρ) c (ix2 p q) = sX1 m c p q :=
  (congrFun (V3_keep m ρ c main_v7_1 (by decide)) (ix2 p q)).trans (V2_v7_1 m ρ c p q)
theorem arrX2_V3 (c : Dev nD) (p : Fin 10000) (q : Fin 64) : arrX2 (V3 m ρ) c (ix2 p q) = sX2 m c p q := V3_v8_0 m ρ c p q
theorem arrS3_V3 (c : Dev nD) (p : Fin 10000) (q : Fin 64) : arrS3 (V3 m ρ) c (ix2 p q) = ∑ l : Fin 64, sX2 m c p l * mW3 m c l q := V3_v8_1 m ρ c p q
theorem arrB3_V3 (c : Dev nD) (q : Fin 64) : arrB3 (V3 m ρ) c (ix2 (0 : Fin 1) q) = mB3 m c q :=
  (congrFun (V3_keep m ρ c main_v2 (by decide)) (ix2 (0 : Fin 1) q)).trans ((congrFun (V2_keep m ρ c main_v2 (by decide)) (ix2 (0 : Fin 1) q)).trans (V1_v2 m ρ c q))
theorem arrBl_V3 (c : Dev nD) (j : Fin 40) : arrBl (V3 m ρ) c (ix2 (0 : Fin 1) j) = mBl m c j :=
  (congrFun (V3_keep m ρ c main_v3 (by decide)) (ix2 (0 : Fin 1) j)).trans ((congrFun (V2_keep m ρ c main_v3 (by decide)) (ix2 (0 : Fin 1) j)).trans (V1_v3 m ρ c j))
theorem arrWl1_V3 (c : Dev nD) (k : Fin 64) (j : Fin 40) : arrWl1 (V3 m ρ) c (ix2 k j) = mWl m c ⟨k.val, by have := k.isLt; omega⟩ j :=
  (congrFun (V3_keep m ρ c main_v4 (by decide)) (ix2 k j)).trans ((congrFun (V2_keep m ρ c main_v4 (by decide)) (ix2 k j)).trans (V1_v4 m ρ c k j))
theorem arrWl2_V3 (c : Dev nD) (k : Fin 64) (j : Fin 40) : arrWl2 (V3 m ρ) c (ix2 k j) = mWl m c ⟨k.val + 64, by have := k.isLt; omega⟩ j :=
  (congrFun (V3_keep m ρ c main_v5 (by decide)) (ix2 k j)).trans ((congrFun (V2_keep m ρ c main_v5 (by decide)) (ix2 k j)).trans (V1_v5 m ρ c k j))
theorem arrWl3_V3 (c : Dev nD) (k : Fin 64) (j : Fin 40) : arrWl3 (V3 m ρ) c (ix2 k j) = mWl m c ⟨k.val + 128, by have := k.isLt; omega⟩ j :=
  (congrFun (V3_keep m ρ c main_v6 (by decide)) (ix2 k j)).trans ((congrFun (V2_keep m ρ c main_v6 (by decide)) (ix2 k j)).trans (V1_v6 m ρ c k j))

/-- The third layer, formed inside the third region, is the specification's. -/
theorem x3_V3 (c : Dev nD) (p : Fin 10000) (k : Fin 64) :
    (∑ s : Fin 10000, arrAdj (V3 m ρ) c (ix2 p s) * arrS3 (V3 m ρ) c (ix2 s k)) + arrB3 (V3 m ρ) c (ix2 (0 : Fin 1) k) = sX3 m c p k := by
  unfold sX3 Cert.Spec.x3 Cert.Spec.gc64
  exact congrArg₂ (· + ·) (Finset.sum_congr rfl fun s _ => congrArg₂ (· * ·) (arrAdj_V3 m ρ c p s) (arrS3_V3 m ρ c s k)) (arrB3_V3 m ρ c k)

/-- The logits the third region forms are the specification's three-piece logits. -/
theorem logitsOf_eq (c : Dev nD) (p : Fin 10000) (j : Fin 40) :
    logitsOf (V3 m ρ) c p j = Cert.Spec.logitsK (sX1 m c) (sX2 m c) (sX3 m c) (mWl m c) (mBl m c) p j := by
  unfold logitsOf logitsFn Cert.Spec.logitsK
  exact congrArg₂ (· + ·) (congrArg₂ (· + ·) (congrArg₂ (· + ·)
      (Finset.sum_congr rfl fun k _ => congrArg₂ (· * ·) (arrX1_V3 m ρ c p k) (arrWl1_V3 m ρ c k j))
      (Finset.sum_congr rfl fun k _ => congrArg₂ (· * ·) (arrX2_V3 m ρ c p k) (arrWl2_V3 m ρ c k j)))
      (Finset.sum_congr rfl fun k _ => congrArg₂ (· * ·) (x3_V3 m ρ c p k) (arrWl3_V3 m ρ c k j))) (arrBl_V3 m ρ c j)

/-! ## The result -/

/-- The result array after the run, in the kernel's arrangement: the log-softmax of the three-piece logits. -/
theorem result_K (c : Dev nD) (i : S10000x40.Idx) :
    (W4 m ρ c (Proc.devRef .tc main_v9) : S10000x40.Idx → EReal) i
      = Cert.Spec.lsmK (Cert.Spec.logitsK (sX1 m c) (sX2 m c) (sX3 m c) (mWl m c) (mBl m c) (rowOf i)) (colOf i) :=
  (show (W4 m ρ c (Proc.devRef .tc main_v9) : S10000x40.Idx → EReal) i = Cert.Spec.lsmK (fun j => logitsOf (V3 m ρ) c (rowOf i) j) (colOf i) from
    congrFun ((W4_result m ρ c).trans (final2_9 (V3 m ρ) c)) i).trans
    (congrArg (fun l => Cert.Spec.lsmK l (colOf i)) (funext fun j => logitsOf_eq m ρ c (rowOf i) j))

/-- When every argument entry is a real number the kernel's arrangement is the specification's: the three 64-sums are the
    one 192-sum, and logits − (log Σ exp (logits − max) + max) = (logits − max) − log Σ exp (logits − max) on the reals. -/
theorem result_spec (c : Dev nD)
    (hadj : ∀ p k, ∃ r : ℝ, mAdj m c p k = (r : EReal)) (hx : ∀ p l, ∃ r : ℝ, mX m c p l = (r : EReal))
    (hW1 : ∀ l q, ∃ r : ℝ, mW1 m c l q = (r : EReal)) (hb1 : ∀ q, ∃ r : ℝ, mB1 m c q = (r : EReal))
    (hW2 : ∀ l q, ∃ r : ℝ, mW2 m c l q = (r : EReal)) (hb2 : ∀ q, ∃ r : ℝ, mB2 m c q = (r : EReal))
    (hW3 : ∀ l q, ∃ r : ℝ, mW3 m c l q = (r : EReal)) (hb3 : ∀ q, ∃ r : ℝ, mB3 m c q = (r : EReal))
    (hWl : ∀ k j, ∃ r : ℝ, mWl m c k j = (r : EReal)) (hbl : ∀ j, ∃ r : ℝ, mBl m c j = (r : EReal))
    (i : S10000x40.Idx) :
    (W4 m ρ c (Proc.devRef .tc main_v9) : S10000x40.Idx → EReal) i
      = Cert.Spec.out (mAdj m c) (mX m c) (mW1 m c) (mB1 m c) (mW2 m c) (mB2 m c) (mW3 m c) (mB3 m c) (mWl m c) (mBl m c) (rowOf i) (colOf i) := by
  refine (result_K m ρ c i).trans ?_
  have hK : Cert.Spec.logitsK (sX1 m c) (sX2 m c) (sX3 m c) (mWl m c) (mBl m c) (rowOf i)
      = Cert.Spec.logitsR (sX1 m c) (sX2 m c) (sX3 m c) (mWl m c) (mBl m c) (rowOf i) :=
    funext fun j => Cert.Spec.logitsK_eq_logitsR _ _ _ _ _ _ j
  rw [hK, Cert.Spec.lsmK_eq_lsmR _ (fun j => Cert.Spec.logits_real hadj hx hW1 hb1 hW2 hb2 hW3 hb3 hWl hbl (rowOf i) j)]
  rfl

end Cert.KernelIdeal.Hand

end
-- ==== Proof.RefSpec.lean ====
/-
  The reference program's result is the specification: read stage by stage at an index, the value the reference
  returns at row p, class j is the network's output `Spec.out` of the ten argument arrays — three graph-convolution
  layers (the first two followed by max · 0), their outputs joined along the feature axis, one linear layer over the 192
  joined features, and the row-wise log-softmax in the order the reference takes it: the row maximum subtracted first,
  then the logarithm of the sum of exponentials.

  Each lemma below reads one stage of the program at an index written with literal coordinates, from the stage before.
  The products are sums over the contracted coordinate; the bias rows are broadcasts of the bias vectors; the zero of
  max · 0 and of the sum's initial value are the f32 word 0; the maximum's initial value is the f32 word of minus
  infinity, the least extended real, so the fold of max from it is the supremum.
-/
import proofs.«130456_g21895743275233_cont_8to1_495_2_alg».proof.Proof.RefRead
import proofs.«130456_g21895743275233_cont_8to1_495_2_alg».proof.Proof.Spec
import proofs.«130456_g21895743275233_cont_8to1_495_2_alg».proof.Proof.LibPayload

set_option maxRecDepth 16384

noncomputable section

namespace Cert.ReferenceIdeal.RefSpec

open Cert.ReferenceIdeal Cert.ReferenceIdeal.Gen Cert.ReferenceIdeal.ReadP
open Idealize.ShloMosaic Idealize.ShloMosaic.TcCoe Idealize.ShloMosaic.ValueIdx Idealize.SL.Sem Idealize.ShloMosaic.StableHlo
open Cert.KernelIdeal.Pay (lift_rows_ix1 fold_max_bot_eq_sup ofBits_neg_inf_f32)

/-! ## Indices and arrays at literal coordinates -/

/-- A rank-2 index with the coordinates a, b is `ix2 a b`. -/
theorem idx2_eq {n0 n1 : Nat} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

/-- A rank-1 index with the coordinate a is `ix1 a`. -/
theorem idx1_eq {n : Nat} (j : (⟨1, ![n]⟩ : Shape).Idx) (a : Fin n) (h0 : (j 0).val = a.val) : j = ix1 a := by
  funext d
  match d with
  | ⟨0, _⟩ => exact Fin.ext h0

/-- A rank-2 array as a function of its two coordinates. -/
abbrev mat {a b : Nat} (x : (⟨2, ![a, b]⟩ : Shape).Idx → EReal) : Fin a → Fin b → EReal := fun p q => x (ix2 p q)
/-- A rank-1 array as a function of its coordinate. -/
abbrev vec {a : Nat} (x : (⟨1, ![a]⟩ : Shape).Idx → EReal) : Fin a → EReal := fun q => x (ix1 q)

variable (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S192x40, .f32⟩ : BufTy).Contents (Elt Ideal)) (x9 : (⟨S40, .f32⟩ : BufTy).Contents (Elt Ideal))

/-! ## The first layer -/

/-- The first support matrix x · W1 at (k, q). -/
theorem v0_at (k : Fin 10000) (q : Fin 64) :
    val_main_v0 (F := Ideal) x0 x2 (ix2 k q) = ∑ l : Fin 128, x0 (ix2 k l) * x2 (ix2 l q) := by
  rw [val_main_v0_apply]
  exact Finset.sum_congr rfl fun l _ =>
    congrArg₂ (· * ·) (congrArg x0 (idx2_eq _ k l rfl rfl)) (congrArg x2 (idx2_eq _ l q rfl rfl))

/-- adj · (x · W1) at (p, q). -/
theorem v1_at (p : Fin 10000) (q : Fin 64) :
    val_main_v1 (F := Ideal) x0 x1 x2 (ix2 p q)
      = ∑ k : Fin 10000, x1 (ix2 p k) * ∑ l : Fin 128, x0 (ix2 k l) * x2 (ix2 l q) := by
  rw [val_main_v1_apply]
  exact Finset.sum_congr rfl fun k _ =>
    congrArg₂ (· * ·) (congrArg x1 (idx2_eq _ p k rfl rfl))
      ((congrArg (val_main_v0 (F := Ideal) x0 x2) (idx2_eq _ k q rfl rfl)).trans (v0_at x0 x2 k q))

/-- The bias b1 broadcast to every row, at (p, q). -/
theorem v3_at (p : Fin 10000) (q : Fin 64) : val_main_v3 (F := Ideal) x3 (ix2 p q) = x3 (ix1 q) := by
  rw [val_main_v3_apply, val_main_v2_apply]
  exact congrArg x3 (idx1_eq _ q rfl)

/-- The first layer before max · 0, at (p, q). -/
theorem v4_at (p : Fin 10000) (q : Fin 64) :
    val_main_v4 (F := Ideal) x0 x1 x2 x3 (ix2 p q) = Spec.gc128 (mat x1) (mat x0) (mat x2) (vec x3) p q := by
  rw [val_main_v4_apply, v1_at, v3_at, Ideal.addf_def]
  rfl

/-- The first layer's output, at (p, q). -/
theorem v5_at (p : Fin 10000) (q : Fin 64) :
    val_main_v5 (F := Ideal) x0 x1 x2 x3 (ix2 p q) = Spec.x1 (mat x1) (mat x0) (mat x2) (vec x3) p q := by
  rw [val_main_v5_apply, v4_at, val_main_call0_v0_apply, val_main_call0_cst_apply, Ideal.maximumf_def, Ideal.ofBits_def,
    Ideal.ofBits_zero_f32]
  rfl

/-! ## The second layer -/

/-- The second support matrix x1 · W2 at (k, q). -/
theorem v6_at (k : Fin 10000) (q : Fin 64) :
    val_main_v6 (F := Ideal) x0 x1 x2 x3 x4 (ix2 k q)
      = ∑ l : Fin 64, Spec.x1 (mat x1) (mat x0) (mat x2) (vec x3) k l * x4 (ix2 l q) := by
  rw [val_main_v6_apply]
  exact Finset.sum_congr rfl fun l _ =>
    congrArg₂ (· * ·) ((congrArg (val_main_v5 (F := Ideal) x0 x1 x2 x3) (idx2_eq _ k l rfl rfl)).trans (v5_at x0 x1 x2 x3 k l))
      (congrArg x4 (idx2_eq _ l q rfl rfl))

/-- adj · (x1 · W2) at (p, q). -/
theorem v7_at (p : Fin 10000) (q : Fin 64) :
    val_main_v7 (F := Ideal) x0 x1 x2 x3 x4 (ix2 p q)
      = ∑ k : Fin 10000, x1 (ix2 p k) * ∑ l : Fin 64, Spec.x1 (mat x1) (mat x0) (mat x2) (vec x3) k l * x4 (ix2 l q) := by
  rw [val_main_v7_apply]
  exact Finset.sum_congr rfl fun k _ =>
    congrArg₂ (· * ·) (congrArg x1 (idx2_eq _ p k rfl rfl))
      ((congrArg (val_main_v6 (F := Ideal) x0 x1 x2 x3 x4) (idx2_eq _ k q rfl rfl)).trans (v6_at x0 x1 x2 x3 x4 k q))

/-- The bias b2 broadcast to every row, at (p, q). -/
theorem v9_at (p : Fin 10000) (q : Fin 64) : val_main_v9 (F := Ideal) x5 (ix2 p q) = x5 (ix1 q) := by
  rw [val_main_v9_apply, val_main_v8_apply]
  exact congrArg x5 (idx1_eq _ q rfl)

/-- The second layer before max · 0, at (p, q). -/
theorem v10_at (p : Fin 10000) (q : Fin 64) :
    val_main_v10 (F := Ideal) x0 x1 x2 x3 x4 x5 (ix2 p q) = Spec.gc64 (mat x1) (Spec.x1 (mat x1) (mat x0) (mat x2) (vec x3)) (mat x4) (vec x5) p q := by
  rw [val_main_v10_apply, v7_at, v9_at, Ideal.addf_def]
  rfl

/-- The second layer's output, at (p, q). -/
theorem v11_at (p : Fin 10000) (q : Fin 64) :
    val_main_v11 (F := Ideal) x0 x1 x2 x3 x4 x5 (ix2 p q) = Spec.x2 (mat x1) (mat x0) (mat x2) (vec x3) (mat x4) (vec x5) p q := by
  rw [val_main_v11_apply, v10_at, val_main_call1_v0_apply, val_main_call1_cst_apply, Ideal.maximumf_def, Ideal.ofBits_def,
    Ideal.ofBits_zero_f32]
  rfl

/-! ## The third layer -/

/-- The third support matrix x2 · W3 at (k, q). -/
theorem v12_at (k : Fin 10000) (q : Fin 64) :
    val_main_v12 (F := Ideal) x0 x1 x2 x3 x4 x5 x6 (ix2 k q)
      = ∑ l : Fin 64, Spec.x2 (mat x1) (mat x0) (mat x2) (vec x3) (mat x4) (vec x5) k l * x6 (ix2 l q) := by
  rw [val_main_v12_apply]
  exact Finset.sum_congr rfl fun l _ =>
    congrArg₂ (· * ·) ((congrArg (val_main_v11 (F := Ideal) x0 x1 x2 x3 x4 x5) (idx2_eq _ k l rfl rfl)).trans (v11_at x0 x1 x2 x3 x4 x5 k l))
      (congrArg x6 (idx2_eq _ l q rfl rfl))

/-- adj · (x2 · W3) at (p, q). -/
theorem v13_at (p : Fin 10000) (q : Fin 64) :
    val_main_v13 (F := Ideal) x0 x1 x2 x3 x4 x5 x6 (ix2 p q)
      = ∑ k : Fin 10000, x1 (ix2 p k) * ∑ l : Fin 64, Spec.x2 (mat x1) (mat x0) (mat x2) (vec x3) (mat x4) (vec x5) k l * x6 (ix2 l q) := by
  rw [val_main_v13_apply]
  exact Finset.sum_congr rfl fun k _ =>
    congrArg₂ (· * ·) (congrArg x1 (idx2_eq _ p k rfl rfl))
      ((congrArg (val_main_v12 (F := Ideal) x0 x1 x2 x3 x4 x5 x6) (idx2_eq _ k q rfl rfl)).trans (v12_at x0 x1 x2 x3 x4 x5 x6 k q))

/-- The bias b3 broadcast to every row, at (p, q). -/
theorem v15_at (p : Fin 10000) (q : Fin 64) : val_main_v15 (F := Ideal) x7 (ix2 p q) = x7 (ix1 q) := by
  rw [val_main_v15_apply, val_main_v14_apply]
  exact congrArg x7 (idx1_eq _ q rfl)

/-- The third layer's output (no max), at (p, q). -/
theorem v16_at (p : Fin 10000) (q : Fin 64) :
    val_main_v16 (F := Ideal) x0 x1 x2 x3 x4 x5 x6 x7 (ix2 p q) = Spec.x3 (mat x1) (mat x0) (mat x2) (vec x3) (mat x4) (vec x5) (mat x6) (vec x7) p q := by
  rw [val_main_v16_apply, v13_at, v15_at, Ideal.addf_def]
  rfl

/-! ## The three layers joined, and the linear layer -/

/-- Three [10000, 64] arrays joined along the feature axis, at (p, j): the piece that column j falls in. -/
theorem concat3_at (y0 y1 y2 : S10000x64.Idx → EReal)
    (h : Shape.Concatenates [S10000x64, S10000x64, S10000x64] S10000x192 1) (p : Fin 10000) (j : Fin 192) :
    concatenate S10000x192 1 [⟨S10000x64, y0⟩, ⟨S10000x64, y1⟩, ⟨S10000x64, y2⟩] h (ix2 p j)
      = Spec.hcat (mat y0) (mat y1) (mat y2) p j := by
  unfold Spec.hcat
  have hoff : ∀ (i : S10000x64.Idx), (i 0).val = p.val →
      ∀ b : Fin S10000x64.rank, b.cast (rfl : S10000x64.rank = S10000x192.rank) ≠ (1 : Fin 2) →
        (i b).val = ((ix2 p j : S10000x192.Idx) (b.cast (rfl : S10000x64.rank = S10000x192.rank))).val := by
    intro i hi b hb
    match b with
    | ⟨0, _⟩ => exact hi
    | ⟨1, _⟩ => exact absurd rfl hb
  split
  · rename_i h0
    exact concatenate_apply_piece (α := EReal) (t := S10000x192) (1 : Fin 2) [⟨S10000x64, y0⟩, ⟨S10000x64, y1⟩, ⟨S10000x64, y2⟩] h (ix2 p j) 0 (by show (0 : Nat) < 3; omega) S10000x64 y0 rfl rfl 0 rfl
      (ix2 p ⟨j.val, h0⟩) (hoff _ rfl) (Nat.zero_add _)
  · rename_i h0
    split
    · rename_i h1
      exact concatenate_apply_piece (α := EReal) (t := S10000x192) (1 : Fin 2) [⟨S10000x64, y0⟩, ⟨S10000x64, y1⟩, ⟨S10000x64, y2⟩] h (ix2 p j) 1 (by show (1 : Nat) < 3; omega) S10000x64 y1 rfl rfl 64 rfl
        (ix2 p ⟨j.val - 64, by omega⟩) (hoff _ rfl) (by show 64 + (j.val - 64) = j.val; omega)
    · rename_i h1
      exact concatenate_apply_piece (α := EReal) (t := S10000x192) (1 : Fin 2) [⟨S10000x64, y0⟩, ⟨S10000x64, y1⟩, ⟨S10000x64, y2⟩] h (ix2 p j) 2 (by show (2 : Nat) < 3; omega) S10000x64 y2 rfl rfl 128 rfl
        (ix2 p ⟨j.val - 128, by omega⟩) (hoff _ rfl) (by show 128 + (j.val - 128) = j.val; omega)

/-- The joined features, at (p, j). -/
theorem v17_at (p : Fin 10000) (j : Fin 192) :
    val_main_v17 (F := Ideal) x0 x1 x2 x3 x4 x5 x6 x7 (ix2 p j) = Spec.hcat (Spec.x1 (mat x1) (mat x0) (mat x2) (vec x3)) (Spec.x2 (mat x1) (mat x0) (mat x2) (vec x3) (mat x4) (vec x5)) (Spec.x3 (mat x1) (mat x0) (mat x2) (vec x3) (mat x4) (vec x5) (mat x6) (vec x7)) p j := by
  unfold val_main_v17
  refine (concat3_at _ _ _ _ p j).trans ?_
  have e0 : mat (val_main_v5 (F := Ideal) x0 x1 x2 x3) = Spec.x1 (mat x1) (mat x0) (mat x2) (vec x3) :=
    funext fun p => funext fun q => v5_at x0 x1 x2 x3 p q
  have e1 : mat (val_main_v11 (F := Ideal) x0 x1 x2 x3 x4 x5) = Spec.x2 (mat x1) (mat x0) (mat x2) (vec x3) (mat x4) (vec x5) :=
    funext fun p => funext fun q => v11_at x0 x1 x2 x3 x4 x5 p q
  have e2 : mat (val_main_v16 (F := Ideal) x0 x1 x2 x3 x4 x5 x6 x7) = Spec.x3 (mat x1) (mat x0) (mat x2) (vec x3) (mat x4) (vec x5) (mat x6) (vec x7) :=
    funext fun p => funext fun q => v16_at x0 x1 x2 x3 x4 x5 x6 x7 p q
  rw [e0, e1, e2]

/-- The joined features times the classifier's weights, at (p, j). -/
theorem v18_at (p : Fin 10000) (j : Fin 40) :
    val_main_v18 (F := Ideal) x0 x1 x2 x3 x4 x5 x6 x7 x8 (ix2 p j)
      = ∑ k : Fin 192, Spec.hcat (Spec.x1 (mat x1) (mat x0) (mat x2) (vec x3)) (Spec.x2 (mat x1) (mat x0) (mat x2) (vec x3) (mat x4) (vec x5)) (Spec.x3 (mat x1) (mat x0) (mat x2) (vec x3) (mat x4) (vec x5) (mat x6) (vec x7)) p k * x8 (ix2 k j) := by
  rw [val_main_v18_apply]
  exact Finset.sum_congr rfl fun k _ =>
    congrArg₂ (· * ·) ((congrArg (val_main_v17 (F := Ideal) x0 x1 x2 x3 x4 x5 x6 x7) (idx2_eq _ p k rfl rfl)).trans
      (v17_at x0 x1 x2 x3 x4 x5 x6 x7 p k)) (congrArg x8 (idx2_eq _ k j rfl rfl))

/-- The classifier's bias broadcast to every row, at (p, j). -/
theorem v20_at (p : Fin 10000) (j : Fin 40) : val_main_v20 (F := Ideal) x9 (ix2 p j) = x9 (ix1 j) := by
  rw [val_main_v20_apply, val_main_v19_apply]
  exact congrArg x9 (idx1_eq _ j rfl)

/-- The logits, at (p, j). -/
theorem v21_at (p : Fin 10000) (j : Fin 40) :
    val_main_v21 (F := Ideal) x0 x1 x2 x3 x4 x5 x6 x7 x8 x9 (ix2 p j) = (Spec.logitsR (Spec.x1 (mat x1) (mat x0) (mat x2) (vec x3)) (Spec.x2 (mat x1) (mat x0) (mat x2) (vec x3) (mat x4) (vec x5)) (Spec.x3 (mat x1) (mat x0) (mat x2) (vec x3) (mat x4) (vec x5) (mat x6) (vec x7)) (mat x8) (vec x9) p j) := by
  rw [val_main_v21_apply, v18_at, v20_at, Ideal.addf_def]
  rfl

/-! ## The log-softmax -/

/-- The host's maximum over the classes from an initial value that is the least extended real, at row p: the supremum
    over the 40 classes. -/
theorem host_rowmax (y : (⟨S10000x40, .f32⟩ : BufTy).Contents (Elt Ideal)) (init : (⟨S_, .f32⟩ : BufTy).Contents (Elt Ideal))
    (hinit : init (Shape.Idx.first h_S_) = ⊥) (p : Fin 10000) :
    Host.reduce (FloatOps.maximumf (F := Ideal) (φ := .f32)) y init reducesTo_S10000x40_S10000_d1 h_S_ (ix1 p)
      = Finset.univ.sup fun k : Fin 40 => y (ix2 p k) := by
  have hr : S10000x40.Reduces [1] S10000 := by decide
  refine (Host.reduce_eq_fold_single _ y init reducesTo_S10000x40_S10000_d1 hr h_S_ (ix1 p)).trans ?_
  have hf : (y ∘ hr.lift (ix1 p)) = fun k : Fin 40 => y (ix2 p k) :=
    funext fun k => congrArg y (lift_rows_ix1 hr p k)
  show (Finset.univ : Finset (Fin 40)).fold max (init (Shape.Idx.first h_S_)) (y ∘ hr.lift (ix1 p)) = _
  rw [hf, hinit]
  exact fold_max_bot_eq_sup _

/-- The row maximum of the logits, at p. -/
theorem c2v0_at (p : Fin 10000) :
    val_main_call2_v0 (F := Ideal) x0 x1 x2 x3 x4 x5 x6 x7 x8 x9 (ix1 p) = Spec.rowmax (Spec.logitsR (Spec.x1 (mat x1) (mat x0) (mat x2) (vec x3)) (Spec.x2 (mat x1) (mat x0) (mat x2) (vec x3) (mat x4) (vec x5)) (Spec.x3 (mat x1) (mat x0) (mat x2) (vec x3) (mat x4) (vec x5) (mat x6) (vec x7)) (mat x8) (vec x9) p) := by
  unfold val_main_call2_v0
  refine (host_rowmax _ _ ?_ p).trans ?_
  · rw [val_main_call2_cst_apply, Ideal.ofBits_def]
    exact ofBits_neg_inf_f32
  · unfold Spec.rowmax
    exact congrArg (Finset.univ.sup) (funext fun k => v21_at x0 x1 x2 x3 x4 x5 x6 x7 x8 x9 p k)

/-- The larger of minus infinity and the row maximum is the row maximum, at p. -/
theorem c2v2_at (p : Fin 10000) :
    val_main_call2_v2 (F := Ideal) x0 x1 x2 x3 x4 x5 x6 x7 x8 x9 (ix1 p) = Spec.rowmax (Spec.logitsR (Spec.x1 (mat x1) (mat x0) (mat x2) (vec x3)) (Spec.x2 (mat x1) (mat x0) (mat x2) (vec x3) (mat x4) (vec x5)) (Spec.x3 (mat x1) (mat x0) (mat x2) (vec x3) (mat x4) (vec x5) (mat x6) (vec x7)) (mat x8) (vec x9) p) := by
  rw [val_main_call2_v2_apply, c2v0_at, val_main_call2_v1_apply, val_main_call2_cst_0_apply, Ideal.maximumf_def,
    Ideal.ofBits_def, ofBits_neg_inf_f32]
  exact max_bot_left _

/-- The row maximum broadcast along the row, at (p, j). -/
theorem c2v4_at (p : Fin 10000) (j : Fin 40) :
    val_main_call2_v4 (F := Ideal) x0 x1 x2 x3 x4 x5 x6 x7 x8 x9 (ix2 p j) = Spec.rowmax (Spec.logitsR (Spec.x1 (mat x1) (mat x0) (mat x2) (vec x3)) (Spec.x2 (mat x1) (mat x0) (mat x2) (vec x3) (mat x4) (vec x5)) (Spec.x3 (mat x1) (mat x0) (mat x2) (vec x3) (mat x4) (vec x5) (mat x6) (vec x7)) (mat x8) (vec x9) p) := by
  rw [val_main_call2_v4_apply, val_main_call2_v3_apply]
  exact (congrArg (val_main_call2_v2 (F := Ideal) x0 x1 x2 x3 x4 x5 x6 x7 x8 x9) (idx1_eq _ p rfl)).trans (c2v2_at x0 x1 x2 x3 x4 x5 x6 x7 x8 x9 p)

/-- The logits less their row maximum, at (p, j). -/
theorem c2v5_at (p : Fin 10000) (j : Fin 40) :
    val_main_call2_v5 (F := Ideal) x0 x1 x2 x3 x4 x5 x6 x7 x8 x9 (ix2 p j) = (Spec.logitsR (Spec.x1 (mat x1) (mat x0) (mat x2) (vec x3)) (Spec.x2 (mat x1) (mat x0) (mat x2) (vec x3) (mat x4) (vec x5)) (Spec.x3 (mat x1) (mat x0) (mat x2) (vec x3) (mat x4) (vec x5) (mat x6) (vec x7)) (mat x8) (vec x9) p) j - Spec.rowmax (Spec.logitsR (Spec.x1 (mat x1) (mat x0) (mat x2) (vec x3)) (Spec.x2 (mat x1) (mat x0) (mat x2) (vec x3) (mat x4) (vec x5)) (Spec.x3 (mat x1) (mat x0) (mat x2) (vec x3) (mat x4) (vec x5) (mat x6) (vec x7)) (mat x8) (vec x9) p) := by
  rw [val_main_call2_v5_apply, v21_at, c2v4_at, Ideal.subf_def]

/-- Their exponentials, at (p, j). -/
theorem c2v6_at (p : Fin 10000) (j : Fin 40) :
    val_main_call2_v6 (F := Ideal) x0 x1 x2 x3 x4 x5 x6 x7 x8 x9 (ix2 p j) = Ideal.exp ((Spec.logitsR (Spec.x1 (mat x1) (mat x0) (mat x2) (vec x3)) (Spec.x2 (mat x1) (mat x0) (mat x2) (vec x3) (mat x4) (vec x5)) (Spec.x3 (mat x1) (mat x0) (mat x2) (vec x3) (mat x4) (vec x5) (mat x6) (vec x7)) (mat x8) (vec x9) p) j - Spec.rowmax (Spec.logitsR (Spec.x1 (mat x1) (mat x0) (mat x2) (vec x3)) (Spec.x2 (mat x1) (mat x0) (mat x2) (vec x3) (mat x4) (vec x5)) (Spec.x3 (mat x1) (mat x0) (mat x2) (vec x3) (mat x4) (vec x5) (mat x6) (vec x7)) (mat x8) (vec x9) p)) := by
  rw [val_main_call2_v6_apply, c2v5_at, Ideal.hostUnary_exp_def]

/-- The sum of the exponentials over the classes, at p. -/
theorem c2v7_at (p : Fin 10000) :
    val_main_call2_v7 (F := Ideal) x0 x1 x2 x3 x4 x5 x6 x7 x8 x9 (ix1 p)
      = ∑ k : Fin 40, Ideal.exp ((Spec.logitsR (Spec.x1 (mat x1) (mat x0) (mat x2) (vec x3)) (Spec.x2 (mat x1) (mat x0) (mat x2) (vec x3) (mat x4) (vec x5)) (Spec.x3 (mat x1) (mat x0) (mat x2) (vec x3) (mat x4) (vec x5) (mat x6) (vec x7)) (mat x8) (vec x9) p) k - Spec.rowmax (Spec.logitsR (Spec.x1 (mat x1) (mat x0) (mat x2) (vec x3)) (Spec.x2 (mat x1) (mat x0) (mat x2) (vec x3) (mat x4) (vec x5)) (Spec.x3 (mat x1) (mat x0) (mat x2) (vec x3) (mat x4) (vec x5) (mat x6) (vec x7)) (mat x8) (vec x9) p)) := by
  rw [val_main_call2_v7_apply, val_main_call2_cst_1_apply, Ideal.ofBits_def, Ideal.ofBits_zero_f32, zero_add]
  exact Finset.sum_congr rfl fun k _ =>
    (congrArg (val_main_call2_v6 (F := Ideal) x0 x1 x2 x3 x4 x5 x6 x7 x8 x9) (idx2_eq _ p k rfl rfl)).trans (c2v6_at x0 x1 x2 x3 x4 x5 x6 x7 x8 x9 p k)

/-- Its logarithm broadcast along the row, at (p, j). -/
theorem c2v10_at (p : Fin 10000) (j : Fin 40) :
    val_main_call2_v10 (F := Ideal) x0 x1 x2 x3 x4 x5 x6 x7 x8 x9 (ix2 p j)
      = Ideal.log (∑ k : Fin 40, Ideal.exp ((Spec.logitsR (Spec.x1 (mat x1) (mat x0) (mat x2) (vec x3)) (Spec.x2 (mat x1) (mat x0) (mat x2) (vec x3) (mat x4) (vec x5)) (Spec.x3 (mat x1) (mat x0) (mat x2) (vec x3) (mat x4) (vec x5) (mat x6) (vec x7)) (mat x8) (vec x9) p) k - Spec.rowmax (Spec.logitsR (Spec.x1 (mat x1) (mat x0) (mat x2) (vec x3)) (Spec.x2 (mat x1) (mat x0) (mat x2) (vec x3) (mat x4) (vec x5)) (Spec.x3 (mat x1) (mat x0) (mat x2) (vec x3) (mat x4) (vec x5) (mat x6) (vec x7)) (mat x8) (vec x9) p))) := by
  rw [val_main_call2_v10_apply, val_main_call2_v9_apply, val_main_call2_v8_apply, Ideal.hostUnary_log_def]
  exact congrArg Ideal.log
    ((congrArg (val_main_call2_v7 (F := Ideal) x0 x1 x2 x3 x4 x5 x6 x7 x8 x9) (idx1_eq _ p rfl)).trans (c2v7_at x0 x1 x2 x3 x4 x5 x6 x7 x8 x9 p))

/-- The reference's result, at (p, j): the network's output. -/
theorem v22_at (p : Fin 10000) (j : Fin 40) :
    val_main_v22 (F := Ideal) x0 x1 x2 x3 x4 x5 x6 x7 x8 x9 (ix2 p j)
      = Spec.out (mat x1) (mat x0) (mat x2) (vec x3) (mat x4) (vec x5) (mat x6) (vec x7) (mat x8) (vec x9) p j := by
  rw [val_main_v22_apply, c2v5_at, c2v10_at, Ideal.subf_def]
  rfl

/-! ## The ten argument arrays and the reference's result -/

variable (m' : (ℓ : Loc nD τ sig) → Buf (Elt Ideal) ℓ) (c : Dev nD)

/-- The argument arrays at literal coordinates: the adjacency, the features, and the four layers' weights and biases. -/
abbrev rAdj (p k : Fin 10000) : EReal := (m' ((c.tc : Thread nD τ).loc main_arg1) : S10000x10000.Idx → EReal) (ix2 p k)
abbrev rX (k : Fin 10000) (l : Fin 128) : EReal := (m' ((c.tc : Thread nD τ).loc main_arg0) : S10000x128.Idx → EReal) (ix2 k l)
abbrev rW1 (l : Fin 128) (q : Fin 64) : EReal := (m' ((c.tc : Thread nD τ).loc main_arg2) : S128x64.Idx → EReal) (ix2 l q)
abbrev rB1 (q : Fin 64) : EReal := (m' ((c.tc : Thread nD τ).loc main_arg3) : S64.Idx → EReal) (ix1 q)
abbrev rW2 (l : Fin 64) (q : Fin 64) : EReal := (m' ((c.tc : Thread nD τ).loc main_arg4) : S64x64.Idx → EReal) (ix2 l q)
abbrev rB2 (q : Fin 64) : EReal := (m' ((c.tc : Thread nD τ).loc main_arg5) : S64.Idx → EReal) (ix1 q)
abbrev rW3 (l : Fin 64) (q : Fin 64) : EReal := (m' ((c.tc : Thread nD τ).loc main_arg6) : S64x64.Idx → EReal) (ix2 l q)
abbrev rB3 (q : Fin 64) : EReal := (m' ((c.tc : Thread nD τ).loc main_arg7) : S64.Idx → EReal) (ix1 q)
abbrev rWl (k : Fin 192) (j : Fin 40) : EReal := (m' ((c.tc : Thread nD τ).loc main_arg8) : S192x40.Idx → EReal) (ix2 k j)
abbrev rBl (j : Fin 40) : EReal := (m' ((c.tc : Thread nD τ).loc main_arg9) : S40.Idx → EReal) (ix1 j)

/-- The reference's result at an index is the network's output of the ten argument arrays at the index's row and
    class. -/
theorem ref_eq (i : S10000x40.Idx) :
    (Cert.ReferenceIdeal.ValueP.res_main_v22 (F := Ideal) m' c : S10000x40.Idx → EReal) i
      = Cert.Spec.out (rAdj m' c) (rX m' c) (rW1 m' c) (rB1 m' c) (rW2 m' c) (rB2 m' c) (rW3 m' c) (rB3 m' c) (rWl m' c) (rBl m' c)
          ⟨(i 0).val, (i 0).isLt⟩ ⟨(i 1).val, (i 1).isLt⟩ := by
  rw [val_main_v22_eq]
  have hi : i = ix2 (⟨(i 0).val, (i 0).isLt⟩ : Fin 10000) (⟨(i 1).val, (i 1).isLt⟩ : Fin 40) := idx2_eq i _ _ rfl rfl
  exact (congrArg (val_main_v22 (F := Ideal) (m' ((c.tc : Thread nD τ).loc main_arg0)) (m' ((c.tc : Thread nD τ).loc main_arg1))
      (m' ((c.tc : Thread nD τ).loc main_arg2)) (m' ((c.tc : Thread nD τ).loc main_arg3)) (m' ((c.tc : Thread nD τ).loc main_arg4))
      (m' ((c.tc : Thread nD τ).loc main_arg5)) (m' ((c.tc : Thread nD τ).loc main_arg6)) (m' ((c.tc : Thread nD τ).loc main_arg7))
      (m' ((c.tc : Thread nD τ).loc main_arg8)) (m' ((c.tc : Thread nD τ).loc main_arg9))) hi).trans
    (v22_at _ _ _ _ _ _ _ _ _ _ _ _)

end Cert.ReferenceIdeal.RefSpec

end
-- ==== Proof.Finite.lean ====
/- From the precondition (every argument array has |x| < +inf at every index, the ten tests conjoined) to: every entry of
   every argument array is a real number. One lemma reads one such test at an index; it is applied ten times. -/
import proofs.«130456_g21895743275233_cont_8to1_495_2_alg».proof.Defs
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Cert.KernelIdeal Idealize.ShloMosaic Idealize.SL.Sem Idealize.ShloMosaic.ValueIdx

/-- The rank-0 shape has one index. -/
instance : Subsingleton (⟨0, ![]⟩ : Shape).Idx := ⟨fun a b => funext fun d => d.elim0⟩

/-- An extended real whose absolute value max x (-x) is below +∞ is a real: at ⊥ and at ⊤ that maximum is ⊤. -/
theorem real_of_abs_lt_top (x : EReal) (h : max x (-x) < ⊤) : ∃ r : ℝ, x = (r : EReal) := by
  induction x using EReal.rec
  · exact absurd h (by simp)
  · exact ⟨_, rfl⟩
  · exact absurd h (by simp)

/-- The f32 word of +∞ is the greatest extended real. -/
theorem ofBits_inf_f32 : Ideal.ofBits .f32 0x7F800000#32 = ⊤ := by
  simp [Ideal.ofBits, Ideal.ieee]

/-- One test of the precondition: if the conjunction over ALL indices of a shape of |x| < +inf (the comparison against the
    splat of the word of +∞, reduced by and from true into the rank-0 shape) is 1, then every entry of x is a real. -/
theorem real_of_all_lt_inf {s : Shape} {axes : List (Fin s.rank)} (x : FVec Ideal s .f32)
    (hb : (⟨0, ![]⟩ : Shape).BroadcastsInDim s (![] : Fin 0 → Fin s.rank))
    (h : s.ReducesTo axes ⟨0, ![]⟩) (hu : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) h hu ix0 = 1#1)
    (i : s.Idx) : ∃ r : ℝ, x i = (r : EReal) := by
  have hi := Host.reduce_andi_all _ _ h hu ix0 e i
  have hc : broadcastInDim s ![] hb (constant (F := Ideal) ⟨0, ![]⟩ .f32 0x7F800000#32) i = (⊤ : EReal) :=
    (broadcastInDim_apply _ hb _ i ix0 (fun a => a.elim0)).trans ofBits_inf_f32
  have hcmp : Ideal.cmp .olt (max (x i) (-(x i)))
      (broadcastInDim s ![] hb (constant (F := Ideal) ⟨0, ![]⟩ .f32 0x7F800000#32) i) = 1#1 := hi
  rw [hc] at hcmp
  refine real_of_abs_lt_top _ ?_
  by_contra hn
  have hd : decide (max (x i) (-(x i)) < (⊤ : EReal)) = false := decide_eq_false hn
  unfold Ideal.cmp at hcmp
  simp only [hd] at hcmp
  exact absurd hcmp (by decide)

/-- Under the precondition every entry of each of the ten argument arrays is a real, on every device. -/
theorem real_of_pre [hP : Cert.Pre_finite_inputs.Facts] (m : (ℓ : Loc nD τ sig) → Buf (Elt Ideal) ℓ)
    (h : Cert.Pre_KernelIdeal m) (c : Dev nD) :
    (∀ i : S10000x128.Idx, ∃ r : ℝ, ((m ((c.tc : Thread nD τ).loc main_arg0) : FVec Ideal S10000x128 .f32) i : EReal) = (r : EReal))
      ∧ (∀ i : S10000x10000.Idx, ∃ r : ℝ, ((m ((c.tc : Thread nD τ).loc main_arg1) : FVec Ideal S10000x10000 .f32) i : EReal) = (r : EReal))
      ∧ (∀ i : S128x64.Idx, ∃ r : ℝ, ((m ((c.tc : Thread nD τ).loc main_arg2) : FVec Ideal S128x64 .f32) i : EReal) = (r : EReal))
      ∧ (∀ i : S64.Idx, ∃ r : ℝ, ((m ((c.tc : Thread nD τ).loc main_arg3) : FVec Ideal S64 .f32) i : EReal) = (r : EReal))
      ∧ (∀ i : S64x64.Idx, ∃ r : ℝ, ((m ((c.tc : Thread nD τ).loc main_arg4) : FVec Ideal S64x64 .f32) i : EReal) = (r : EReal))
      ∧ (∀ i : S64.Idx, ∃ r : ℝ, ((m ((c.tc : Thread nD τ).loc main_arg5) : FVec Ideal S64 .f32) i : EReal) = (r : EReal))
      ∧ (∀ i : S64x64.Idx, ∃ r : ℝ, ((m ((c.tc : Thread nD τ).loc main_arg6) : FVec Ideal S64x64 .f32) i : EReal) = (r : EReal))
      ∧ (∀ i : S64.Idx, ∃ r : ℝ, ((m ((c.tc : Thread nD τ).loc main_arg7) : FVec Ideal S64 .f32) i : EReal) = (r : EReal))
      ∧ (∀ i : S192x40.Idx, ∃ r : ℝ, ((m ((c.tc : Thread nD τ).loc main_arg8) : FVec Ideal S192x40 .f32) i : EReal) = (r : EReal))
      ∧ (∀ i : S40.Idx, ∃ r : ℝ, ((m ((c.tc : Thread nD τ).loc main_arg9) : FVec Ideal S40 .f32) i : EReal) = (r : EReal)) := by
  have e := congrFun (h c) ix0
  dsimp only [Cert.Pre_finite_inputs.fn, Cert.Pre_finite_inputs.fn_part1, Cert.Pre_finite_inputs.fn_part2] at e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all_lt_inf _ _ _ _ e0, real_of_all_lt_inf _ _ _ _ e1, real_of_all_lt_inf _ _ _ _ e2,
    real_of_all_lt_inf _ _ _ _ e3, real_of_all_lt_inf _ _ _ _ e4, real_of_all_lt_inf _ _ _ _ e5,
    real_of_all_lt_inf _ _ _ _ e6, real_of_all_lt_inf _ _ _ _ e7, real_of_all_lt_inf _ _ _ _ e8,
    real_of_all_lt_inf _ _ _ _ e9⟩

end Cert.Finite

end
-- ==== Proof.lean ====
/-
  Three graph-convolution layers over a dense 10000 × 10000 adjacency, then a 192 → 40 classifier and a log-softmax:
      x1 = relu (adj · (x · W1) + b1),  x2 = relu (adj · (x1 · W2) + b2),  x3 = adj · (x2 · W3) + b3,
      out = log_softmax ([x1 | x2 | x3] · Wl + bl).
  The kernel program does this in three pallas_call regions over row blocks of the adjacency (200 rows per point in the
  first, 400 in the others). The first region also re-formats the adjacency (a product with 1 and a change of float format,
  both the identity on the extended reals) and keeps the support matrix x · W1 in a scratch buffer, computed at its first
  point and read at every point. The third region forms the logits as three 64-term sums against the three 64-row pieces
  of Wl, where the reference forms one 192-term sum against the concatenation, and writes logits − (log Σ exp (logits − m) + m)
  where the reference writes (logits − m) − log Σ exp (logits − m), m the row maximum.

  On the extended reals the sums agree by associativity and commutativity alone; the two spellings of the log-softmax agree
  when the logits are real numbers, which they are when every input is (the precondition): sums and products of reals are
  reals, the maximum of finitely many reals is one of them, the exponentials are positive reals and so is their sum.

  The frames: each kernel program runs to the end, faults nowhere and leaves its arguments as launched, proved region by
  region (each body run symbolically at a generic grid point; the first region's invariant says what the scratch holds
  after every point) and chained through the host operations; the reference's frame is its run with the result dropped.
  The ideal pass rewrote nothing, so the idealization claim is trivial.
-/
import proofs.«130456_g21895743275233_cont_8to1_495_2_alg».proof.Defs
import proofs.«130456_g21895743275233_cont_8to1_495_2_alg».proof.Proof.Gen.Kernel
import proofs.«130456_g21895743275233_cont_8to1_495_2_alg».proof.Proof.Gen.KernelIdeal
import proofs.«130456_g21895743275233_cont_8to1_495_2_alg».proof.Proof.Gen.ReferenceIdeal
import proofs.«130456_g21895743275233_cont_8to1_495_2_alg».proof.Proof.Gen.Pre_finite_inputs
import proofs.«130456_g21895743275233_cont_8to1_495_2_alg».proof.Proof.K.Run
import proofs.«130456_g21895743275233_cont_8to1_495_2_alg».proof.Proof.KI.Run
import proofs.«130456_g21895743275233_cont_8to1_495_2_alg».proof.Proof.KI.Chain
import proofs.«130456_g21895743275233_cont_8to1_495_2_alg».proof.Proof.RefRun
import proofs.«130456_g21895743275233_cont_8to1_495_2_alg».proof.Proof.RefSpec
import proofs.«130456_g21895743275233_cont_8to1_495_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program's frame. -/
theorem frame_k : Cert.frame_Kernel (hKernel := Cert.Kernel.Gen.facts) (hPre_finite_inputs := Cert.Pre_finite_inputs.Gen.facts) :=
  fun m ρ _ => Cert.Kernel.Hand.frame m ρ

/-- The idealized kernel program's frame. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

open Cert.KernelIdeal.Hand in
/-- Both idealized programs end at the specification's function of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (fun i : Cert.KernelIdeal.S10000x40.Idx =>
      Cert.Spec.out (mAdj m c) (mX m c) (mW1 m c) (mB1 m c) (mW2 m c) (mB2 m c) (mW3 m c) (mB3 m c) (mWl m c) (mBl m c) (rowOf i) (colOf i)), ?_, ?_⟩
  · refine (θ_run Cert.KernelIdeal.defs _ _).mono (fun r h c => ⟨(h c).1.trans (funext fun i => ?_), (h c).2⟩)
      (Cert.KernelIdeal.Hand.run_all m ρ)
    obtain ⟨h0, h1, h2, h3, h4, h5, h6, h7, h8, h9⟩ := Cert.Finite.real_of_pre (hP := Cert.Pre_finite_inputs.Gen.facts) m hpre c
    exact result_spec m ρ c (fun p k => h1 _) (fun p l => h0 _) (fun l q => h2 _) (fun q => h3 _) (fun l q => h4 _) (fun q => h5 _)
      (fun l q => h6 _) (fun q => h7 _) (fun k j => h8 _) (fun j => h9 _) i
  · refine (θ_run Cert.ReferenceIdeal.defs _ _).mono (fun r h c => ⟨(h c).1.trans (funext fun i => ?_), (h c).2⟩)
      (Cert.ReferenceIdeal.ValueP.run (F := Ideal) m' ρ')
    obtain ⟨e0, e1, e2, e3, e4, e5, e6, e7, e8, e9⟩ := hagree c
    refine (Cert.ReferenceIdeal.RefSpec.ref_eq m' c i).trans ?_
    have a1 : Cert.ReferenceIdeal.RefSpec.rAdj m' c = mAdj m c := funext fun p => funext fun k => congrFun e1 (ix2 p k)
    have a0 : Cert.ReferenceIdeal.RefSpec.rX m' c = mX m c := funext fun p => funext fun k => congrFun e0 (ix2 p k)
    have a2 : Cert.ReferenceIdeal.RefSpec.rW1 m' c = mW1 m c := funext fun p => funext fun k => congrFun e2 (ix2 p k)
    have a3 : Cert.ReferenceIdeal.RefSpec.rB1 m' c = mB1 m c := funext fun q => congrFun e3 (ix1 q)
    have a4 : Cert.ReferenceIdeal.RefSpec.rW2 m' c = mW2 m c := funext fun p => funext fun k => congrFun e4 (ix2 p k)
    have a5 : Cert.ReferenceIdeal.RefSpec.rB2 m' c = mB2 m c := funext fun q => congrFun e5 (ix1 q)
    have a6 : Cert.ReferenceIdeal.RefSpec.rW3 m' c = mW3 m c := funext fun p => funext fun k => congrFun e6 (ix2 p k)
    have a7 : Cert.ReferenceIdeal.RefSpec.rB3 m' c = mB3 m c := funext fun q => congrFun e7 (ix1 q)
    have a8 : Cert.ReferenceIdeal.RefSpec.rWl m' c = mWl m c := funext fun p => funext fun k => congrFun e8 (ix2 p k)
    have a9 : Cert.ReferenceIdeal.RefSpec.rBl m' c = mBl m c := funext fun q => congrFun e9 (ix1 q)
    rw [a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
